-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S2x128x128 : Shape := ⟨3, ![2, 128, 128]⟩
abbrev S2x128 : Shape := ⟨2, ![2, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_arg5 : FVec F S2x128 .f32) (main_arg6 : FVec F S2x128 .f32) (main_arg7 : FVec F S2x128 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128 .f32 := Host.absf main_arg5
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2x128 .f32 := Host.absf main_arg6
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S2x128 .f32 := Host.absf main_arg7
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S2x128x128 .f32) (main_arg3 : FVec F S2x128 .f32) (main_arg4 : FVec F S2x128x128 .f32) (main_arg5 : FVec F S2x128 .f32) (main_arg6 : FVec F S2x128 .f32) (main_arg7 : FVec F S2x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S2x128x128 .f32 := Host.absf main_arg2
  let main_cst_0 : FVec F S_ .f32 := constant S_ .f32 0x7F800000#32
  let main_v5 : FVec F S2x128x128 .f32 := broadcastInDim S2x128x128 ![] bcast_S_S2x128x128 main_cst_0
  let main_v6 : IVec S2x128x128 1 := cmpf .olt main_v4 main_v5
  let main_c_1 : IVec S_ 1 := constantI S_ 1 1#1
  let main_v7 : IVec S_ 1 := (fun x v => Host.reduce IntOp.andi x v reducesTo_S2x128x128_S_d0_1_2 h_S_) main_v6 main_c_1
  let main_v8 : IVec S_ 1 := andi main_v3 main_v7
  let main_v9 : FVec F S2x128 .f32 := Host.absf main_arg3
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S2x128x128 .f32 := Host.absf main_arg4
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S2x128x128 : Shape := ⟨3, ![2, 128, 128]⟩
abbrev S2x128 : Shape := ⟨2, ![2, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S1x50000x128 : Shape := ⟨3, ![1, 50000, 128]⟩
abbrev S2x50000x128 : Shape := ⟨3, ![2, 50000, 128]⟩

abbrev nBuf : Space → Nat
  | .hbm => 105
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S2x128x128, .f32⟩
  | .hbm, ⟨3, _⟩ => ⟨S2x128, .f32⟩
  | .hbm, ⟨4, _⟩ => ⟨S2x128x128, .f32⟩
  | .hbm, ⟨5, _⟩ => ⟨S2x128, .f32⟩
  | .hbm, ⟨6, _⟩ => ⟨S2x128, .f32⟩
  | .hbm, ⟨7, _⟩ => ⟨S2x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S1x128x128, .f32⟩
  | .hbm, ⟨26, _⟩ => ⟨S128x128, .f32⟩
  | .hbm, ⟨27, _⟩ => ⟨S1x128, .f32⟩
  | .hbm, ⟨28, _⟩ => ⟨S128, .f32⟩
  | .hbm, ⟨29, _⟩ => ⟨S1x128, .f32⟩
  | .hbm, ⟨30, _⟩ => ⟨S1x128x128, .f32⟩
  | .hbm, ⟨31, _⟩ => ⟨S128x128, .f32⟩
  | .hbm, ⟨32, _⟩ => ⟨S1x128, .f32⟩
  | .hbm, ⟨33, _⟩ => ⟨S128, .f32⟩
  | .hbm, ⟨34, _⟩ => ⟨S1x128, .f32⟩
  | .hbm, ⟨35, _⟩ => ⟨S50000x128, .f32⟩
  | .hbm, ⟨36, _⟩ => ⟨S1x128, .f32⟩
  | .hbm, ⟨37, _⟩ => ⟨S1x128, .f32⟩
  | .hbm, ⟨38, _⟩ => ⟨S_, .f32⟩
  | .hbm, ⟨39, _⟩ => ⟨S1x128, .f32⟩
  | .hbm, ⟨40, _⟩ => ⟨S1x128, .f32⟩
  | .hbm, ⟨41, _⟩ => ⟨S_, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S_, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S128, .f32⟩
  | .hbm, ⟨52, _⟩ => ⟨S1x128, .f32⟩
  | .hbm, ⟨53, _⟩ => ⟨S1x128, .f32⟩
  | .hbm, ⟨54, _⟩ => ⟨S128, .f32⟩
  | .hbm, ⟨55, _⟩ => ⟨S1x128, .f32⟩
  | .hbm, ⟨56, _⟩ => ⟨S50000x128, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S1x128x128, .f32⟩
  | .hbm, ⟨71, _⟩ => ⟨S128x128, .f32⟩
  | .hbm, ⟨72, _⟩ => ⟨S1x128, .f32⟩
  | .hbm, ⟨73, _⟩ => ⟨S128, .f32⟩
  | .hbm, ⟨74, _⟩ => ⟨S1x128, .f32⟩
  | .hbm, ⟨75, _⟩ => ⟨S1x128x128, .f32⟩
  | .hbm, ⟨76, _⟩ => ⟨S128x128, .f32⟩
  | .hbm, ⟨77, _⟩ => ⟨S1x128, .f32⟩
  | .hbm, ⟨78, _⟩ => ⟨S128, .f32⟩
  | .hbm, ⟨79, _⟩ => ⟨S1x128, .f32⟩
  | .hbm, ⟨80, _⟩ => ⟨S50000x128, .f32⟩
  | .hbm, ⟨81, _⟩ => ⟨S1x128, .f32⟩
  | .hbm, ⟨82, _⟩ => ⟨S1x128, .f32⟩
  | .hbm, ⟨83, _⟩ => ⟨S_, .f32⟩
  | .hbm, ⟨84, _⟩ => ⟨S1x128, .f32⟩
  | .hbm, ⟨85, _⟩ => ⟨S1x128, .f32⟩
  | .hbm, ⟨86, _⟩ => ⟨S_, .f32⟩
  | .hbm, ⟨87, _⟩ => ⟨S1x128, .f32⟩
  | .hbm, ⟨88, _⟩ => ⟨S1x128, .f32⟩
  | .hbm, ⟨89, _⟩ => ⟨S1x128, .f32⟩
  | .hbm, ⟨90, _⟩ => ⟨S1x128, .f32⟩
  | .hbm, ⟨91, _⟩ => ⟨S_, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S1x128, .f32⟩
  | .hbm, ⟨96, _⟩ => ⟨S128, .f32⟩
  | .hbm, ⟨97, _⟩ => ⟨S1x128, .f32⟩
  | .hbm, ⟨98, _⟩ => ⟨S1x128, .f32⟩
  | .hbm, ⟨99, _⟩ => ⟨S128, .f32⟩
  | .hbm, ⟨100, _⟩ => ⟨S1x128, .f32⟩
  | .hbm, ⟨101, _⟩ => ⟨S50000x128, .f32⟩
  | .hbm, ⟨102, _⟩ => ⟨S1x50000x128, .f32⟩
  | .hbm, ⟨103, _⟩ => ⟨S1x50000x128, .f32⟩
  | .hbm, ⟨104, _⟩ => ⟨S2x50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev main_v24_2 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_4 : Ref sig .tc := ⟨.hbm, 57, rfl⟩
abbrev main_v41 : Ref sig .tc := ⟨.hbm, 58, rfl⟩
abbrev main_v42 : Ref sig .tc := ⟨.hbm, 59, rfl⟩
abbrev main_c_5 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_6 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61_0 : Ref sig .tc := ⟨.hbm, 80, rfl⟩
abbrev main_v61_1 : Ref sig .tc := ⟨.hbm, 81, rfl⟩
abbrev main_v61_2 : Ref sig .tc := ⟨.hbm, 82, rfl⟩
abbrev main_cst_7 : Ref sig .tc := ⟨.hbm, 83, rfl⟩
abbrev main_v62 : Ref sig .tc := ⟨.hbm, 84, rfl⟩
abbrev main_v63 : Ref sig .tc := ⟨.hbm, 85, rfl⟩
abbrev main_cst_8 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_9 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg8_0 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  slices_S2x128x128_S1x128x128_1_0_0 : S2x128x128.Slices ![1, 0, 0] S1x128x128
  slices_S2x128_S1x128_1_0 : S2x128.Slices ![1, 0] S1x128
  bcast_S50000x128_S1x50000x128_1_2 : S50000x128.BroadcastsInDim S1x50000x128 (![1, 2] : Fin 2 → Fin S1x50000x128.rank)
  concatenates_S1x50000x128_S1x50000x128_S2x50000x128_d0 : Shape.Concatenates [S1x50000x128, S1x50000x128] S2x50000x128 0
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v24_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v24_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v61_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v61_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v61_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v61_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v76) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v70) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v77) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S2x128x128 : Shape := ⟨3, ![2, 128, 128]⟩
abbrev S2x128 : Shape := ⟨2, ![2, 128]⟩
abbrev S1x800000 : Shape := ⟨2, ![1, 800000]⟩
abbrev S800000 : Shape := ⟨1, ![800000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x50000x128 : Shape := ⟨3, ![1, 50000, 128]⟩
abbrev S2x50000x128 : Shape := ⟨3, ![2, 50000, 128]⟩

abbrev nBuf : Space → Nat
  | .hbm => 183
  | .vmem => 0
  | .smem => 0
  | _ => 0

abbrev hbmTy0_0 (i : Nat) : BufTy := match i % 128 with
  | 0 => ⟨S50000x128, .f32⟩
  | 1 => ⟨S2x800000, .i32⟩
  | 2 => ⟨S2x128x128, .f32⟩
  | 3 => ⟨S2x128, .f32⟩
  | 4 => ⟨S2x128x128, .f32⟩
  | 5 => ⟨S2x128, .f32⟩
  | 6 => ⟨S2x128, .f32⟩
  | 7 => ⟨S2x128, .f32⟩
  | 8 => ⟨S1x800000, .i32⟩
  | 9 => ⟨S800000, .i32⟩
  | 10 => ⟨S1x800000, .i32⟩
  | 11 => ⟨S800000, .i32⟩
  | 12 => ⟨S1x128x128, .f32⟩
  | 13 => ⟨S128x128, .f32⟩
  | 14 => ⟨S1x128, .f32⟩
  | 15 => ⟨S128, .f32⟩
  | 16 => ⟨S1x128x128, .f32⟩
  | 17 => ⟨S128x128, .f32⟩
  | 18 => ⟨S1x128, .f32⟩
  | 19 => ⟨S128, .f32⟩
  | 20 => ⟨S1x128, .f32⟩
  | 21 => ⟨S128, .f32⟩
  | 22 => ⟨S1x128, .f32⟩
  | 23 => ⟨S128, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S_, .f32⟩
  | 34 => ⟨S50000x128, .f32⟩
  | 35 => ⟨S800000x1, .i32⟩
  | 36 => ⟨S50000x128, .f32⟩
  | 37 => ⟨S50000x128, .f32⟩
  | 38 => ⟨S50000x128, .f32⟩
  | 39 => ⟨S1x128, .f32⟩
  | 40 => ⟨S50000x128, .f32⟩
  | 41 => ⟨S50000x128, .f32⟩
  | 42 => ⟨S_, .f32⟩
  | 43 => ⟨S50000x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S_, .f32⟩
  | 50 => ⟨S128, .f32⟩
  | 51 => ⟨S_, .f32⟩
  | 52 => ⟨S128, .f32⟩
  | 53 => ⟨S128, .f32⟩
  | 54 => ⟨S_, .i32⟩
  | 55 => ⟨S_, .f32⟩
  | 56 => ⟨S128, .f32⟩
  | 57 => ⟨S1x128, .f32⟩
  | 58 => ⟨S_, .f32⟩
  | 59 => ⟨S1x128, .f32⟩
  | 60 => ⟨S1x128, .f32⟩
  | 61 => ⟨S50000x128, .f32⟩
  | 62 => ⟨S50000x128, .f32⟩
  | 63 => ⟨S50000x128, .f32⟩
  | 64 => ⟨S_, .f32⟩
  | 65 => ⟨S_, .f32⟩
  | 66 => ⟨S_, .f32⟩
  | 67 => ⟨S_, .f32⟩
  | 68 => ⟨S128, .f32⟩
  | 69 => ⟨S128, .f32⟩
  | 70 => ⟨S128, .f32⟩
  | 71 => ⟨S_, .f32⟩
  | 72 => ⟨S_, .i1⟩
  | 73 => ⟨S_, .f32⟩
  | 74 => ⟨S_, .f32⟩
  | 75 => ⟨S128, .f32⟩
  | 76 => ⟨S128, .f32⟩
  | 77 => ⟨S1x128, .f32⟩
  | 78 => ⟨S50000x128, .f32⟩
  | 79 => ⟨S50000x128, .f32⟩
  | 80 => ⟨S_, .f32⟩
  | 81 => ⟨S128, .f32⟩
  | 82 => ⟨S128, .f32⟩
  | 83 => ⟨S128, .f32⟩
  | 84 => ⟨S1x128, .f32⟩
  | 85 => ⟨S50000x128, .f32⟩
  | 86 => ⟨S50000x128, .f32⟩
  | 87 => ⟨S1x128, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S1x128x128, .f32⟩
  | 97 => ⟨S128x128, .f32⟩
  | 98 => ⟨S1x128, .f32⟩
  | 99 => ⟨S128, .f32⟩
  | 100 => ⟨S1x128x128, .f32⟩
  | 101 => ⟨S128x128, .f32⟩
  | 102 => ⟨S1x128, .f32⟩
  | 103 => ⟨S128, .f32⟩
  | 104 => ⟨S1x128, .f32⟩
  | 105 => ⟨S128, .f32⟩
  | 106 => ⟨S1x128, .f32⟩
  | 107 => ⟨S128, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x128, .f32⟩
  | 117 => ⟨S_, .f32⟩
  | 118 => ⟨S50000x128, .f32⟩
  | 119 => ⟨S800000x1, .i32⟩
  | 120 => ⟨S50000x128, .f32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S_, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S_, .f32⟩
  | 6 => ⟨S128, .f32⟩
  | 7 => ⟨S_, .f32⟩
  | 8 => ⟨S128, .f32⟩
  | 9 => ⟨S128, .f32⟩
  | 10 => ⟨S_, .i32⟩
  | 11 => ⟨S_, .f32⟩
  | 12 => ⟨S128, .f32⟩
  | 13 => ⟨S1x128, .f32⟩
  | 14 => ⟨S_, .f32⟩
  | 15 => ⟨S1x128, .f32⟩
  | 16 => ⟨S1x128, .f32⟩
  | 17 => ⟨S50000x128, .f32⟩
  | 18 => ⟨S50000x128, .f32⟩
  | 19 => ⟨S50000x128, .f32⟩
  | 20 => ⟨S_, .f32⟩
  | 21 => ⟨S_, .f32⟩
  | 22 => ⟨S_, .f32⟩
  | 23 => ⟨S_, .f32⟩
  | 24 => ⟨S128, .f32⟩
  | 25 => ⟨S128, .f32⟩
  | 26 => ⟨S128, .f32⟩
  | 27 => ⟨S_, .f32⟩
  | 28 => ⟨S_, .i1⟩
  | 29 => ⟨S_, .f32⟩
  | 30 => ⟨S_, .f32⟩
  | 31 => ⟨S128, .f32⟩
  | 32 => ⟨S128, .f32⟩
  | 33 => ⟨S1x128, .f32⟩
  | 34 => ⟨S50000x128, .f32⟩
  | 35 => ⟨S50000x128, .f32⟩
  | 36 => ⟨S_, .f32⟩
  | 37 => ⟨S128, .f32⟩
  | 38 => ⟨S128, .f32⟩
  | 39 => ⟨S128, .f32⟩
  | 40 => ⟨S1x128, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S1x50000x128, .f32⟩
  | 53 => ⟨S1x50000x128, .f32⟩
  | 54 => ⟨S2x50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_cst : Ref sig .tc := ⟨.hbm, 42, rfl⟩
abbrev main_call0_v0 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_1 : Ref sig .tc := ⟨.hbm, 49, rfl⟩
abbrev main_v36 : Ref sig .tc := ⟨.hbm, 50, rfl⟩
abbrev main_cst_2 : Ref sig .tc := ⟨.hbm, 51, rfl⟩
abbrev main_v37 : Ref sig .tc := ⟨.hbm, 52, rfl⟩
abbrev main_v38 : Ref sig .tc := ⟨.hbm, 53, rfl⟩
abbrev main_c_3 : Ref sig .tc := ⟨.hbm, 54, rfl⟩
abbrev main_call1_cst : Ref sig .tc := ⟨.hbm, 55, rfl⟩
abbrev main_call1_v0 : Ref sig .tc := ⟨.hbm, 56, rfl⟩
abbrev main_call1_v1 : Ref sig .tc := ⟨.hbm, 57, rfl⟩
abbrev main_call1_cst_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_cst_1 : Ref sig .tc := ⟨.hbm, 65, rfl⟩
abbrev main_call1_v8 : Ref sig .tc := ⟨.hbm, 66, rfl⟩
abbrev main_call1_cst_2 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_cst_3 : Ref sig .tc := ⟨.hbm, 71, rfl⟩
abbrev main_call1_v12 : Ref sig .tc := ⟨.hbm, 72, rfl⟩
abbrev main_call1_cst_4 : Ref sig .tc := ⟨.hbm, 73, rfl⟩
abbrev main_call1_call0_v0 : Ref sig .tc := ⟨.hbm, 74, rfl⟩
abbrev main_call1_call0_v1 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst_4 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_call2_cst : Ref sig .tc := ⟨.hbm, 93, rfl⟩
abbrev main_call2_v0 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_c_5 : Ref sig .tc := ⟨.hbm, 108, rfl⟩
abbrev main_v68 : Ref sig .tc := ⟨.hbm, 109, rfl⟩
abbrev main_v69 : Ref sig .tc := ⟨.hbm, 110, rfl⟩
abbrev main_c_6 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst_7 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_call3_cst : Ref sig .tc := ⟨.hbm, 126, rfl⟩
abbrev main_call3_v0 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_cst_8 : Ref sig .tc := ⟨.hbm, 133, rfl⟩
abbrev main_v88 : Ref sig .tc := ⟨.hbm, 134, rfl⟩
abbrev main_cst_9 : Ref sig .tc := ⟨.hbm, 135, rfl⟩
abbrev main_v89 : Ref sig .tc := ⟨.hbm, 136, rfl⟩
abbrev main_v90 : Ref sig .tc := ⟨.hbm, 137, rfl⟩
abbrev main_c_10 : Ref sig .tc := ⟨.hbm, 138, rfl⟩
abbrev main_call4_cst : Ref sig .tc := ⟨.hbm, 139, rfl⟩
abbrev main_call4_v0 : Ref sig .tc := ⟨.hbm, 140, rfl⟩
abbrev main_call4_v1 : Ref sig .tc := ⟨.hbm, 141, rfl⟩
abbrev main_call4_cst_0 : Ref sig .tc := ⟨.hbm, 142, rfl⟩
abbrev main_call4_v2 : Ref sig .tc := ⟨.hbm, 143, rfl⟩
abbrev main_call4_v3 : Ref sig .tc := ⟨.hbm, 144, rfl⟩
abbrev main_call4_v4 : Ref sig .tc := ⟨.hbm, 145, rfl⟩
abbrev main_call4_v5 : Ref sig .tc := ⟨.hbm, 146, rfl⟩
abbrev main_call4_v6 : Ref sig .tc := ⟨.hbm, 147, rfl⟩
abbrev main_call4_v7 : Ref sig .tc := ⟨.hbm, 148, rfl⟩
abbrev main_call4_cst_1 : Ref sig .tc := ⟨.hbm, 149, rfl⟩
abbrev main_call4_v8 : Ref sig .tc := ⟨.hbm, 150, rfl⟩
abbrev main_call4_cst_2 : Ref sig .tc := ⟨.hbm, 151, rfl⟩
abbrev main_call4_v9 : Ref sig .tc := ⟨.hbm, 152, rfl⟩
abbrev main_call4_v10 : Ref sig .tc := ⟨.hbm, 153, rfl⟩
abbrev main_call4_v11 : Ref sig .tc := ⟨.hbm, 154, rfl⟩
abbrev main_call4_cst_3 : Ref sig .tc := ⟨.hbm, 155, rfl⟩
abbrev main_call4_v12 : Ref sig .tc := ⟨.hbm, 156, rfl⟩
abbrev main_call4_cst_4 : Ref sig .tc := ⟨.hbm, 157, rfl⟩
abbrev main_call4_call0_v0 : Ref sig .tc := ⟨.hbm, 158, rfl⟩
abbrev main_call4_call0_v1 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_cst_11 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_call5_cst : Ref sig .tc := ⟨.hbm, 177, rfl⟩
abbrev main_call5_v0 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S2x128x128_S1x128x128_1_0_0 : S2x128x128.Slices ![1, 0, 0] S1x128x128
  slices_S2x128_S1x128_1_0 : S2x128.Slices ![1, 0] S1x128
  bcast_S50000x128_S1x50000x128_1_2 : S50000x128.BroadcastsInDim S1x50000x128 (![1, 2] : Fin 2 → Fin S1x50000x128.rank)
  concatenates_S1x50000x128_S1x50000x128_S2x50000x128_d0 : Shape.Concatenates [S1x50000x128, S1x50000x128] S2x50000x128 0
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KerRun.lean ====
/-
  The idealized kernel program's run, with its RESULT named.

  The program is four pipelined regions among five stretches of host operations.  Every weakly fair execution
  from a memory with zero counters terminates without a fault, and in its final state every buffer that is not
  scoped to a region holds what the fold of the segments leaves in it: a stretch of host operations applies its
  operations' functions, a region leaves each of its output arrays at what its write-backs deposited and every
  other buffer as it found it.  Read at the result's buffer this names the result — the stacked output, as the last
  boundary's contents — and read at the arguments' buffers it says they end as launched.
-/
import proofs.«179664_j13365938225808_1_alg».proof.Proof.Gen.KernelIdeal.Frame

set_option maxRecDepth 16384

noncomputable section

namespace Cert.Gin.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result's buffer ends at the last boundary's
    contents and the argument arrays as launched. -/
theorem run_value : θ_run defs (onTc (τ := τ) (main (F := F))) ⟨m, fun _ => 0, ρ⟩ (fun r => ∀ c : Dev nD,
      r.2.mem ((c.tc : Thread nD τ).loc main_v80) = W9 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v80 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.Gin.KerRun

end
-- ==== Proof.KerHost.lean ====
/-
  The host side of the idealized kernel program: what the stretches of host operations between its four regions
  compute, as pure terms of what they read, and which buffers each stretch and each region leaves alone.

  Stretch 0 cuts the edge list into its source and destination rows, wraps negative sources, gathers the source
  rows of x and adds them into zeros at the destination rows (the neighbour sum), and cuts layer 0's matrices and
  bias rows out of the stacked parameters.  Stretch 1 turns region 0's column sums s and ss into the mean s / N and
  the reciprocal standard deviation rsqrt (ss / N - mean · mean + ε), and cuts layer 0's scale and shift rows.
  Stretches 2 and 3 do the same for layer 1, from region 1's output.  Stretch 4 stacks the two layers' outputs.
-/
import proofs.«179664_j13365938225808_1_alg».proof.Proof.Gen.KernelIdeal.Frame
import Idealize.ShloMosaic.PureOps.Ideal.Laws

set_option maxRecDepth 16384

noncomputable section

namespace Cert.Gin.KerHost

open Idealize.ShloMosaic Idealize.ShloMosaic.TcCoe Idealize.ShloMosaic.StableHlo Idealize.SL.Sem
open Cert.KernelIdeal Cert.KernelIdeal.Gen

/-! ## The pure terms -/

/-- A row of index words. -/
abbrev Words := (⟨S800000, .i32⟩ : BufTy).Contents (Elt Ideal)
/-- The edge list. -/
abbrev Edges := (⟨S2x800000, .i32⟩ : BufTy).Contents (Elt Ideal)

/-- The edges' source row. -/
def srcK (ei : Edges) : Words :=
  shapeCast S800000 (extractStridedSlice S1x800000 ![0, 0] ei slices_S2x800000_S1x800000_0_0) shapeCasts_S1x800000_S800000
/-- The edges' destination row. -/
def dstK (ei : Edges) : Words :=
  shapeCast S800000 (extractStridedSlice S1x800000 ![1, 0] ei slices_S2x800000_S1x800000_1_0) shapeCasts_S1x800000_S800000

/-- The neighbour sum: the source rows of x (a negative source counted from the end) added into zeros at the destination rows. -/
def aggK (x : FVec Ideal S50000x128 .f32) (src dst : Words) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- Layer 0's matrix out of the stacked pair. -/
def sliceW0 (W : FVec Ideal S2x128x128 .f32) : FVec Ideal S128x128 .f32 :=
  shapeCast S128x128 (extractStridedSlice S1x128x128 ![0, 0, 0] W slices_S2x128x128_S1x128x128_0_0_0) shapeCasts_S1x128x128_S128x128
/-- Layer 1's matrix. -/
def sliceW1 (W : FVec Ideal S2x128x128 .f32) : FVec Ideal S128x128 .f32 :=
  shapeCast S128x128 (extractStridedSlice S1x128x128 ![1, 0, 0] W slices_S2x128x128_S1x128x128_1_0_0) shapeCasts_S1x128x128_S128x128
/-- Layer 0's per-column vector, laid out as one row. -/
def rowV0 (b : FVec Ideal S2x128 .f32) : FVec Ideal S1x128 .f32 :=
  shapeCast S1x128 (shapeCast S128 (extractStridedSlice S1x128 ![0, 0] b slices_S2x128_S1x128_0_0) shapeCasts_S1x128_S128) shapeCasts_S128_S1x128
/-- Layer 1's per-column vector, laid out as one row. -/
def rowV1 (b : FVec Ideal S2x128 .f32) : FVec Ideal S1x128 .f32 :=
  shapeCast S1x128 (shapeCast S128 (extractStridedSlice S1x128 ![1, 0] b slices_S2x128_S1x128_1_0) shapeCasts_S1x128_S128) shapeCasts_S128_S1x128

/-- The columns' means from their sums. -/
def meanK (s : FVec Ideal S1x128 .f32) : FVec Ideal S1x128 .f32 :=
  Host.divf s (broadcastInDim S1x128 ![] bcast_S_S1x128 (constant S_ .f32 0x47435000#32))
/-- The columns' reciprocal standard deviations from their sums and sums of squares. -/
def istdK (s ss : FVec Ideal S1x128 .f32) : FVec Ideal S1x128 .f32 :=
  Host.rsqrt (addf (subf (Host.divf ss (broadcastInDim S1x128 ![] bcast_S_S1x128 (constant S_ .f32 0x47435000#32)))
      (mulf (meanK s) (meanK s)))
    (broadcastInDim S1x128 ![] bcast_S_S1x128 (constant S_ .f32 0x3727C5AC#32)))

/-- The two layers' outputs stacked along a new leading axis. -/
def stackK (a b : FVec Ideal S50000x128 .f32) : FVec Ideal S2x50000x128 .f32 :=
  concatenate S2x50000x128 0 [⟨S1x50000x128, broadcastInDim S1x50000x128 ![1, 2] bcast_S50000x128_S1x50000x128_1_2 a⟩,
    ⟨S1x50000x128, broadcastInDim S1x50000x128 ![1, 2] bcast_S50000x128_S1x50000x128_1_2 b⟩]
    concatenates_S1x50000x128_S1x50000x128_S2x50000x128_d0

/-! ## What the stretches leave -/

/-- A buffer none of a stretch's operations writes holds after the stretch what it held before. -/
macro "host_keep" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable (m : (ℓ : Loc nD τ sig) → Buf (Elt Ideal) ℓ) (ρ : Dev nD → PrngReg) (c : Dev nD)

/-! ### Stretch 0 -/

set_option maxHeartbeats 1000000 in
theorem W1_v13 : W1 m ρ c (Proc.devRef .tc main_v13)
    = aggK (m ((c : Thread nD τ).loc main_arg0)) (srcK (m ((c : Thread nD τ).loc main_arg1))) (dstK (m ((c : Thread nD τ).loc main_arg1))) := by
  show StableHlo.after hostOps0 (W0 m ρ c) (Proc.devRef .tc main_v13) = _
  after_results
  rfl

theorem W1_v1 : W1 m ρ c (Proc.devRef .tc main_v1) = srcK (m ((c : Thread nD τ).loc main_arg1)) := by
  show StableHlo.after hostOps0 (W0 m ρ c) (Proc.devRef .tc main_v1) = _
  after_results
  rfl
theorem W1_v3 : W1 m ρ c (Proc.devRef .tc main_v3) = dstK (m ((c : Thread nD τ).loc main_arg1)) := by
  show StableHlo.after hostOps0 (W0 m ρ c) (Proc.devRef .tc main_v3) = _
  after_results
  rfl
theorem W1_v15 : W1 m ρ c (Proc.devRef .tc main_v15) = sliceW0 (m ((c : Thread nD τ).loc main_arg2)) := by
  show StableHlo.after hostOps0 (W0 m ρ c) (Proc.devRef .tc main_v15) = _
  after_results
  rfl
theorem W1_v18 : W1 m ρ c (Proc.devRef .tc main_v18) = rowV0 (m ((c : Thread nD τ).loc main_arg3)) := by
  show StableHlo.after hostOps0 (W0 m ρ c) (Proc.devRef .tc main_v18) = _
  after_results
  rfl
theorem W1_v20 : W1 m ρ c (Proc.devRef .tc main_v20) = sliceW0 (m ((c : Thread nD τ).loc main_arg4)) := by
  show StableHlo.after hostOps0 (W0 m ρ c) (Proc.devRef .tc main_v20) = _
  after_results
  rfl
theorem W1_v23 : W1 m ρ c (Proc.devRef .tc main_v23) = rowV0 (m ((c : Thread nD τ).loc main_arg5)) := by
  show StableHlo.after hostOps0 (W0 m ρ c) (Proc.devRef .tc main_v23) = _
  after_results
  rfl
theorem W1_arg0 : W1 m ρ c (Proc.devRef .tc main_arg0) = m ((c : Thread nD τ).loc main_arg0) := by
  show StableHlo.after hostOps0 (W0 m ρ c) (Proc.devRef .tc main_arg0) = W0 m ρ c (Proc.devRef .tc main_arg0)
  host_keep hostOps0

/-! ### The arguments, and the edge rows, where later stretches read them -/
theorem W2_arg6 : W2 m ρ c (Proc.devRef .tc main_arg6) = (m ((c : Thread nD τ).loc main_arg6)) :=
  ((W2_of_ne m ρ c main_arg6 (by decide)).trans (show W1 m ρ c (Proc.devRef .tc main_arg6) = W0 m ρ c (Proc.devRef .tc main_arg6) by host_keep hostOps0))
theorem W2_arg7 : W2 m ρ c (Proc.devRef .tc main_arg7) = (m ((c : Thread nD τ).loc main_arg7)) :=
  ((W2_of_ne m ρ c main_arg7 (by decide)).trans (show W1 m ρ c (Proc.devRef .tc main_arg7) = W0 m ρ c (Proc.devRef .tc main_arg7) by host_keep hostOps0))
theorem W4_arg2 : W4 m ρ c (Proc.devRef .tc main_arg2) = (m ((c : Thread nD τ).loc main_arg2)) :=
  ((((W4_of_ne m ρ c main_arg2 (by decide)).trans (show W3 m ρ c (Proc.devRef .tc main_arg2) = W2 m ρ c (Proc.devRef .tc main_arg2) by host_keep hostOps1)).trans (W2_of_ne m ρ c main_arg2 (by decide))).trans (show W1 m ρ c (Proc.devRef .tc main_arg2) = W0 m ρ c (Proc.devRef .tc main_arg2) by host_keep hostOps0))
theorem W4_arg3 : W4 m ρ c (Proc.devRef .tc main_arg3) = (m ((c : Thread nD τ).loc main_arg3)) :=
  ((((W4_of_ne m ρ c main_arg3 (by decide)).trans (show W3 m ρ c (Proc.devRef .tc main_arg3) = W2 m ρ c (Proc.devRef .tc main_arg3) by host_keep hostOps1)).trans (W2_of_ne m ρ c main_arg3 (by decide))).trans (show W1 m ρ c (Proc.devRef .tc main_arg3) = W0 m ρ c (Proc.devRef .tc main_arg3) by host_keep hostOps0))
theorem W4_arg4 : W4 m ρ c (Proc.devRef .tc main_arg4) = (m ((c : Thread nD τ).loc main_arg4)) :=
  ((((W4_of_ne m ρ c main_arg4 (by decide)).trans (show W3 m ρ c (Proc.devRef .tc main_arg4) = W2 m ρ c (Proc.devRef .tc main_arg4) by host_keep hostOps1)).trans (W2_of_ne m ρ c main_arg4 (by decide))).trans (show W1 m ρ c (Proc.devRef .tc main_arg4) = W0 m ρ c (Proc.devRef .tc main_arg4) by host_keep hostOps0))
theorem W4_arg5 : W4 m ρ c (Proc.devRef .tc main_arg5) = (m ((c : Thread nD τ).loc main_arg5)) :=
  ((((W4_of_ne m ρ c main_arg5 (by decide)).trans (show W3 m ρ c (Proc.devRef .tc main_arg5) = W2 m ρ c (Proc.devRef .tc main_arg5) by host_keep hostOps1)).trans (W2_of_ne m ρ c main_arg5 (by decide))).trans (show W1 m ρ c (Proc.devRef .tc main_arg5) = W0 m ρ c (Proc.devRef .tc main_arg5) by host_keep hostOps0))
theorem W6_arg6 : W6 m ρ c (Proc.devRef .tc main_arg6) = (m ((c : Thread nD τ).loc main_arg6)) :=
  ((((((W6_of_ne m ρ c main_arg6 (by decide)).trans (show W5 m ρ c (Proc.devRef .tc main_arg6) = W4 m ρ c (Proc.devRef .tc main_arg6) by host_keep hostOps2)).trans (W4_of_ne m ρ c main_arg6 (by decide))).trans (show W3 m ρ c (Proc.devRef .tc main_arg6) = W2 m ρ c (Proc.devRef .tc main_arg6) by host_keep hostOps1)).trans (W2_of_ne m ρ c main_arg6 (by decide))).trans (show W1 m ρ c (Proc.devRef .tc main_arg6) = W0 m ρ c (Proc.devRef .tc main_arg6) by host_keep hostOps0))
theorem W6_arg7 : W6 m ρ c (Proc.devRef .tc main_arg7) = (m ((c : Thread nD τ).loc main_arg7)) :=
  ((((((W6_of_ne m ρ c main_arg7 (by decide)).trans (show W5 m ρ c (Proc.devRef .tc main_arg7) = W4 m ρ c (Proc.devRef .tc main_arg7) by host_keep hostOps2)).trans (W4_of_ne m ρ c main_arg7 (by decide))).trans (show W3 m ρ c (Proc.devRef .tc main_arg7) = W2 m ρ c (Proc.devRef .tc main_arg7) by host_keep hostOps1)).trans (W2_of_ne m ρ c main_arg7 (by decide))).trans (show W1 m ρ c (Proc.devRef .tc main_arg7) = W0 m ρ c (Proc.devRef .tc main_arg7) by host_keep hostOps0))
theorem W4_v1 : W4 m ρ c (Proc.devRef .tc main_v1) = srcK (m ((c : Thread nD τ).loc main_arg1)) :=
  (((W4_of_ne m ρ c main_v1 (by decide)).trans (show W3 m ρ c (Proc.devRef .tc main_v1) = W2 m ρ c (Proc.devRef .tc main_v1) by host_keep hostOps1)).trans (W2_of_ne m ρ c main_v1 (by decide))).trans (W1_v1 m ρ c)
theorem W4_v3 : W4 m ρ c (Proc.devRef .tc main_v3) = dstK (m ((c : Thread nD τ).loc main_arg1)) :=
  (((W4_of_ne m ρ c main_v3 (by decide)).trans (show W3 m ρ c (Proc.devRef .tc main_v3) = W2 m ρ c (Proc.devRef .tc main_v3) by host_keep hostOps1)).trans (W2_of_ne m ρ c main_v3 (by decide))).trans (W1_v3 m ρ c)

/-! ### Stretch 1 -/

theorem W3_v26 : W3 m ρ c (Proc.devRef .tc main_v26) = meanK (W2 m ρ c (Proc.devRef .tc main_v24_1)) := by
  show StableHlo.after hostOps1 (W2 m ρ c) (Proc.devRef .tc main_v26) = _
  after_results
  rfl
theorem W3_v33 : W3 m ρ c (Proc.devRef .tc main_v33) = istdK (W2 m ρ c (Proc.devRef .tc main_v24_1)) (W2 m ρ c (Proc.devRef .tc main_v24_2)) := by
  show StableHlo.after hostOps1 (W2 m ρ c) (Proc.devRef .tc main_v33) = _
  after_results
  rfl
theorem W3_v36 : W3 m ρ c (Proc.devRef .tc main_v36) = rowV0 (m ((c : Thread nD τ).loc main_arg6)) := by
  rw [← W2_arg6 m ρ c]
  show StableHlo.after hostOps1 (W2 m ρ c) (Proc.devRef .tc main_v36) = _
  after_results
  rfl
theorem W3_v39 : W3 m ρ c (Proc.devRef .tc main_v39) = rowV0 (m ((c : Thread nD τ).loc main_arg7)) := by
  rw [← W2_arg7 m ρ c]
  show StableHlo.after hostOps1 (W2 m ρ c) (Proc.devRef .tc main_v39) = _
  after_results
  rfl
theorem W3_v24_0 : W3 m ρ c (Proc.devRef .tc main_v24_0) = W2 m ρ c (Proc.devRef .tc main_v24_0) := by
  host_keep hostOps1

/-! ### Stretch 2 -/

set_option maxHeartbeats 1000000 in
theorem W5_v50 : W5 m ρ c (Proc.devRef .tc main_v50) = aggK (W4 m ρ c (Proc.devRef .tc main_v40)) (srcK (m ((c : Thread nD τ).loc main_arg1))) (dstK (m ((c : Thread nD τ).loc main_arg1))) := by
  rw [← W4_v1 m ρ c, ← W4_v3 m ρ c]
  show StableHlo.after hostOps2 (W4 m ρ c) (Proc.devRef .tc main_v50) = _
  after_results
  rfl
theorem W5_v52 : W5 m ρ c (Proc.devRef .tc main_v52) = sliceW1 (m ((c : Thread nD τ).loc main_arg2)) := by
  rw [← W4_arg2 m ρ c]
  show StableHlo.after hostOps2 (W4 m ρ c) (Proc.devRef .tc main_v52) = _
  after_results
  rfl
theorem W5_v55 : W5 m ρ c (Proc.devRef .tc main_v55) = rowV1 (m ((c : Thread nD τ).loc main_arg3)) := by
  rw [← W4_arg3 m ρ c]
  show StableHlo.after hostOps2 (W4 m ρ c) (Proc.devRef .tc main_v55) = _
  after_results
  rfl
theorem W5_v57 : W5 m ρ c (Proc.devRef .tc main_v57) = sliceW1 (m ((c : Thread nD τ).loc main_arg4)) := by
  rw [← W4_arg4 m ρ c]
  show StableHlo.after hostOps2 (W4 m ρ c) (Proc.devRef .tc main_v57) = _
  after_results
  rfl
theorem W5_v60 : W5 m ρ c (Proc.devRef .tc main_v60) = rowV1 (m ((c : Thread nD τ).loc main_arg5)) := by
  rw [← W4_arg5 m ρ c]
  show StableHlo.after hostOps2 (W4 m ρ c) (Proc.devRef .tc main_v60) = _
  after_results
  rfl
theorem W5_v40 : W5 m ρ c (Proc.devRef .tc main_v40) = W4 m ρ c (Proc.devRef .tc main_v40) := by
  host_keep hostOps2

/-! ### Stretch 3 -/

theorem W7_v63 : W7 m ρ c (Proc.devRef .tc main_v63) = meanK (W6 m ρ c (Proc.devRef .tc main_v61_1)) := by
  show StableHlo.after hostOps3 (W6 m ρ c) (Proc.devRef .tc main_v63) = _
  after_results
  rfl
theorem W7_v70 : W7 m ρ c (Proc.devRef .tc main_v70) = istdK (W6 m ρ c (Proc.devRef .tc main_v61_1)) (W6 m ρ c (Proc.devRef .tc main_v61_2)) := by
  show StableHlo.after hostOps3 (W6 m ρ c) (Proc.devRef .tc main_v70) = _
  after_results
  rfl
theorem W7_v73 : W7 m ρ c (Proc.devRef .tc main_v73) = rowV1 (m ((c : Thread nD τ).loc main_arg6)) := by
  rw [← W6_arg6 m ρ c]
  show StableHlo.after hostOps3 (W6 m ρ c) (Proc.devRef .tc main_v73) = _
  after_results
  rfl
theorem W7_v76 : W7 m ρ c (Proc.devRef .tc main_v76) = rowV1 (m ((c : Thread nD τ).loc main_arg7)) := by
  rw [← W6_arg7 m ρ c]
  show StableHlo.after hostOps3 (W6 m ρ c) (Proc.devRef .tc main_v76) = _
  after_results
  rfl
theorem W7_v61_0 : W7 m ρ c (Proc.devRef .tc main_v61_0) = W6 m ρ c (Proc.devRef .tc main_v61_0) := by
  host_keep hostOps3

/-! ### Stretch 4, and the first layer's output carried to it -/

theorem W9_v80 : W9 m ρ c (Proc.devRef .tc main_v80) = stackK (W8 m ρ c (Proc.devRef .tc main_v40)) (W8 m ρ c (Proc.devRef .tc main_v77)) := by
  show StableHlo.after hostOps4 (W8 m ρ c) (Proc.devRef .tc main_v80) = _
  after_results
  rfl

/-- Region 1's output is read by region 2 through an input window and by nothing else before the last stretch. -/
theorem W8_v40 : W8 m ρ c (Proc.devRef .tc main_v40) = W4 m ρ c (Proc.devRef .tc main_v40) :=
  (((W8_of_ne m ρ c main_v40 (by decide)).trans (show W7 m ρ c (Proc.devRef .tc main_v40) = W6 m ρ c (Proc.devRef .tc main_v40) by host_keep hostOps3)).trans ((W6_arr m ρ c 0).trans (((dat2 (V5 m ρ) c).arrAt_in 0 rfl _).trans (A_eq2 (V5 m ρ) c 0)))).trans (W5_v40 m ρ c)

end Cert.Gin.KerHost

end
-- ==== Proof.LibReal.lean ====
/-
  General lemmas: arrays of extended reals all of whose entries are real numbers, and the operations that keep
  them so — sums, products, differences, finite sums, maxima, quotients by a nonzero real, and the inverse square
  root of a positive real.
-/
import Idealize.ShloMosaic.PureOps.Ideal

noncomputable section

namespace Cert.LibReal

open Idealize.ShloMosaic

/-- An extended real that is a real number. -/
def IsR (x : EReal) : Prop := ∃ r : ℝ, x = (r : EReal)

/-- Every entry of an array is a real number. -/
def AllR {ι : Type} (v : ι → EReal) : Prop := ∀ i, IsR (v i)

theorem isR_coe (r : ℝ) : IsR (r : EReal) := ⟨r, rfl⟩
theorem isR_zero : IsR (0 : EReal) := ⟨0, rfl⟩
theorem isR_one : IsR (1 : EReal) := ⟨1, rfl⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.max {x y : EReal} (hx : IsR x) (hy : IsR y) : IsR (max x y) := by
  rcases max_choice x y with h | h <;> rw [h] <;> assumption

theorem IsR.sum {ι : Type} (s : Finset ι) (f : ι → EReal) (h : ∀ i ∈ s, IsR (f i)) : IsR (∑ i ∈ s, f i) := by
  classical
  induction s using Finset.induction_on with
  | empty => simpa using isR_zero
  | insert i s hi ih =>
    rw [Finset.sum_insert hi]
    exact (h i (Finset.mem_insert_self i s)).add (ih fun j hj => h j (Finset.mem_insert_of_mem hj))

/-- A quotient by a nonzero real. -/
theorem IsR.div {x : EReal} (hx : IsR x) {n : ℝ} (hn : n ≠ 0) : IsR (Ideal.div x (n : EReal)) := by
  obtain ⟨a, rfl⟩ := hx
  rw [Ideal.div_coe hn]
  exact (isR_coe a).mul (isR_coe _)

/-- The inverse square root of a positive real is a real. -/
theorem isR_rsqrt {r : ℝ} (hr : 0 < r) : IsR (Ideal.rsqrt (r : EReal)) := by
  rw [Ideal.rsqrt_coe, if_neg (not_lt.mpr hr.le), if_neg hr.ne']
  exact isR_coe _

/-- A sum of ones over a finite set is a nonnegative real. -/
theorem sum_ones {ι : Type} (s : Finset ι) : ∃ r : ℝ, 0 ≤ r ∧ (∑ _i ∈ s, ((1 : ℝ) : EReal)) = (r : EReal) := by
  classical
  induction s using Finset.induction_on with
  | empty => exact ⟨0, le_refl _, by simp⟩
  | insert i s hi ih =>
    obtain ⟨r, hr, e⟩ := ih
    refine ⟨1 + r, by linarith, ?_⟩
    rw [Finset.sum_insert hi, e, EReal.coe_add]

end Cert.LibReal

end
-- ==== Proof.Spec.lean ====
/-
  The network both programs compute, written once over the extended reals, index by index.

  A layer takes node features x (50000 rows of 128), adds to every row the sum A x of its in-neighbours' rows,
  applies two affine maps with a rectifier between them,

      z = max ((x + A x) · W1 + b1) 0 · W2 + b2,

  and then normalises every column of z over the 50000 rows: with the column's mean m = (∑ z) / N and a variance v,

      out = max ((z - m) · rsqrt (v + ε) · γ + β) 0.

  The two programs differ in the variance only: one takes the mean of the squared deviations, (∑ (z - m)²) / N
  (`varR`), the other the mean of the squares minus the squared mean, (∑ z²) / N - m · m (`varK`).  The result is the
  two layers' outputs stacked, the second layer fed the first one's output.  N and ε are the float words the
  programs spell; N denotes 50000, the number of rows, which is what makes the two variances one number on real data.
-/
import Idealize.ShloMosaic.PureOps.Ideal.Laws
import Idealize.ShloMosaic.Lib.ValueIdx
import proofs.«179664_j13365938225808_1_alg».proof.Proof.LibReal

noncomputable section

open scoped BigOperators

namespace Cert.Gin

open Idealize.ShloMosaic Idealize.ShloMosaic.ValueIdx Cert.LibReal

/-- Node features: 50000 rows of 128. -/
abbrev SN : Shape := ⟨2, ![50000, 128]⟩
/-- One layer's weight matrix. -/
abbrev SW : Shape := ⟨2, ![128, 128]⟩
/-- The two layers' weight matrices. -/
abbrev SW3 : Shape := ⟨3, ![2, 128, 128]⟩
/-- The two layers' per-column vectors (biases, scales, shifts). -/
abbrev SV2 : Shape := ⟨2, ![2, 128]⟩
/-- The result: the two layers' outputs. -/
abbrev SOut : Shape := ⟨3, ![2, 50000, 128]⟩

abbrev Mat := SN.Idx → EReal
abbrev Col := Fin 128 → EReal

/-- The float word for the number of rows. -/
def cN : EReal := Ideal.ofBits .f32 0x47435000#32
/-- The float word for the variance's ε. -/
def cEps : EReal := Ideal.ofBits .f32 0x3727C5AC#32

/-- Layer l's matrix. -/
def mat (W : SW3.Idx → EReal) (l : Fin 2) : SW.Idx → EReal := fun i => W (ix3 l (i 0) (i 1))
/-- Layer l's per-column vector. -/
def vec (b : SV2.Idx → EReal) (l : Fin 2) : Col := fun q => b (ix2 l q)

/-- The hidden activation max ((x + a) · W1 + b1) 0. -/
def hid (x a : Mat) (w1 : SW.Idx → EReal) (b1 : Col) : Mat :=
  fun i => max ((∑ k : Fin 128, (x (ix2 (i 0) k) + a (ix2 (i 0) k)) * w1 (ix2 k (i 1))) + b1 (i 1)) 0
/-- An affine map y · W + b. -/
def lin (y : Mat) (w : SW.Idx → EReal) (b : Col) : Mat :=
  fun i => (∑ k : Fin 128, y (ix2 (i 0) k) * w (ix2 k (i 1))) + b (i 1)
/-- The layer before normalisation. -/
def zOf (x a : Mat) (w1 : SW.Idx → EReal) (b1 : Col) (w2 : SW.Idx → EReal) (b2 : Col) : Mat :=
  lin (hid x a w1 b1) w2 b2

/-- A column's sum over the 50000 rows. -/
def colSum (z : Mat) (q : Fin 128) : EReal := ∑ r : Fin 50000, z (ix2 r q)
/-- A column's mean. -/
def meanOf (z : Mat) : Col := fun q => Ideal.div (colSum z q) cN
/-- The variance as the mean of the squares minus the squared mean. -/
def varK (z : Mat) : Col := fun q => Ideal.div (colSum (fun i => z i * z i) q) cN - meanOf z q * meanOf z q
/-- The variance as the mean of the squared deviations from the mean. -/
def varR (z : Mat) : Col :=
  fun q => Ideal.div (colSum (fun i => (z i - meanOf z (i 1)) * (z i - meanOf z (i 1))) q) cN

/-- Normalise, scale, shift, rectify. -/
def bn (z : Mat) (mu istd g be : Col) : Mat :=
  fun i => max ((z i - mu (i 1)) * istd (i 1) * g (i 1) + be (i 1)) 0
/-- The normalisation of z with the variance `var`. -/
def normWith (var : Mat → Col) (z : Mat) (g be : Col) : Mat :=
  bn z (meanOf z) (fun q => Ideal.rsqrt (var z q + cEps)) g be

/-- One layer: `A` is the neighbour sum, `var` the variance. -/
def layerWith (var : Mat → Col) (A : Mat → Mat) (x : Mat) (W1 : SW3.Idx → EReal) (b1 : SV2.Idx → EReal)
    (W2 : SW3.Idx → EReal) (b2 g be : SV2.Idx → EReal) (l : Fin 2) : Mat :=
  normWith var (zOf x (A x) (mat W1 l) (vec b1 l) (mat W2 l) (vec b2 l)) (vec g l) (vec be l)

/-- Two arrays stacked along a new leading axis. -/
def stack (a b : Mat) : SOut.Idx → EReal :=
  fun i => if (i 0).val = 0 then a (ix2 (i 1) (i 2)) else b (ix2 (i 1) (i 2))

/-- The whole network. -/
def netWith (var : Mat → Col) (A : Mat → Mat) (h : Mat) (W1 : SW3.Idx → EReal) (b1 : SV2.Idx → EReal)
    (W2 : SW3.Idx → EReal) (b2 g be : SV2.Idx → EReal) : SOut.Idx → EReal :=
  stack (layerWith var A h W1 b1 W2 b2 g be 0)
    (layerWith var A (layerWith var A h W1 b1 W2 b2 g be 0) W1 b1 W2 b2 g be 1)

end Cert.Gin

end
-- ==== Proof.Consts.lean ====
/-
  The two float words the network spells, as the numbers they denote: the word for the number of rows is the real
  50000, and the word for the variance's ε is a positive real (the float nearest to 1e-5; only its sign is used).
-/
import Idealize.ShloMosaic.PureOps.Ideal
import proofs.«179664_j13365938225808_1_alg».proof.Proof.Spec

noncomputable section

namespace Cert.Gin

open Idealize.ShloMosaic

/-- The float word for the number of rows denotes the real 50000. -/
theorem cN_eq : Cert.Gin.cN = ((50000 : ℝ) : EReal) := by
  unfold Cert.Gin.cN
  simp [Ideal.ofBits, Ideal.ieee, -EReal.coe_mul]; norm_num

/-- The float word for ε denotes a positive real. -/
theorem cEps_pos : ∃ e : ℝ, 0 < e ∧ Cert.Gin.cEps = (e : EReal) := by
  unfold Cert.Gin.cEps
  simp [Ideal.ofBits, Ideal.ieee, -EReal.coe_mul]

end Cert.Gin

end
-- ==== Proof.KerRead.lean ====
/-
  The kernel program's host-side terms, read index by index, are the specification's.

  Between its regions the kernel program cuts each layer's matrices and per-column vectors out of the stacked
  parameters (a slice of one leading coordinate followed by reshapes that only drop or add a unit axis), turns a
  column's sum s and sum of squares ss into the mean s / N and the reciprocal standard deviation
  rsqrt (ss / N - mean · mean + ε) with N and ε scalar constants splat over the row, and at the end stacks the two
  layers' outputs along a new leading axis.  Every one of these steps reads, at each index of its result, one index
  of its operand; following the coordinates through gives the specification's `mat`, `vec`, `stack`, and the two
  column formulas.
-/
import proofs.«179664_j13365938225808_1_alg».proof.Proof.KerHost
import proofs.«179664_j13365938225808_1_alg».proof.Proof.Spec
import proofs.«179664_j13365938225808_1_alg».proof.Proof.Consts
import Idealize.ShloMosaic.Lib.Pipeline.Value
import Idealize.ShloMosaic.Lib.ValueLayout
import Idealize.ShloMosaic.Lib.ValueIdx
import Idealize.ShloMosaic.Lib.IdealHost

set_option maxRecDepth 16384

noncomputable section

namespace Cert.Gin.KerRead

open Idealize.ShloMosaic Idealize.ShloMosaic.ValueIdx Cert.Gin Cert.Gin.KerHost Cert.KernelIdeal Cert.KernelIdeal.Gen

/-! ## The parameters' slices -/

/-- Layer 0's matrix: the slice at leading coordinate 0, its unit axis dropped. -/
theorem sliceW0_eq (W : FVec Ideal S2x128x128 .f32) : sliceW0 W = mat W 0 := by
  funext i
  obtain ⟨a, b, rfl⟩ : ∃ (a b : Fin 128), i = ix2 a b := ⟨i 0, i 1, eq_ix2 i⟩
  unfold sliceW0
  refine (shapeCast_1ab_ab_apply _ _ a b).trans ?_
  exact extractStridedSlice_apply _ W _ (ix3 (0 : Fin 1) a b) (ix3 (0 : Fin 2) a b) fun ax => by
    match ax with
    | ⟨0, _⟩ => rfl
    | ⟨1, _⟩ => exact (Nat.zero_add _).symm
    | ⟨2, _⟩ => exact (Nat.zero_add _).symm

/-- Layer 1's matrix: the slice at leading coordinate 1, its unit axis dropped. -/
theorem sliceW1_eq (W : FVec Ideal S2x128x128 .f32) : sliceW1 W = mat W 1 := by
  funext i
  obtain ⟨a, b, rfl⟩ : ∃ (a b : Fin 128), i = ix2 a b := ⟨i 0, i 1, eq_ix2 i⟩
  unfold sliceW1
  refine (shapeCast_1ab_ab_apply _ _ a b).trans ?_
  exact extractStridedSlice_apply _ W _ (ix3 (0 : Fin 1) a b) (ix3 (1 : Fin 2) a b) fun ax => by
    match ax with
    | ⟨0, _⟩ => rfl
    | ⟨1, _⟩ => exact (Nat.zero_add _).symm
    | ⟨2, _⟩ => exact (Nat.zero_add _).symm

/-- Layer 0's per-column vector as a row: row 0 of the stacked pair (the two reshapes drop and put back a unit axis). -/
theorem rowV0_apply (b : FVec Ideal S2x128 .f32) (q : Fin 128) : rowV0 b (ix2 (0 : Fin 1) q) = vec b 0 q := by
  unfold rowV0
  refine (shapeCast_a_1a_apply _ _ (0 : Fin 1) q).trans ?_
  refine (shapeCast_1a_a_apply _ _ q).trans ?_
  exact slice2_axis0_apply 0 b _ (0 : Fin 1) q (0 : Fin 2) rfl

/-- Layer 1's per-column vector as a row: row 1 of the stacked pair. -/
theorem rowV1_apply (b : FVec Ideal S2x128 .f32) (q : Fin 128) : rowV1 b (ix2 (0 : Fin 1) q) = vec b 1 q := by
  unfold rowV1
  refine (shapeCast_a_1a_apply _ _ (0 : Fin 1) q).trans ?_
  refine (shapeCast_1a_a_apply _ _ q).trans ?_
  exact slice2_axis0_apply 1 b _ (0 : Fin 1) q (1 : Fin 2) rfl

/-! ## The columns' statistics -/

/-- The splat of the row count's float word reads that word's value everywhere. -/
theorem splatN_apply (i : S1x128.Idx) :
    broadcastInDim S1x128 ![] bcast_S_S1x128 (constant (F := Ideal) S_ .f32 0x47435000#32) i = cN :=
  broadcastInDim_scalar_apply _ _ i

/-- The splat of ε's float word reads that word's value everywhere. -/
theorem splatEps_apply (i : S1x128.Idx) :
    broadcastInDim S1x128 ![] bcast_S_S1x128 (constant (F := Ideal) S_ .f32 0x3727C5AC#32) i = cEps :=
  broadcastInDim_scalar_apply _ _ i

/-- The host's reciprocal square root at an index is the extended reals' one of the element. -/
theorem hostRsqrt_apply {s : Shape} {φ : FTy} (x : FVec Ideal s φ) (i : s.Idx) : Host.rsqrt x i = Ideal.rsqrt (x i) := rfl

/-- A column's mean: its sum divided by N. -/
theorem meanK_apply (s : FVec Ideal S1x128 .f32) (q : Fin 128) :
    meanK s (ix2 (0 : Fin 1) q) = Ideal.div (s (ix2 (0 : Fin 1) q)) cN := by
  unfold meanK
  rw [hostDivf_apply, splatN_apply]

/-- A column's reciprocal standard deviation: rsqrt (ss / N - mean · mean + ε). -/
theorem istdK_apply (s ss : FVec Ideal S1x128 .f32) (q : Fin 128) :
    istdK s ss (ix2 (0 : Fin 1) q)
      = Ideal.rsqrt (Ideal.div (ss (ix2 (0 : Fin 1) q)) cN
          - Ideal.div (s (ix2 (0 : Fin 1) q)) cN * Ideal.div (s (ix2 (0 : Fin 1) q)) cN + cEps) := by
  unfold istdK
  rw [hostRsqrt_apply, addf_apply, subf_apply, mulf_apply, hostDivf_apply, meanK_apply, splatN_apply, splatEps_apply]

/-! ## The stacked result -/

/-- The specification's stack at an index given by coordinates. -/
theorem stack_apply (a b : Mat) (l : Fin 2) (r : Fin 50000) (q : Fin 128) :
    stack a b (ix3 l r q) = if l.val = 0 then a (ix2 r q) else b (ix2 r q) := rfl

/-- An array given a new leading unit axis reads, at (0, r, q), the array at (r, q). -/
theorem lead_apply (x : FVec Ideal S50000x128 .f32) (r : Fin 50000) (q : Fin 128) :
    broadcastInDim S1x50000x128 ![1, 2] bcast_S50000x128_S1x50000x128_1_2 x (ix3 (0 : Fin 1) r q) = x (ix2 r q) :=
  broadcastInDim_apply _ _ x _ (ix2 r q) fun ax => by
    match ax with
    | ⟨0, _⟩ => exact (show r.val = if (50000 : ℕ) = 1 then 0 else r.val from (if_neg (by decide)).symm)
    | ⟨1, _⟩ => exact (show q.val = if (128 : ℕ) = 1 then 0 else q.val from (if_neg (by decide)).symm)

/-- The two layers' outputs stacked: leading coordinate 0 reads the first, 1 the second. -/
theorem stackK_eq (a b : FVec Ideal S50000x128 .f32) : stackK a b = stack a b := by
  funext i
  obtain ⟨l, r, q, rfl⟩ : ∃ (l : Fin 2) (r : Fin 50000) (q : Fin 128), i = ix3 l r q := ⟨i 0, i 1, i 2, eq_ix3 i⟩
  rw [stack_apply]
  unfold stackK
  have hl : l = 0 ∨ l = 1 := by
    rcases l with ⟨v, hv⟩
    have hv' : v = 0 ∨ v = 1 := by omega
    rcases hv' with rfl | rfl
    · exact Or.inl rfl
    · exact Or.inr rfl
  rcases hl with rfl | rfl
  · rw [if_pos (show ((0 : Fin 2) : ℕ) = 0 from rfl)]
    refine (concatenate_pair_apply_left (t := S2x50000x128) (s₁ := S1x50000x128) (s₂ := S1x50000x128) 0 _ _
      concatenates_S1x50000x128_S1x50000x128_S2x50000x128_d0 (ix3 (0 : Fin 2) r q) rfl (ix3 (0 : Fin 1) r q)
      fun ax => ?_).trans (lead_apply a r q)
    match ax with
    | ⟨0, _⟩ => rfl
    | ⟨1, _⟩ => rfl
    | ⟨2, _⟩ => rfl
  · rw [if_neg (show ¬ ((1 : Fin 2) : ℕ) = 0 by decide)]
    refine (concatenate_pair_apply_right (t := S2x50000x128) (s₁ := S1x50000x128) (s₂ := S1x50000x128) 0 _ _
      concatenates_S1x50000x128_S1x50000x128_S2x50000x128_d0 (ix3 (1 : Fin 2) r q) rfl rfl (ix3 (0 : Fin 1) r q)
      (fun ax hne => ?_) rfl).trans (lead_apply b r q)
    match ax with
    | ⟨0, _⟩ => exact absurd rfl hne
    | ⟨1, _⟩ => rfl
    | ⟨2, _⟩ => rfl

end Cert.Gin.KerRead

end
-- ==== Proof.RegionBn.lean ====
/-
  The value of the two normalisation regions.

  Each region takes an array z of 50000 rows by 128 columns and four per-column vectors (a mean m, an inverse
  deviation s, a scale γ and a shift β, each held as a one-row array) and leaves in its output array

      out (r, q) = max ((z (r, q) - m q) · s q · γ q + β q) 0.

  The region works through ten blocks of 5000 rows. At grid point t it holds rows 5000 t … 5000 t + 4999 of z and
  the whole of each one-row array; its body broadcasts the four rows down the block, computes the formula entry by
  entry, and the result is written back as rows 5000 t … 5000 t + 4999 of the output. The ten blocks tile the
  output, so after the last point every entry of the output is the formula at that entry.
-/
import proofs.«179664_j13365938225808_1_alg».proof.Proof.Gen.KernelIdeal.Frame
import proofs.«179664_j13365938225808_1_alg».proof.Proof.Spec
import Idealize.ShloMosaic.Lib.Pipeline.Value
import Idealize.ShloMosaic.Lib.ValueLayout
noncomputable section
namespace Cert.Gin.RegionBn
open Idealize.ShloMosaic Idealize.ShloMosaic.TcCoe Idealize.ShloMosaic.ValueIdx Idealize.SL.Sem
open Cert.KernelIdeal Cert.KernelIdeal.Gen
variable (V : (c : Dev nD) → (b : Ref sig .tc) → Buf (Elt Ideal) ((c : Thread nD τ).loc b))

/-- The zero offsets of a load or store of a whole block. -/
theorem hz : (![0, 0] : Fin 2 → Nat) = fun _ => 0 := funext fun a => by fin_cases a <;> rfl

/-- The normalisation formula respects equality of its five operands. -/
theorem bn_congr {a0 a3 a4 a1 a2 b0 b3 b4 b1 b2 : EReal} (h0 : a0 = b0) (h3 : a3 = b3) (h4 : a4 = b4)
    (h1 : a1 = b1) (h2 : a2 = b2) :
    max ((a0 - a3) * a4 * a1 + a2) 0 = max ((b0 - b3) * b4 * b1 + b2) 0 := by
  subst h0 h3 h4 h1 h2; rfl

/-! ## The first layer's normalisation -/

/-- The index maps over the grid: the two row-blocked windows are at block row `t`, column block 0; the four
    per-column vectors are always at their one block. -/
theorem idx1 : ∀ t : Fin cfg1.N,
    win1_5.index t (0 : Fin 2) = t.val ∧ win1_5.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The body's stored value at row `p`, column `q` of the block: the block's entry less the column's mean, times
    the column's inverse deviation, times its scale, plus its shift, rectified. The four per-column operands are
    one-row arrays broadcast down the block's rows; the rectifier's constant is the zero word. -/
theorem pay1_apply (x0 : Vec Ideal S5000x128 .f32) (mu sd g be : Vec Ideal S1x128 .f32) (p : Fin 5000) (q : Fin 128) :
    k1_pay1 (F := Ideal) x0 mu sd g be (ix2 p q)
      = max ((x0 (ix2 p q) - mu (ix2 (0 : Fin 1) q)) * sd (ix2 (0 : Fin 1) q) * g (ix2 (0 : Fin 1) q) + be (ix2 (0 : Fin 1) q)) 0 := by
  unfold k1_pay1
  simp only [shapeCast_self]
  rw [maximumf_apply, addf_apply, mulf_apply, mulf_apply, subf_apply, broadcast_apply,
    broadcastTo_1b_ab_apply mu, broadcastTo_1b_ab_apply sd, broadcastTo_1b_ab_apply g, broadcastTo_1b_ab_apply be]
  show max _ (Ideal.ofBits .f32 0x00000000#32) = _
  rw [Ideal.ofBits_zero_f32]

theorem rd1_0 (c : Dev nD) (t : Fin cfg1.N) (p : Fin 5000) (q : Fin 128) (hr : t.val * 5000 + p.val < 50000) :
    (iblk1 (F := Ideal) V c 0 t : Vec Ideal S5000x128 .f32) (ix2 p q)
      = (V c (Pipeline.arrRef spec1 0) : S50000x128.Idx → EReal) (ix2 (⟨t.val * 5000 + p.val, hr⟩ : Fin 50000) q) := by
  obtain ⟨e50, e51, e00, e01, -⟩ := idx1 t
  unfold iblk1
  rw [View.read_apply, cast_eq]
  refine congrArg (V c (Pipeline.arrRef spec1 0)) ?_
  funext a; apply Fin.ext
  match a with
  | ⟨0, _⟩ => show win1_0.index t (0 : Fin 2) * 5000 + 1 * p.val = t.val * 5000 + p.val; omega
  | ⟨1, _⟩ => show win1_0.index t (1 : Fin 2) * 128 + 1 * q.val = q.val; omega

theorem rd1_1 (c : Dev nD) (t : Fin cfg1.N) (q : Fin 128) :
    (iblk1 (F := Ideal) V c 1 t : Vec Ideal S1x128 .f32) (ix2 (0 : Fin 1) q)
      = (V c (Pipeline.arrRef spec1 1) : S1x128.Idx → EReal) (ix2 (0 : Fin 1) q) := by
  obtain ⟨e50, e51, e00, e01, e10, e11, e20, e21, e30, e31, e40, e41⟩ := idx1 t
  unfold iblk1
  rw [View.read_apply, cast_eq]
  refine congrArg (V c (Pipeline.arrRef spec1 1)) ?_
  funext a; apply Fin.ext
  match a with
  | ⟨0, _⟩ => show win1_1.index t (0 : Fin 2) * 1 + 1 * 0 = 0; omega
  | ⟨1, _⟩ => show win1_1.index t (1 : Fin 2) * 128 + 1 * q.val = q.val; omega

theorem rd1_2 (c : Dev nD) (t : Fin cfg1.N) (q : Fin 128) :
    (iblk1 (F := Ideal) V c 2 t : Vec Ideal S1x128 .f32) (ix2 (0 : Fin 1) q)
      = (V c (Pipeline.arrRef spec1 2) : S1x128.Idx → EReal) (ix2 (0 : Fin 1) q) := by
  obtain ⟨e50, e51, e00, e01, e10, e11, e20, e21, e30, e31, e40, e41⟩ := idx1 t
  unfold iblk1
  rw [View.read_apply, cast_eq]
  refine congrArg (V c (Pipeline.arrRef spec1 2)) ?_
  funext a; apply Fin.ext
  match a with
  | ⟨0, _⟩ => show win1_2.index t (0 : Fin 2) * 1 + 1 * 0 = 0; omega
  | ⟨1, _⟩ => show win1_2.index t (1 : Fin 2) * 128 + 1 * q.val = q.val; omega

theorem rd1_3 (c : Dev nD) (t : Fin cfg1.N) (q : Fin 128) :
    (iblk1 (F := Ideal) V c 3 t : Vec Ideal S1x128 .f32) (ix2 (0 : Fin 1) q)
      = (V c (Pipeline.arrRef spec1 3) : S1x128.Idx → EReal) (ix2 (0 : Fin 1) q) := by
  obtain ⟨e50, e51, e00, e01, e10, e11, e20, e21, e30, e31, e40, e41⟩ := idx1 t
  unfold iblk1
  rw [View.read_apply, cast_eq]
  refine congrArg (V c (Pipeline.arrRef spec1 3)) ?_
  funext a; apply Fin.ext
  match a with
  | ⟨0, _⟩ => show win1_3.index t (0 : Fin 2) * 1 + 1 * 0 = 0; omega
  | ⟨1, _⟩ => show win1_3.index t (1 : Fin 2) * 128 + 1 * q.val = q.val; omega

theorem rd1_4 (c : Dev nD) (t : Fin cfg1.N) (q : Fin 128) :
    (iblk1 (F := Ideal) V c 4 t : Vec Ideal S1x128 .f32) (ix2 (0 : Fin 1) q)
      = (V c (Pipeline.arrRef spec1 4) : S1x128.Idx → EReal) (ix2 (0 : Fin 1) q) := by
  obtain ⟨e50, e51, e00, e01, e10, e11, e20, e21, e30, e31, e40, e41⟩ := idx1 t
  unfold iblk1
  rw [View.read_apply, cast_eq]
  refine congrArg (V c (Pipeline.arrRef spec1 4)) ?_
  funext a; apply Fin.ext
  match a with
  | ⟨0, _⟩ => show win1_4.index t (0 : Fin 2) * 1 + 1 * 0 = 0; omega
  | ⟨1, _⟩ => show win1_4.index t (1 : Fin 2) * 128 + 1 * q.val = q.val; omega

/-- What the body leaves in the output's staging buffer at point `t`: its one whole-block store, of the formula's
    value over the five blocks the point holds. -/
theorem stored1 (c : Dev nD) (t : Fin cfg1.N) :
    (dat1 (F := Ideal) V c).flushed 5 t
      = (cfg1.win 5).cut (grid1.coords t)
          (k1_pay1 (iblk1 V c 0 t) (iblk1 V c 3 t) (iblk1 V c 4 t) (iblk1 V c 1 t) (iblk1 V c 2 t)) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz]

/-- Row `p`, column `q` of the output's block at point `t` is row `5000 t + p`, column `q` of the array. -/
theorem emb1_5 (t : Fin cfg1.N) (p : Fin 5000) (q : Fin 128) (hr : t.val * 5000 + p.val < 50000) :
    ((cfg1.win 5).blk t).view.emb (ix2 p q) = (ix2 (⟨t.val * 5000 + p.val, hr⟩ : Fin 50000) q : S50000x128.Idx) := by
  obtain ⟨e50, e51, -⟩ := idx1 t
  funext a; apply Fin.ext
  match a with
  | ⟨0, _⟩ => show win1_5.index t (0 : Fin 2) * 5000 + 1 * p.val = t.val * 5000 + p.val; omega
  | ⟨1, _⟩ => show win1_5.index t (1 : Fin 2) * 128 + 1 * q.val = q.val; omega

/-- What grid point `t` writes back is block `t` of the normalised array: row `p` of the block is row
    `5000 t + p` of the array, and the per-column operands are read at the same column. -/
theorem wrote1 (c : Dev nD) (t : Fin cfg1.N) :
    (dat1 (F := Ideal) V c).flushed 5 t = ((cfg1.win 5).blk t).view.read (Elt Ideal)
      (Cert.Gin.bn (V c (Pipeline.arrRef spec1 0)) (fun q => V c (Pipeline.arrRef spec1 3) (ix2 (0 : Fin 1) q))
          (fun q => V c (Pipeline.arrRef spec1 4) (ix2 (0 : Fin 1) q)) (fun q => V c (Pipeline.arrRef spec1 1) (ix2 (0 : Fin 1) q))
          (fun q => V c (Pipeline.arrRef spec1 2) (ix2 (0 : Fin 1) q))) := by
  rw [stored1]
  funext j
  obtain ⟨p, q, rfl⟩ : ∃ (p : Fin 5000) (q : Fin 128), j = ix2 p q := ⟨j 0, j 1, eq_ix2 j⟩
  have hN : cfg1.N = 10 := N_1
  have ht : t.val < cfg1.N := t.isLt
  have hr : t.val * 5000 + p.val < 50000 := by have := p.isLt; omega
  rw [View.read_apply, cast_eq, emb1_5 t p q hr]
  refine Eq.trans (b := k1_pay1 (iblk1 V c 0 t) (iblk1 V c 3 t) (iblk1 V c 4 t) (iblk1 V c 1 t) (iblk1 V c 2 t) (ix2 p q)) rfl ?_
  refine (pay1_apply (iblk1 V c 0 t) (iblk1 V c 3 t) (iblk1 V c 4 t) (iblk1 V c 1 t) (iblk1 V c 2 t) p q).trans ?_
  refine (bn_congr (rd1_0 V c t p q hr) (rd1_3 V c t q) (rd1_4 V c t q) (rd1_1 V c t q) (rd1_2 V c t q)).trans ?_
  rfl

/-- An index of the array lies in point `t`'s block iff each coordinate lies in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v40).slice (win1_5.rect t)).set ↔ _
  rw [View.set_slice_whole, Rect.mem_set_unit]
  exact Iff.rfl

/-- The ten blocks of 5000 rows cover the array: row `r` lies in the block of point `r / 5000`, which is written back. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  obtain ⟨t, htv⟩ : ∃ t : Fin cfg1.N, t.val = (i 0).val / 5000 := ⟨⟨(i 0).val / 5000, by omega⟩, rfl⟩
  obtain ⟨e50, e51, -⟩ := idx1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The region's output array after its last grid point is the normalised array, index by index. -/
theorem region1_value (c : Dev nD) :
    (dat1 (F := Ideal) V c).arrAt 5 cfg1.N
      = Cert.Gin.bn (V c (Pipeline.arrRef spec1 0)) (fun q => V c (Pipeline.arrRef spec1 3) (ix2 (0 : Fin 1) q))
          (fun q => V c (Pipeline.arrRef spec1 4) (ix2 (0 : Fin 1) q)) (fun q => V c (Pipeline.arrRef spec1 1) (ix2 (0 : Fin 1) q))
          (fun q => V c (Pipeline.arrRef spec1 2) (ix2 (0 : Fin 1) q)) :=
  (dat1 (F := Ideal) V c).arrAt_eq_of_cover 5 _ (fun t _ => wrote1 V c t) cover1

/-! ## The second layer's normalisation -/

/-- The index maps over the grid: the two row-blocked windows are at block row `t`, column block 0; the four
    per-column vectors are always at their one block. -/
theorem idx3 : ∀ t : Fin cfg3.N,
    win3_5.index t (0 : Fin 2) = t.val ∧ win3_5.index t (1 : Fin 2) = 0
    ∧ win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- The body's stored value at row `p`, column `q` of the block: the block's entry less the column's mean, times
    the column's inverse deviation, times its scale, plus its shift, rectified. The four per-column operands are
    one-row arrays broadcast down the block's rows; the rectifier's constant is the zero word. -/
theorem pay3_apply (x0 : Vec Ideal S5000x128 .f32) (mu sd g be : Vec Ideal S1x128 .f32) (p : Fin 5000) (q : Fin 128) :
    k3_pay1 (F := Ideal) x0 mu sd g be (ix2 p q)
      = max ((x0 (ix2 p q) - mu (ix2 (0 : Fin 1) q)) * sd (ix2 (0 : Fin 1) q) * g (ix2 (0 : Fin 1) q) + be (ix2 (0 : Fin 1) q)) 0 := by
  unfold k3_pay1
  simp only [shapeCast_self]
  rw [maximumf_apply, addf_apply, mulf_apply, mulf_apply, subf_apply, broadcast_apply,
    broadcastTo_1b_ab_apply mu, broadcastTo_1b_ab_apply sd, broadcastTo_1b_ab_apply g, broadcastTo_1b_ab_apply be]
  show max _ (Ideal.ofBits .f32 0x00000000#32) = _
  rw [Ideal.ofBits_zero_f32]

theorem rd3_0 (c : Dev nD) (t : Fin cfg3.N) (p : Fin 5000) (q : Fin 128) (hr : t.val * 5000 + p.val < 50000) :
    (iblk3 (F := Ideal) V c 0 t : Vec Ideal S5000x128 .f32) (ix2 p q)
      = (V c (Pipeline.arrRef spec3 0) : S50000x128.Idx → EReal) (ix2 (⟨t.val * 5000 + p.val, hr⟩ : Fin 50000) q) := by
  obtain ⟨e50, e51, e00, e01, -⟩ := idx3 t
  unfold iblk3
  rw [View.read_apply, cast_eq]
  refine congrArg (V c (Pipeline.arrRef spec3 0)) ?_
  funext a; apply Fin.ext
  match a with
  | ⟨0, _⟩ => show win3_0.index t (0 : Fin 2) * 5000 + 1 * p.val = t.val * 5000 + p.val; omega
  | ⟨1, _⟩ => show win3_0.index t (1 : Fin 2) * 128 + 1 * q.val = q.val; omega

theorem rd3_1 (c : Dev nD) (t : Fin cfg3.N) (q : Fin 128) :
    (iblk3 (F := Ideal) V c 1 t : Vec Ideal S1x128 .f32) (ix2 (0 : Fin 1) q)
      = (V c (Pipeline.arrRef spec3 1) : S1x128.Idx → EReal) (ix2 (0 : Fin 1) q) := by
  obtain ⟨e50, e51, e00, e01, e10, e11, e20, e21, e30, e31, e40, e41⟩ := idx3 t
  unfold iblk3
  rw [View.read_apply, cast_eq]
  refine congrArg (V c (Pipeline.arrRef spec3 1)) ?_
  funext a; apply Fin.ext
  match a with
  | ⟨0, _⟩ => show win3_1.index t (0 : Fin 2) * 1 + 1 * 0 = 0; omega
  | ⟨1, _⟩ => show win3_1.index t (1 : Fin 2) * 128 + 1 * q.val = q.val; omega

theorem rd3_2 (c : Dev nD) (t : Fin cfg3.N) (q : Fin 128) :
    (iblk3 (F := Ideal) V c 2 t : Vec Ideal S1x128 .f32) (ix2 (0 : Fin 1) q)
      = (V c (Pipeline.arrRef spec3 2) : S1x128.Idx → EReal) (ix2 (0 : Fin 1) q) := by
  obtain ⟨e50, e51, e00, e01, e10, e11, e20, e21, e30, e31, e40, e41⟩ := idx3 t
  unfold iblk3
  rw [View.read_apply, cast_eq]
  refine congrArg (V c (Pipeline.arrRef spec3 2)) ?_
  funext a; apply Fin.ext
  match a with
  | ⟨0, _⟩ => show win3_2.index t (0 : Fin 2) * 1 + 1 * 0 = 0; omega
  | ⟨1, _⟩ => show win3_2.index t (1 : Fin 2) * 128 + 1 * q.val = q.val; omega

theorem rd3_3 (c : Dev nD) (t : Fin cfg3.N) (q : Fin 128) :
    (iblk3 (F := Ideal) V c 3 t : Vec Ideal S1x128 .f32) (ix2 (0 : Fin 1) q)
      = (V c (Pipeline.arrRef spec3 3) : S1x128.Idx → EReal) (ix2 (0 : Fin 1) q) := by
  obtain ⟨e50, e51, e00, e01, e10, e11, e20, e21, e30, e31, e40, e41⟩ := idx3 t
  unfold iblk3
  rw [View.read_apply, cast_eq]
  refine congrArg (V c (Pipeline.arrRef spec3 3)) ?_
  funext a; apply Fin.ext
  match a with
  | ⟨0, _⟩ => show win3_3.index t (0 : Fin 2) * 1 + 1 * 0 = 0; omega
  | ⟨1, _⟩ => show win3_3.index t (1 : Fin 2) * 128 + 1 * q.val = q.val; omega

theorem rd3_4 (c : Dev nD) (t : Fin cfg3.N) (q : Fin 128) :
    (iblk3 (F := Ideal) V c 4 t : Vec Ideal S1x128 .f32) (ix2 (0 : Fin 1) q)
      = (V c (Pipeline.arrRef spec3 4) : S1x128.Idx → EReal) (ix2 (0 : Fin 1) q) := by
  obtain ⟨e50, e51, e00, e01, e10, e11, e20, e21, e30, e31, e40, e41⟩ := idx3 t
  unfold iblk3
  rw [View.read_apply, cast_eq]
  refine congrArg (V c (Pipeline.arrRef spec3 4)) ?_
  funext a; apply Fin.ext
  match a with
  | ⟨0, _⟩ => show win3_4.index t (0 : Fin 2) * 1 + 1 * 0 = 0; omega
  | ⟨1, _⟩ => show win3_4.index t (1 : Fin 2) * 128 + 1 * q.val = q.val; omega

/-- What the body leaves in the output's staging buffer at point `t`: its one whole-block store, of the formula's
    value over the five blocks the point holds. -/
theorem stored3 (c : Dev nD) (t : Fin cfg3.N) :
    (dat3 (F := Ideal) V c).flushed 5 t
      = (cfg3.win 5).cut (grid3.coords t)
          (k3_pay1 (iblk3 V c 0 t) (iblk3 V c 3 t) (iblk3 V c 4 t) (iblk3 V c 1 t) (iblk3 V c 2 t)) := by
  show (cfg3.win 5).cut (grid3.coords t) ((dat3 V c).after 5 t) = _
  rw [after3_5]
  unfold out3_5
  rw [View.canon_unit_zero hz]
  simp only [View.ld_unit_zero (S := S5000x128) hz, View.ld_unit_zero (S := S1x128) hz]

/-- Row `p`, column `q` of the output's block at point `t` is row `5000 t + p`, column `q` of the array. -/
theorem emb3_5 (t : Fin cfg3.N) (p : Fin 5000) (q : Fin 128) (hr : t.val * 5000 + p.val < 50000) :
    ((cfg3.win 5).blk t).view.emb (ix2 p q) = (ix2 (⟨t.val * 5000 + p.val, hr⟩ : Fin 50000) q : S50000x128.Idx) := by
  obtain ⟨e50, e51, -⟩ := idx3 t
  funext a; apply Fin.ext
  match a with
  | ⟨0, _⟩ => show win3_5.index t (0 : Fin 2) * 5000 + 1 * p.val = t.val * 5000 + p.val; omega
  | ⟨1, _⟩ => show win3_5.index t (1 : Fin 2) * 128 + 1 * q.val = q.val; omega

/-- What grid point `t` writes back is block `t` of the normalised array: row `p` of the block is row
    `5000 t + p` of the array, and the per-column operands are read at the same column. -/
theorem wrote3 (c : Dev nD) (t : Fin cfg3.N) :
    (dat3 (F := Ideal) V c).flushed 5 t = ((cfg3.win 5).blk t).view.read (Elt Ideal)
      (Cert.Gin.bn (V c (Pipeline.arrRef spec3 0)) (fun q => V c (Pipeline.arrRef spec3 3) (ix2 (0 : Fin 1) q))
          (fun q => V c (Pipeline.arrRef spec3 4) (ix2 (0 : Fin 1) q)) (fun q => V c (Pipeline.arrRef spec3 1) (ix2 (0 : Fin 1) q))
          (fun q => V c (Pipeline.arrRef spec3 2) (ix2 (0 : Fin 1) q))) := by
  rw [stored3]
  funext j
  obtain ⟨p, q, rfl⟩ : ∃ (p : Fin 5000) (q : Fin 128), j = ix2 p q := ⟨j 0, j 1, eq_ix2 j⟩
  have hN : cfg3.N = 10 := N_3
  have ht : t.val < cfg3.N := t.isLt
  have hr : t.val * 5000 + p.val < 50000 := by have := p.isLt; omega
  rw [View.read_apply, cast_eq, emb3_5 t p q hr]
  refine Eq.trans (b := k3_pay1 (iblk3 V c 0 t) (iblk3 V c 3 t) (iblk3 V c 4 t) (iblk3 V c 1 t) (iblk3 V c 2 t) (ix2 p q)) rfl ?_
  refine (pay3_apply (iblk3 V c 0 t) (iblk3 V c 3 t) (iblk3 V c 4 t) (iblk3 V c 1 t) (iblk3 V c 2 t) p q).trans ?_
  refine (bn_congr (rd3_0 V c t p q hr) (rd3_3 V c t q) (rd3_4 V c t q) (rd3_1 V c t q) (rd3_2 V c t q)).trans ?_
  rfl

/-- An index of the array lies in point `t`'s block iff each coordinate lies in the block's range on its axis. -/
theorem mem_blk3 (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v77).slice (win3_5.rect t)).set ↔ _
  rw [View.set_slice_whole, Rect.mem_set_unit]
  exact Iff.rfl

/-- The ten blocks of 5000 rows cover the array: row `r` lies in the block of point `r / 5000`, which is written back. -/
theorem cover3 (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 10 := N_3
  obtain ⟨t, htv⟩ : ∃ t : Fin cfg3.N, t.val = (i 0).val / 5000 := ⟨⟨(i 0).val / 5000, by omega⟩, rfl⟩
  obtain ⟨e50, e51, -⟩ := idx3 t
  refine ⟨t, flush3_5 t, ?_⟩
  rw [mem_blk3]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- The region's output array after its last grid point is the normalised array, index by index. -/
theorem region3_value (c : Dev nD) :
    (dat3 (F := Ideal) V c).arrAt 5 cfg3.N
      = Cert.Gin.bn (V c (Pipeline.arrRef spec3 0)) (fun q => V c (Pipeline.arrRef spec3 3) (ix2 (0 : Fin 1) q))
          (fun q => V c (Pipeline.arrRef spec3 4) (ix2 (0 : Fin 1) q)) (fun q => V c (Pipeline.arrRef spec3 1) (ix2 (0 : Fin 1) q))
          (fun q => V c (Pipeline.arrRef spec3 2) (ix2 (0 : Fin 1) q)) :=
  (dat3 (F := Ideal) V c).arrAt_eq_of_cover 5 _ (fun t _ => wrote3 V c t) cover3

end Cert.Gin.RegionBn
end
-- ==== Proof.RegionMlpOut0.lean ====
import proofs.«179664_j13365938225808_1_alg».proof.Proof.Gen.KernelIdeal.Frame
import Idealize.ShloMosaic.Lib.Pipeline.Value

/-!
  What one run of the body leaves in its three output blocks, as the body's own arithmetic applied to the
  blocks it loaded (region 0).

  The body first, at grid point 0 only, stores a zero row into each of the two accumulator blocks.  It then
  loads the six input blocks, stores z = max ((x + agg) · W1 + b1) 0 · W2 + b2 into the first output block,
  and replaces each accumulator row by itself plus a column sum over the block's rows: of z for the first,
  of z · z for the second.  So after the body the first output block holds z of the loaded blocks, and each
  accumulator holds its previous contents (the zero row at point 0, what the point before left otherwise)
  plus that point's column sum.
-/

noncomputable section

namespace Cert.Gin.RegionMlp

open Idealize.ShloMosaic Idealize.ShloMosaic.TcCoe Idealize.SL.Sem Idealize.ShloMosaic.Tactic
open Cert.KernelIdeal Cert.KernelIdeal.Gen

variable {F : FTy → Type} [FloatOps F]

/-- The offsets of a load or store of a whole block are all zero. -/
theorem hz2_0 : (![0, 0] : Fin 2 → Nat) = fun _ => 0 := funext fun a => by fin_cases a <;> rfl

/-- At the first point the z block is the body's z of the loaded blocks. -/
theorem o0_A_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i) (x0 : Vec F S5000x128 .f32) (x1 : Vec F S5000x128 .f32) (x2 : Vec F S128x128 .f32) (x3 : Vec F S1x128 .f32) (x4 : Vec F S128x128 .f32) (x5 : Vec F S1x128 .f32) :
    out0_A_6 c i arg1 harg1 arg2 harg2 arg3 harg3 arg4 harg4 arg5 harg5 arg6 harg6 arg7 harg7 arg8 harg8 arg9 harg9 hc0 x0 x1 x2 x3 x4 x5 = k0_pay4 x0 x1 x2 x3 x4 x5 := by
  have hz2 := hz2_0
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero hz2]
  simp only [View.readAt_eq_ld, harg1.read_unread, harg2.read_unread, harg3.read_unread, harg4.read_unread, harg5.read_unread, harg6.read_unread, View.ld_unit_zero (S := S5000x128) hz2, View.ld_unit_zero (S := S128x128) hz2, View.ld_unit_zero (S := S1x128) hz2]

/-- At the first point the sum row is the zero row plus the block's column sums of z. -/
theorem o0_A_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i) (x0 : Vec F S5000x128 .f32) (x1 : Vec F S5000x128 .f32) (x2 : Vec F S128x128 .f32) (x3 : Vec F S1x128 .f32) (x4 : Vec F S128x128 .f32) (x5 : Vec F S1x128 .f32) :
    out0_A_7 c i arg1 harg1 arg2 harg2 arg3 harg3 arg4 harg4 arg5 harg5 arg6 harg6 arg7 harg7 arg8 harg8 arg9 harg9 hc0 x0 x1 x2 x3 x4 x5 = k0_pay5 x0 x1 x2 x3 x4 x5 (k0_pay2 (F := F)) := by
  have hz2 := hz2_0
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x128) hz2]
  simp only [View.readAt_eq_ld, harg1.read_unread, harg2.read_unread, harg3.read_unread, harg4.read_unread, harg5.read_unread, harg6.read_unread, View.ld_unit_zero (S := S5000x128) hz2, View.ld_unit_zero (S := S128x128) hz2, View.ld_unit_zero (S := S1x128) hz2]
  rw [View.readCov_unit_zero (S := S1x128) _ hz2]

/-- At the first point the sum-of-squares row is the zero row plus the block's column sums of z · z. -/
theorem o0_A_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i) (x0 : Vec F S5000x128 .f32) (x1 : Vec F S5000x128 .f32) (x2 : Vec F S128x128 .f32) (x3 : Vec F S1x128 .f32) (x4 : Vec F S128x128 .f32) (x5 : Vec F S1x128 .f32) :
    out0_A_8 c i arg1 harg1 arg2 harg2 arg3 harg3 arg4 harg4 arg5 harg5 arg6 harg6 arg7 harg7 arg8 harg8 arg9 harg9 hc0 x0 x1 x2 x3 x4 x5 = k0_pay1 (k0_pay4 x0 x1 x2 x3 x4 x5) (k0_pay3 (F := F)) := by
  have hz2 := hz2_0
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x128) hz2]
  simp only [View.readAt_eq_ld, harg1.read_unread, harg2.read_unread, harg3.read_unread, harg4.read_unread, harg5.read_unread, harg6.read_unread, View.ld_unit_zero (S := S5000x128) hz2, View.ld_unit_zero (S := S128x128) hz2, View.ld_unit_zero (S := S1x128) hz2]
  rw [View.readCov_unit_zero (S := S1x128) _ hz2]

/-- At a later point the z block is the body's z of the loaded blocks. -/
theorem o0_B_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    out0_B_6 c i arg1 harg1 arg2 harg2 arg3 harg3 arg4 harg4 arg5 harg5 arg6 harg6 arg7 harg7 arg8 harg8 arg9 harg9 hc0 x0 x1 x2 x3 x4 x5 xo7 xo8 = k0_pay4 x0 x1 x2 x3 x4 x5 := by
  have hz2 := hz2_0
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg8.read_unread, harg9.read_unread, View.ld_unit_zero (S := S5000x128) hz2, View.ld_unit_zero (S := S128x128) hz2, View.ld_unit_zero (S := S1x128) hz2]

/-- At a later point the sum row is its running contents plus the block's column sums of z. -/
theorem o0_B_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    out0_B_7 c i arg1 harg1 arg2 harg2 arg3 harg3 arg4 harg4 arg5 harg5 arg6 harg6 arg7 harg7 arg8 harg8 arg9 harg9 hc0 x0 x1 x2 x3 x4 x5 xo7 xo8 = k0_pay5 x0 x1 x2 x3 x4 x5 xo7 := by
  have hz2 := hz2_0
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg8.read_unread, harg9.read_unread, View.ld_unit_zero (S := S5000x128) hz2, View.ld_unit_zero (S := S128x128) hz2, View.ld_unit_zero (S := S1x128) hz2]

/-- At a later point the sum-of-squares row is its running contents plus the block's column sums of z · z. -/
theorem o0_B_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    out0_B_8 c i arg1 harg1 arg2 harg2 arg3 harg3 arg4 harg4 arg5 harg5 arg6 harg6 arg7 harg7 arg8 harg8 arg9 harg9 hc0 x0 x1 x2 x3 x4 x5 xo7 xo8 = k0_pay1 (k0_pay4 x0 x1 x2 x3 x4 x5) xo8 := by
  have hz2 := hz2_0
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg8.read_unread, harg9.read_unread, View.ld_unit_zero (S := S5000x128) hz2, View.ld_unit_zero (S := S128x128) hz2, View.ld_unit_zero (S := S1x128) hz2]

end Cert.Gin.RegionMlp

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.LibAxisReduce.lean ====
/-
  Reductions over one axis of a matrix, read at an index written by coordinates, for any extents:

  * the vector unit's sum over the rows of each column, and over the columns of each row, as a sum
    over that axis's coordinates;
  * the host's maximum and the host's sum over the columns of each row, as the fold of max from the
    starting value, and the starting value plus the sum, over that row's entries;
  * a maximum against the starting value of such a fold changes nothing.
-/
import Idealize.ShloMosaic.Lib.Pipeline.Value
import Idealize.ShloMosaic.Lib.ValueIdx
import Idealize.ShloMosaic.PureOps.Ideal.Laws
import Idealize.ShloMosaic.PureOps.Reduce

noncomputable section

namespace Cert.LibAxisReduce

open Idealize.ShloMosaic Idealize.ShloMosaic.ValueIdx

/-- Column q of a matrix with row k put back is (k, q). -/
theorem lift_rows {a b : Nat} (h : (⟨2, ![a, b]⟩ : Shape).Reduces [0] (⟨1, ![b]⟩ : Shape)) (q : Fin b)
    (k : Fin ((⟨2, ![a, b]⟩ : Shape).size 0)) : h.lift (ix1 q) k = ix2 (⟨k.val, k.isLt⟩ : Fin a) q := by
  funext c; apply Fin.ext
  fin_cases c <;> rfl

/-- Row p of a matrix with column k put back is (p, k). -/
theorem lift_cols {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The vector unit's sum over the rows of each column, at column q: the sum of that column's entries. -/
theorem colSum_apply {a b : Nat} (src : FVec Ideal ⟨2, ![a, b]⟩ .f32) (acc : BitVec 32)
    (h : (⟨2, ![a, b]⟩ : Shape).Reduces [0] (⟨1, ![b]⟩ : Shape)) (hφ : FKind.Formats .f32)
    (hacc : acc = FKind.add.neutral .f32 hφ) (q : Fin b) :
    multiReduction .add [0] ⟨1, ![b]⟩ src acc h hφ hacc (ix1 q) = ∑ k : Fin a, src (ix2 k q) := by
  rw [Ideal.multiReduction_add_single]
  have hf : (fun k => src (h.lift (ix1 q) k)) = fun k : Fin a => src (ix2 k q) :=
    funext fun k => congrArg src (lift_rows h q k)
  exact congrArg (fun f => ∑ k : Fin a, f k) hf

/-- The vector unit's sum over the columns of each row, at row p: the sum of that row's entries. -/
theorem rowSum_apply {a b : Nat} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ k : Fin b, src (ix2 p k) := by
  rw [Ideal.multiReduction_add_single]
  have hf : (fun k => src (h.lift (ix1 p) k)) = fun k : Fin b => src (ix2 p k) :=
    funext fun k => congrArg src (lift_cols h p k)
  exact congrArg (fun f => ∑ k : Fin b, f k) hf

/-- The host's maximum over the columns of each row of a matrix, at row p: the fold of max from the
    starting value over the entries (p, ·). -/
theorem hostRowMax_apply {a b : Nat} (x : FVec Ideal ⟨2, ![a, b]⟩ .f32) (init : FVec Ideal ⟨0, ![]⟩ .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel)
    (p : Fin a) :
    Host.reduce FloatOps.maximumf x init h' hu (ix1 p)
      = (Finset.univ : Finset (Fin b)).fold max (init ix0) (fun k => x (ix2 p k)) := by
  rw [Host.reduce_eq_fold_single FloatOps.maximumf x init h' h hu]
  have hi : init (Shape.Idx.first hu) = init ix0 := congrArg init (eq_ix0 _)
  have hf : (x ∘ h.lift (ix1 p)) = fun k : Fin b => x (ix2 p k) :=
    funext fun k => congrArg x (lift_cols h p k)
  rw [hi]
  exact congrArg (fun f => Finset.fold max (init ix0) f (Finset.univ : Finset (Fin b))) hf

/-- The host's sum over the columns of each row of a matrix, at row p: the starting value plus the sum of
    the entries (p, ·). -/
theorem hostRowSum_apply {a b : Nat} (x : FVec Ideal ⟨2, ![a, b]⟩ .f32) (init : FVec Ideal ⟨0, ![]⟩ .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel)
    (p : Fin a) :
    Host.reduceAdd x init h' hu (ix1 p) = init ix0 + ∑ k : Fin b, x (ix2 p k) := by
  unfold Host.reduceAdd
  rw [Ideal.hostReduceAdd_def, Ideal.hostReduceAdd_single h' h]
  have hi : init (Shape.Idx.first hu) = init ix0 := congrArg init (eq_ix0 _)
  have hf : (fun k => x (h.lift (ix1 p) k)) = fun k : Fin b => x (ix2 p k) :=
    funext fun k => congrArg x (lift_cols h p k)
  rw [hi]
  exact congrArg (fun f => init ix0 + ∑ k : Fin b, f k) hf

/-- A fold of max is at least its starting value, so a further maximum against that value changes nothing. -/
theorem max_start_fold {ι : Type} (s : Finset ι) (b : EReal) (f : ι → EReal) :
    max b (s.fold max b f) = s.fold max b f :=
  max_eq_right (Finset.le_fold_max (b := b) (f := f) (s := s) b |>.mpr (Or.inl le_rfl))

end Cert.LibAxisReduce

end
-- ==== Proof.RegionMlpPay.lean ====
import proofs.«179664_j13365938225808_1_alg».proof.Proof.Gen.KernelIdeal.Skeleton
import proofs.«179664_j13365938225808_1_alg».proof.Proof.Spec
import proofs.«179664_j13365938225808_1_alg».proof.Proof.LibMatmul
import proofs.«179664_j13365938225808_1_alg».proof.Proof.LibAxisReduce
import Idealize.ShloMosaic.Lib.Pipeline.Value
import Idealize.ShloMosaic.Lib.ValueLayout

/-!
  The body's arithmetic on one block of 5000 rows, read index by index over the extended reals.

  With x and agg the block's rows of the two feature arrays, the body computes

      z = max ((x + agg) · W1 + b1) 0 · W2 + b2

  (the narrowings to a shorter float format are the identity on extended reals, and a matrix product into a
  zero accumulator is the plain product), and adds to each of two running rows a column sum over the block's
  5000 rows: of z, and of z · z.
-/

noncomputable section

open scoped BigOperators

namespace Cert.Gin.RegionMlp

open Idealize.ShloMosaic Idealize.ShloMosaic.ValueIdx
open Cert.KernelIdeal Cert.KernelIdeal.Gen Cert.LibMatmul

/-- z on one block: the entry (r, q) from row r of the block's x and agg. -/
def zBlk (x a : S5000x128.Idx → EReal) (w1 : S128x128.Idx → EReal) (b1 : S1x128.Idx → EReal)
    (w2 : S128x128.Idx → EReal) (b2 : S1x128.Idx → EReal) : S5000x128.Idx → EReal :=
  fun j => (∑ k : Fin 128, max ((∑ k' : Fin 128, (x (ix2 (j 0) k') + a (ix2 (j 0) k')) * w1 (ix2 k' k))
      + b1 (ix2 (0 : Fin 1) k)) 0 * w2 (ix2 k (j 1))) + b2 (ix2 (0 : Fin 1) (j 1))

/-- A product of a 5000 × 128 block with a 128 × 128 matrix into the zero accumulator is the plain product. -/
theorem mm_eq {φ₁ φ₂ : FTy} (x : FVec Ideal S5000x128 φ₁) (w : FVec Ideal S128x128 φ₂) :
    matmul dot_S5000x128_S128x128_S5000x128_1_0_0_1_n_n none x w (constant S5000x128 .f32 0x00000000#32) = MM x w :=
  matmul_zero_eq dot_S5000x128_S128x128_S5000x128_1_0_0_1_n_n rfl rfl rfl rfl rfl rfl none x w

/-- The zero word is the number zero. -/
theorem zero_word : (FloatOps.ofBits (F := Ideal) .f32 0x00000000#32) = (0 : EReal) := Ideal.ofBits_zero_f32

/-- The body's z of six loaded blocks is `zBlk` of them (region 0). -/
theorem pay4_eq_0 (x a : Vec Ideal S5000x128 .f32) (w1 : Vec Ideal S128x128 .f32) (b1 : Vec Ideal S1x128 .f32)
    (w2 : Vec Ideal S128x128 .f32) (b2 : Vec Ideal S1x128 .f32) :
    k0_pay4 (F := Ideal) x a w1 b1 w2 b2 = zBlk x a w1 b1 w2 b2 := by
  unfold k0_pay4
  simp only [shapeCast_self]
  rw [mm_eq, mm_eq]
  funext j
  obtain ⟨p, q, rfl⟩ : ∃ (p : Fin 5000) (q : Fin 128), j = ix2 p q := ⟨j 0, j 1, eq_ix2 j⟩
  simp only [addf_apply, MM_apply, maximumf_apply, truncf_apply, broadcast_apply, broadcastTo_1b_ab_apply, zero_word]
  rfl

/-- The sum row after the body: its contents before plus the block's column sums of z (region 0). -/
theorem pay5_eq_0 (x a : Vec Ideal S5000x128 .f32) (w1 : Vec Ideal S128x128 .f32) (b1 : Vec Ideal S1x128 .f32)
    (w2 : Vec Ideal S128x128 .f32) (b2 : Vec Ideal S1x128 .f32) (acc : Vec Ideal S1x128 .f32) :
    k0_pay5 (F := Ideal) x a w1 b1 w2 b2 acc
      = fun i => acc i + ∑ r : Fin 5000, zBlk x a w1 b1 w2 b2 (ix2 r (i 1)) := by
  unfold k0_pay5
  simp only [shapeCast_self]
  rw [pay4_eq_0]
  funext i
  obtain ⟨u, q, rfl⟩ : ∃ (u : Fin 1) (q : Fin 128), i = ix2 u q := ⟨i 0, i 1, eq_ix2 i⟩
  refine (addf_apply _ _ _).trans ?_
  refine congrArg (acc (ix2 u q) + ·) ?_
  refine (shapeCast_a_1a_apply _ _ u q).trans ?_
  exact Cert.LibAxisReduce.colSum_apply _ _ _ _ _ q

/-- The sum-of-squares row after the body: its contents before plus the block's column sums of z · z (region 0). -/
theorem pay1_eq_0 (z : FVec Ideal S5000x128 .f32) (acc : Vec Ideal S1x128 .f32) :
    k0_pay1 (F := Ideal) z acc = fun i => acc i + ∑ r : Fin 5000, z (ix2 r (i 1)) * z (ix2 r (i 1)) := by
  unfold k0_pay1
  simp only [shapeCast_self]
  funext i
  obtain ⟨u, q, rfl⟩ : ∃ (u : Fin 1) (q : Fin 128), i = ix2 u q := ⟨i 0, i 1, eq_ix2 i⟩
  refine (addf_apply _ _ _).trans ?_
  refine congrArg (acc (ix2 u q) + ·) ?_
  refine (shapeCast_a_1a_apply _ _ u q).trans ?_
  exact Cert.LibAxisReduce.colSum_apply (mulf z z) _ _ _ _ q

/-- The two rows the first point stores are zero rows (region 0). -/
theorem pay2_eq_0 : k0_pay2 (F := Ideal) = fun _ => (0 : EReal) := by
  unfold k0_pay2
  funext i
  exact Ideal.ofBits_zero_f32
theorem pay3_eq_0 : k0_pay3 (F := Ideal) = fun _ => (0 : EReal) := by
  unfold k0_pay3
  funext i
  exact Ideal.ofBits_zero_f32

/-- The body's z of six loaded blocks is `zBlk` of them (region 2). -/
theorem pay4_eq_2 (x a : Vec Ideal S5000x128 .f32) (w1 : Vec Ideal S128x128 .f32) (b1 : Vec Ideal S1x128 .f32)
    (w2 : Vec Ideal S128x128 .f32) (b2 : Vec Ideal S1x128 .f32) :
    k2_pay4 (F := Ideal) x a w1 b1 w2 b2 = zBlk x a w1 b1 w2 b2 := by
  unfold k2_pay4
  simp only [shapeCast_self]
  rw [mm_eq, mm_eq]
  funext j
  obtain ⟨p, q, rfl⟩ : ∃ (p : Fin 5000) (q : Fin 128), j = ix2 p q := ⟨j 0, j 1, eq_ix2 j⟩
  simp only [addf_apply, MM_apply, maximumf_apply, truncf_apply, broadcast_apply, broadcastTo_1b_ab_apply, zero_word]
  rfl

/-- The sum row after the body: its contents before plus the block's column sums of z (region 2). -/
theorem pay5_eq_2 (x a : Vec Ideal S5000x128 .f32) (w1 : Vec Ideal S128x128 .f32) (b1 : Vec Ideal S1x128 .f32)
    (w2 : Vec Ideal S128x128 .f32) (b2 : Vec Ideal S1x128 .f32) (acc : Vec Ideal S1x128 .f32) :
    k2_pay5 (F := Ideal) x a w1 b1 w2 b2 acc
      = fun i => acc i + ∑ r : Fin 5000, zBlk x a w1 b1 w2 b2 (ix2 r (i 1)) := by
  unfold k2_pay5
  simp only [shapeCast_self]
  rw [pay4_eq_2]
  funext i
  obtain ⟨u, q, rfl⟩ : ∃ (u : Fin 1) (q : Fin 128), i = ix2 u q := ⟨i 0, i 1, eq_ix2 i⟩
  refine (addf_apply _ _ _).trans ?_
  refine congrArg (acc (ix2 u q) + ·) ?_
  refine (shapeCast_a_1a_apply _ _ u q).trans ?_
  exact Cert.LibAxisReduce.colSum_apply _ _ _ _ _ q

/-- The sum-of-squares row after the body: its contents before plus the block's column sums of z · z (region 2). -/
theorem pay1_eq_2 (z : FVec Ideal S5000x128 .f32) (acc : Vec Ideal S1x128 .f32) :
    k2_pay1 (F := Ideal) z acc = fun i => acc i + ∑ r : Fin 5000, z (ix2 r (i 1)) * z (ix2 r (i 1)) := by
  unfold k2_pay1
  simp only [shapeCast_self]
  funext i
  obtain ⟨u, q, rfl⟩ : ∃ (u : Fin 1) (q : Fin 128), i = ix2 u q := ⟨i 0, i 1, eq_ix2 i⟩
  refine (addf_apply _ _ _).trans ?_
  refine congrArg (acc (ix2 u q) + ·) ?_
  refine (shapeCast_a_1a_apply _ _ u q).trans ?_
  exact Cert.LibAxisReduce.colSum_apply (mulf z z) _ _ _ _ q

/-- The two rows the first point stores are zero rows (region 2). -/
theorem pay2_eq_2 : k2_pay2 (F := Ideal) = fun _ => (0 : EReal) := by
  unfold k2_pay2
  funext i
  exact Ideal.ofBits_zero_f32
theorem pay3_eq_2 : k2_pay3 (F := Ideal) = fun _ => (0 : EReal) := by
  unfold k2_pay3
  funext i
  exact Ideal.ofBits_zero_f32

end Cert.Gin.RegionMlp

end
-- ==== Proof.LibBlockSum.lean ====
/-
  Sums over a long axis taken block by block.

  A kernel that walks an axis of extent `N = T * R` in `T` blocks of `R` rows and keeps a running total adds up, in the
  end, the same terms as one sum over the whole axis: in a commutative monoid (the extended reals under `+` are one, infinities
  included) only the grouping differs.  Stated over an arbitrary commutative monoid, for literal or symbolic extents.
-/
import Idealize.ShloMosaic.Lib.ValueIdx

namespace Cert.LibBlockSum

open Finset

variable {M : Type*} [AddCommMonoid M]

/-- Row `r` of block `t`, as a row of the whole axis: `t * R + r`. -/
def row {T R : ℕ} (t : Fin T) (r : Fin R) : Fin (T * R) :=
  ⟨t.val * R + r.val, by
    have ht := t.isLt
    have hr := r.isLt
    calc t.val * R + r.val < t.val * R + R := by omega
      _ = (t.val + 1) * R := by ring
      _ ≤ T * R := Nat.mul_le_mul_right R ht⟩

@[simp] theorem row_val {T R : ℕ} (t : Fin T) (r : Fin R) : (row t r).val = t.val * R + r.val := rfl

/-- A sum over an axis of extent `T * R` is the sum over the `T` blocks of the sums over each block's `R` rows. -/
theorem sum_blocks (T R : ℕ) (f : Fin (T * R) → M) :
    ∑ i, f i = ∑ t : Fin T, ∑ r : Fin R, f (row t r) := by
  rw [← Equiv.sum_comp finProdFinEquiv f, Fintype.sum_prod_type]
  refine Finset.sum_congr rfl fun t _ => Finset.sum_congr rfl fun r _ => congrArg f ?_
  apply Fin.ext
  simp only [finProdFinEquiv_apply_val, row_val]
  ring

/-- The same over an axis whose extent `N` is given as a number with `T * R = N` (for instance `20 * 5000 = 100000`):
    the row `t * R + r` is named by its value. -/
theorem sum_blocks_of_eq {N : ℕ} (T R : ℕ) (h : T * R = N) (f : Fin N → M) :
    ∑ i, f i = ∑ t : Fin T, ∑ r : Fin R,
      f ⟨t.val * R + r.val, h ▸ (row t r).isLt⟩ := by
  subst h
  exact sum_blocks T R f

/-- A running total: start from `0`, add `g 0`, then `g 1`, … — what an accumulator holds after `k` steps. -/
def running (g : ℕ → M) : ℕ → M
  | 0 => 0
  | k + 1 => running g k + g k

@[simp] theorem running_zero (g : ℕ → M) : running g 0 = 0 := rfl
@[simp] theorem running_succ (g : ℕ → M) (k : ℕ) : running g (k + 1) = running g k + g k := rfl

/-- After `k` steps the accumulator holds the sum of the first `k` contributions. -/
theorem running_eq_sum_range (g : ℕ → M) (k : ℕ) : running g k = ∑ t ∈ Finset.range k, g t := by
  induction k with
  | zero => simp
  | succ k ih => rw [running_succ, ih, Finset.sum_range_succ]

/-- After all `T` steps: the sum over the `T` blocks. -/
theorem running_eq_sum_fin (g : ℕ → M) (T : ℕ) : running g T = ∑ t : Fin T, g t.val := by
  rw [running_eq_sum_range, Finset.sum_range]

/-- An accumulator fed block sums of `f` ends at the sum of `f` over the whole axis. -/
theorem running_blocks (T R : ℕ) (f : Fin (T * R) → M) (g : ℕ → M)
    (hg : ∀ t : Fin T, g t.val = ∑ r : Fin R, f (row t r)) :
    running g T = ∑ i, f i := by
  rw [running_eq_sum_fin, sum_blocks]
  exact Finset.sum_congr rfl fun t _ => hg t

end Cert.LibBlockSum
-- ==== Proof.RegionMlpAcc0.lean ====
import proofs.«179664_j13365938225808_1_alg».proof.Proof.Gen.KernelIdeal.Frame
import proofs.«179664_j13365938225808_1_alg».proof.Proof.Spec
import proofs.«179664_j13365938225808_1_alg».proof.Proof.RegionMlpOut0
import proofs.«179664_j13365938225808_1_alg».proof.Proof.RegionMlpPay
import proofs.«179664_j13365938225808_1_alg».proof.Proof.LibBlockSum
import Idealize.ShloMosaic.Lib.Pipeline.Value

/-!
  What region 0 leaves in its three output arrays, as functions of the arrays it finds.

  The grid walks the 50000 rows in 10 blocks of 5000.  At point t the body reads rows 5000 t … 5000 t + 4999 of x
  and agg and the whole of W1, b1, W2, b2, writes z = max ((x + agg) · W1 + b1) 0 · W2 + b2 for those rows into
  the same rows of the z array (written back at every point), and adds the block's column sums of z and of z · z
  to two rows that start from zero at point 0 and are written back once, after the last point.  A sum over the
  50000 rows taken block by block is the same sum (addition of extended reals is commutative and associative),
  so the two rows end at the column sums of z and of z · z over all rows.
-/

noncomputable section

open scoped BigOperators

namespace Cert.Gin.RegionMlp

open Idealize.ShloMosaic Idealize.ShloMosaic.TcCoe Idealize.ShloMosaic.ValueIdx Idealize.SL.Sem
open Idealize.ShloMosaic.Pipeline (Dat)
open Cert.KernelIdeal Cert.KernelIdeal.Gen Cert.LibBlockSum

variable (V : (c : Dev nD) → (b : Ref sig .tc) → Buf (Elt Ideal) ((c : Thread nD τ).loc b))

/-- What region 0 computes before normalisation, from the six input windows' arrays. -/
abbrev Z0 (c : Dev nD) : Cert.Gin.Mat :=
  Cert.Gin.zOf (V c (Pipeline.arrRef spec0 0)) (V c (Pipeline.arrRef spec0 1)) (V c (Pipeline.arrRef spec0 2))
    (fun q => V c (Pipeline.arrRef spec0 3) (ix2 (0 : Fin 1) q)) (V c (Pipeline.arrRef spec0 4))
    (fun q => V c (Pipeline.arrRef spec0 5) (ix2 (0 : Fin 1) q))

/-- z of a block whose rows are rows of the whole arrays is z of the whole arrays at those rows. -/
theorem zBlk_eq_zOf (x a : S5000x128.Idx → EReal) (w1 : S128x128.Idx → EReal) (b1 : S1x128.Idx → EReal)
    (w2 : S128x128.Idx → EReal) (b2 : S1x128.Idx → EReal) (X A : Cert.Gin.Mat) (W1 : Cert.Gin.SW.Idx → EReal)
    (B1 : Cert.Gin.Col) (W2 : Cert.Gin.SW.Idx → EReal) (B2 : Cert.Gin.Col) (r : Fin 5000) (R : Fin 50000) (q : Fin 128)
    (hx : ∀ k, x (ix2 r k) = X (ix2 R k)) (ha : ∀ k, a (ix2 r k) = A (ix2 R k))
    (hw1 : ∀ p k, w1 (ix2 p k) = W1 (ix2 p k)) (hb1 : ∀ k, b1 (ix2 (0 : Fin 1) k) = B1 k)
    (hw2 : ∀ p k, w2 (ix2 p k) = W2 (ix2 p k)) (hb2 : ∀ k, b2 (ix2 (0 : Fin 1) k) = B2 k) :
    zBlk x a w1 b1 w2 b2 (ix2 r q) = Cert.Gin.zOf X A W1 B1 W2 B2 (ix2 R q) := by
  unfold zBlk Cert.Gin.zOf Cert.Gin.lin Cert.Gin.hid
  show (∑ k : Fin 128, max ((∑ k' : Fin 128, (x (ix2 r k') + a (ix2 r k')) * w1 (ix2 k' k)) + b1 (ix2 (0 : Fin 1) k)) 0
      * w2 (ix2 k q)) + b2 (ix2 (0 : Fin 1) q)
    = (∑ k : Fin 128, max ((∑ k' : Fin 128, (X (ix2 R k') + A (ix2 R k')) * W1 (ix2 k' k)) + B1 k) 0 * W2 (ix2 k q)) + B2 q
  simp only [hx, ha, hw1, hb1, hw2, hb2]

/-! ## The blocks the body reads -/

/-- The printed index maps, decided over the grid: the windows over x, agg and z move one block of rows per
    point; the others stay on their one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Row r of window 0's block at point t is row 5000 t + r of its array. -/
theorem iblk0_rows_0 (c : Dev nD) (t : Fin cfg0.N) (r : Fin 5000) (k : Fin 128) (R : Fin 50000)
    (hR : R.val = t.val * 5000 + r.val) :
    (iblk0 V c 0 t : S5000x128.Idx → EReal) (ix2 r k) = ((V c (Pipeline.arrRef spec0 0)) : S50000x128.Idx → EReal) (ix2 R k) := by
  obtain ⟨e00, e01, e10, e11, e20, e21, e30, e31, e40, e41, e50, e51, e60, e61, e70, e71, e80, e81⟩ := idx_facts0 t
  unfold iblk0
  rw [View.read_apply]
  refine congrArg (V c (Pipeline.arrRef spec0 0)) ?_
  funext a
  apply Fin.ext
  match a with
  | ⟨0, _⟩ => show win0_0.index t (0 : Fin 2) * 5000 + 1 * r.val = R.val; rw [e00, hR]; omega
  | ⟨1, _⟩ => show win0_0.index t (1 : Fin 2) * 128 + 1 * k.val = k.val; rw [e01]; omega

/-- Row r of window 1's block at point t is row 5000 t + r of its array. -/
theorem iblk0_rows_1 (c : Dev nD) (t : Fin cfg0.N) (r : Fin 5000) (k : Fin 128) (R : Fin 50000)
    (hR : R.val = t.val * 5000 + r.val) :
    (iblk0 V c 1 t : S5000x128.Idx → EReal) (ix2 r k) = ((V c (Pipeline.arrRef spec0 1)) : S50000x128.Idx → EReal) (ix2 R k) := by
  obtain ⟨e00, e01, e10, e11, e20, e21, e30, e31, e40, e41, e50, e51, e60, e61, e70, e71, e80, e81⟩ := idx_facts0 t
  unfold iblk0
  rw [View.read_apply]
  refine congrArg (V c (Pipeline.arrRef spec0 1)) ?_
  funext a
  apply Fin.ext
  match a with
  | ⟨0, _⟩ => show win0_1.index t (0 : Fin 2) * 5000 + 1 * r.val = R.val; rw [e10, hR]; omega
  | ⟨1, _⟩ => show win0_1.index t (1 : Fin 2) * 128 + 1 * k.val = k.val; rw [e11]; omega

/-- Window 2 has one block, the whole array, at every point. -/
theorem iblk0_whole_2 (c : Dev nD) (t : Fin cfg0.N) (p : Fin 128) (k : Fin 128) :
    (iblk0 V c 2 t : S128x128.Idx → EReal) (ix2 p k) = ((V c (Pipeline.arrRef spec0 2)) : S128x128.Idx → EReal) (ix2 p k) := by
  obtain ⟨e00, e01, e10, e11, e20, e21, e30, e31, e40, e41, e50, e51, e60, e61, e70, e71, e80, e81⟩ := idx_facts0 t
  unfold iblk0
  rw [View.read_apply]
  refine congrArg (V c (Pipeline.arrRef spec0 2)) ?_
  funext a
  apply Fin.ext
  match a with
  | ⟨0, _⟩ => show win0_2.index t (0 : Fin 2) * 128 + 1 * p.val = p.val; rw [e20]; omega
  | ⟨1, _⟩ => show win0_2.index t (1 : Fin 2) * 128 + 1 * k.val = k.val; rw [e21]; omega

/-- Window 3 has one block, the whole array, at every point. -/
theorem iblk0_whole_3 (c : Dev nD) (t : Fin cfg0.N) (p : Fin 1) (k : Fin 128) :
    (iblk0 V c 3 t : S1x128.Idx → EReal) (ix2 p k) = ((V c (Pipeline.arrRef spec0 3)) : S1x128.Idx → EReal) (ix2 p k) := by
  obtain ⟨e00, e01, e10, e11, e20, e21, e30, e31, e40, e41, e50, e51, e60, e61, e70, e71, e80, e81⟩ := idx_facts0 t
  unfold iblk0
  rw [View.read_apply]
  refine congrArg (V c (Pipeline.arrRef spec0 3)) ?_
  funext a
  apply Fin.ext
  match a with
  | ⟨0, _⟩ => show win0_3.index t (0 : Fin 2) * 1 + 1 * p.val = p.val; rw [e30]; omega
  | ⟨1, _⟩ => show win0_3.index t (1 : Fin 2) * 128 + 1 * k.val = k.val; rw [e31]; omega

/-- Window 4 has one block, the whole array, at every point. -/
theorem iblk0_whole_4 (c : Dev nD) (t : Fin cfg0.N) (p : Fin 128) (k : Fin 128) :
    (iblk0 V c 4 t : S128x128.Idx → EReal) (ix2 p k) = ((V c (Pipeline.arrRef spec0 4)) : S128x128.Idx → EReal) (ix2 p k) := by
  obtain ⟨e00, e01, e10, e11, e20, e21, e30, e31, e40, e41, e50, e51, e60, e61, e70, e71, e80, e81⟩ := idx_facts0 t
  unfold iblk0
  rw [View.read_apply]
  refine congrArg (V c (Pipeline.arrRef spec0 4)) ?_
  funext a
  apply Fin.ext
  match a with
  | ⟨0, _⟩ => show win0_4.index t (0 : Fin 2) * 128 + 1 * p.val = p.val; rw [e40]; omega
  | ⟨1, _⟩ => show win0_4.index t (1 : Fin 2) * 128 + 1 * k.val = k.val; rw [e41]; omega

/-- Window 5 has one block, the whole array, at every point. -/
theorem iblk0_whole_5 (c : Dev nD) (t : Fin cfg0.N) (p : Fin 1) (k : Fin 128) :
    (iblk0 V c 5 t : S1x128.Idx → EReal) (ix2 p k) = ((V c (Pipeline.arrRef spec0 5)) : S1x128.Idx → EReal) (ix2 p k) := by
  obtain ⟨e00, e01, e10, e11, e20, e21, e30, e31, e40, e41, e50, e51, e60, e61, e70, e71, e80, e81⟩ := idx_facts0 t
  unfold iblk0
  rw [View.read_apply]
  refine congrArg (V c (Pipeline.arrRef spec0 5)) ?_
  funext a
  apply Fin.ext
  match a with
  | ⟨0, _⟩ => show win0_5.index t (0 : Fin 2) * 1 + 1 * p.val = p.val; rw [e50]; omega
  | ⟨1, _⟩ => show win0_5.index t (1 : Fin 2) * 128 + 1 * k.val = k.val; rw [e51]; omega

/-- z on the block of point t. -/
def zB0 (c : Dev nD) (t : Fin cfg0.N) : S5000x128.Idx → EReal :=
  zBlk (iblk0 V c 0 t) (iblk0 V c 1 t) (iblk0 V c 2 t) (iblk0 V c 3 t) (iblk0 V c 4 t) (iblk0 V c 5 t)

/-- Row r of that block is row 5000 t + r of z of the whole arrays. -/
theorem zB0_eq (c : Dev nD) (t : Fin cfg0.N) (r : Fin 5000) (q : Fin 128) (R : Fin 50000)
    (hR : R.val = t.val * 5000 + r.val) : zB0 V c t (ix2 r q) = Z0 V c (ix2 R q) :=
  zBlk_eq_zOf (iblk0 V c 0 t) (iblk0 V c 1 t) (iblk0 V c 2 t) (iblk0 V c 3 t) (iblk0 V c 4 t) (iblk0 V c 5 t)
    (V c (Pipeline.arrRef spec0 0)) (V c (Pipeline.arrRef spec0 1)) (V c (Pipeline.arrRef spec0 2))
    (fun q => V c (Pipeline.arrRef spec0 3) (ix2 (0 : Fin 1) q)) (V c (Pipeline.arrRef spec0 4))
    (fun q => V c (Pipeline.arrRef spec0 5) (ix2 (0 : Fin 1) q)) r R q
    (fun k => iblk0_rows_0 V c t r k R hR) (fun k => iblk0_rows_1 V c t r k R hR)
    (fun p k => iblk0_whole_2 V c t p k) (fun k => iblk0_whole_3 V c t 0 k)
    (fun p k => iblk0_whole_4 V c t p k) (fun k => iblk0_whole_5 V c t 0 k)

/-- The block's column sums of z and of z · z. -/
def sum0 (c : Dev nD) (t : Fin cfg0.N) (q : Fin 128) : EReal := ∑ r : Fin 5000, zB0 V c t (ix2 r q)
def sq0 (c : Dev nD) (t : Fin cfg0.N) (q : Fin 128) : EReal :=
  ∑ r : Fin 5000, zB0 V c t (ix2 r q) * zB0 V c t (ix2 r q)

/-! ## What the three output blocks hold after each point -/

/-- After the first point: z of its block, and the two rows at zero plus its column sums. -/
theorem outs0_A (c : Dev nD) (t : Fin cfg0.N) (h0 : t.val % 10 = 0) :
    outsAt0 V c t.val t.isLt
      = (zB0 V c t, (fun i => (0 : EReal) + sum0 V c t (i 1)), (fun i => (0 : EReal) + sq0 V c t (i 1))) := by
  rw [outsAt0_A V c t h0]
  have e6 : out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t) = zB0 V c t :=
    (o0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)).trans
      (pay4_eq_0 (iblk0 V c 0 t) (iblk0 V c 1 t) (iblk0 V c 2 t) (iblk0 V c 3 t) (iblk0 V c 4 t) (iblk0 V c 5 t))
  have e7 : out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t) = fun i => (0 : EReal) + sum0 V c t (i 1) :=
    (o0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)).trans
      ((congrArg (k0_pay5 (F := Ideal) (iblk0 V c 0 t) (iblk0 V c 1 t) (iblk0 V c 2 t) (iblk0 V c 3 t) (iblk0 V c 4 t) (iblk0 V c 5 t)) pay2_eq_0).trans
        (pay5_eq_0 (iblk0 V c 0 t) (iblk0 V c 1 t) (iblk0 V c 2 t) (iblk0 V c 3 t) (iblk0 V c 4 t) (iblk0 V c 5 t) (fun _ => (0 : EReal))))
  have e8 : out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t) = fun i => (0 : EReal) + sq0 V c t (i 1) :=
    (o0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)).trans
      ((congrArg₂ (k0_pay1 (F := Ideal)) (pay4_eq_0 (iblk0 V c 0 t) (iblk0 V c 1 t) (iblk0 V c 2 t) (iblk0 V c 3 t) (iblk0 V c 4 t) (iblk0 V c 5 t)) pay3_eq_0).trans
        (pay1_eq_0 (zB0 V c t) (fun _ => (0 : EReal))))
  exact congrArg₂ Prod.mk e6 (congrArg₂ Prod.mk e7 e8)

/-- After a later point: z of its block, and the two rows at what the point before left plus its column sums. -/
theorem outs0_B (c : Dev nD) (t : Fin cfg0.N) (h0 : ¬t.val % 10 = 0) :
    outsAt0 V c t.val t.isLt
      = (zB0 V c t,
          (fun i => (outsAt0 V c (t.val - 1) (Nat.lt_of_le_of_lt (Nat.sub_le _ _) t.isLt)).2.1 i + sum0 V c t (i 1)),
          (fun i => (outsAt0 V c (t.val - 1) (Nat.lt_of_le_of_lt (Nat.sub_le _ _) t.isLt)).2.2 i + sq0 V c t (i 1))) := by
  rw [outsAt0_B V c t h0]
  have e6 : out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2 = zB0 V c t :=
    (o0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2).trans
      (pay4_eq_0 (iblk0 V c 0 t) (iblk0 V c 1 t) (iblk0 V c 2 t) (iblk0 V c 3 t) (iblk0 V c 4 t) (iblk0 V c 5 t))
  have e7 : out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2
      = fun i => (outsAt0 V c (t.val - 1) (Nat.lt_of_le_of_lt (Nat.sub_le _ _) t.isLt)).2.1 i + sum0 V c t (i 1) :=
    (o0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2).trans
      (pay5_eq_0 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1)
  have e8 : out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2
      = fun i => (outsAt0 V c (t.val - 1) (Nat.lt_of_le_of_lt (Nat.sub_le _ _) t.isLt)).2.2 i + sq0 V c t (i 1) :=
    (o0_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2).trans
      ((congrArg (fun z => k0_pay1 (F := Ideal) z (outsAt0 V c (t.val - 1) (Nat.lt_of_le_of_lt (Nat.sub_le _ _) t.isLt)).2.2) (pay4_eq_0 (iblk0 V c 0 t) (iblk0 V c 1 t) (iblk0 V c 2 t) (iblk0 V c 3 t) (iblk0 V c 4 t) (iblk0 V c 5 t))).trans
        (pay1_eq_0 (zB0 V c t) (outsAt0 V c (t.val - 1) (Nat.lt_of_le_of_lt (Nat.sub_le _ _) t.isLt)).2.2))
  exact congrArg₂ Prod.mk e6 (congrArg₂ Prod.mk e7 e8)

/-- The z block after any point is z of that point's block. -/
theorem z_inv0 (c : Dev nD) (t : Fin cfg0.N) : (outsAt0 V c t.val t.isLt).1 = zB0 V c t := by
  by_cases h0 : t.val % 10 = 0
  · rw [outs0_A V c t h0]
  · rw [outs0_B V c t h0]

/-- Point t's contribution to each running row, as a function of the point's number. -/
def gS0 (c : Dev nD) (q : Fin 128) (t : ℕ) : EReal := if h : t < cfg0.N then sum0 V c ⟨t, h⟩ q else 0
def gQ0 (c : Dev nD) (q : Fin 128) (t : ℕ) : EReal := if h : t < cfg0.N then sq0 V c ⟨t, h⟩ q else 0

theorem gS0_at (c : Dev nD) (q : Fin 128) (t : ℕ) (h : t < cfg0.N) : gS0 V c q t = sum0 V c ⟨t, h⟩ q := by
  unfold gS0; exact dif_pos h
theorem gQ0_at (c : Dev nD) (q : Fin 128) (t : ℕ) (h : t < cfg0.N) : gQ0 V c q t = sq0 V c ⟨t, h⟩ q := by
  unfold gQ0; exact dif_pos h

/-- After point n the two rows hold the running totals of the first n + 1 blocks' column sums. -/
theorem acc_inv0 (c : Dev nD) : ∀ (n : ℕ) (hn : n < cfg0.N),
    (outsAt0 V c n hn).2.1 = (fun i => running (gS0 V c (i 1)) (n + 1))
    ∧ (outsAt0 V c n hn).2.2 = (fun i => running (gQ0 V c (i 1)) (n + 1))
  | 0, hn => by
    have h : outsAt0 V c 0 hn = _ := outs0_A V c ⟨0, hn⟩ rfl
    rw [h]
    refine ⟨funext fun i => ?_, funext fun i => ?_⟩
    · show (0 : EReal) + sum0 V c ⟨0, hn⟩ (i 1) = running (gS0 V c (i 1)) 0 + gS0 V c (i 1) 0
      rw [running_zero, gS0_at V c (i 1) 0 hn]
    · show (0 : EReal) + sq0 V c ⟨0, hn⟩ (i 1) = running (gQ0 V c (i 1)) 0 + gQ0 V c (i 1) 0
      rw [running_zero, gQ0_at V c (i 1) 0 hn]
  | n + 1, hn => by
    have hN : cfg0.N = 10 := N_0
    have hB : ¬(⟨n + 1, hn⟩ : Fin cfg0.N).val % 10 = 0 := by dsimp only; omega
    have h : outsAt0 V c (n + 1) hn = _ := outs0_B V c ⟨n + 1, hn⟩ hB
    obtain ⟨ih1, ih2⟩ := acc_inv0 c n (Nat.lt_of_succ_lt hn)
    rw [h]
    refine ⟨funext fun i => ?_, funext fun i => ?_⟩
    · show (outsAt0 V c n _).2.1 i + sum0 V c ⟨n + 1, hn⟩ (i 1)
        = running (gS0 V c (i 1)) (n + 1) + gS0 V c (i 1) (n + 1)
      rw [ih1, gS0_at V c (i 1) (n + 1) hn]
    · show (outsAt0 V c n _).2.2 i + sq0 V c ⟨n + 1, hn⟩ (i 1)
        = running (gQ0 V c (i 1)) (n + 1) + gQ0 V c (i 1) (n + 1)
      rw [ih2, gQ0_at V c (i 1) (n + 1) hn]

/-- The ten blocks' column sums of z add up to the column sums over all 50000 rows. -/
theorem total_sum0 (c : Dev nD) (q : Fin 128) : running (gS0 V c q) 10 = Cert.Gin.colSum (Z0 V c) q := by
  rw [running_eq_sum_fin]
  unfold Cert.Gin.colSum
  rw [sum_blocks_of_eq 10 5000 (by norm_num) (fun R : Fin 50000 => Z0 V c (ix2 R q))]
  refine Finset.sum_congr rfl fun t _ => ?_
  have ht : t.val < cfg0.N := lt_of_lt_of_eq t.isLt (show (10 : ℕ) = cfg0.N from N_0.symm)
  rw [gS0_at V c q t.val ht]
  unfold sum0
  exact Finset.sum_congr rfl fun r _ => zB0_eq V c ⟨t.val, ht⟩ r q ⟨t.val * 5000 + r.val, _⟩ rfl

/-- The same for the squares. -/
theorem total_sq0 (c : Dev nD) (q : Fin 128) :
    running (gQ0 V c q) 10 = Cert.Gin.colSum (fun j => Z0 V c j * Z0 V c j) q := by
  rw [running_eq_sum_fin]
  unfold Cert.Gin.colSum
  rw [sum_blocks_of_eq 10 5000 (by norm_num) (fun R : Fin 50000 => Z0 V c (ix2 R q) * Z0 V c (ix2 R q))]
  refine Finset.sum_congr rfl fun t _ => ?_
  have ht : t.val < cfg0.N := lt_of_lt_of_eq t.isLt (show (10 : ℕ) = cfg0.N from N_0.symm)
  rw [gQ0_at V c q t.val ht]
  unfold sq0
  exact Finset.sum_congr rfl fun r _ => by rw [zB0_eq V c ⟨t.val, ht⟩ r q ⟨t.val * 5000 + r.val, _⟩ rfl]

end Cert.Gin.RegionMlp

end
-- ==== Proof.RegionMlp0.lean ====
import proofs.«179664_j13365938225808_1_alg».proof.Proof.RegionMlpAcc0

/-!
  Region 0's three output arrays after the region: the write-backs of the z blocks tile the z array, and the one
  write-back of each running row, after the last point, carries the totals over all 50000 rows.
-/

noncomputable section

open scoped BigOperators

namespace Cert.Gin.RegionMlp

open Idealize.ShloMosaic Idealize.ShloMosaic.TcCoe Idealize.ShloMosaic.ValueIdx Idealize.SL.Sem
open Idealize.ShloMosaic.Pipeline (Dat)
open Cert.KernelIdeal Cert.KernelIdeal.Gen Cert.LibBlockSum

variable (V : (c : Dev nD) → (b : Ref sig .tc) → Buf (Elt Ideal) ((c : Thread nD τ).loc b))

/-! ## From the blocks to the arrays -/

/-- What point t writes back of z is rows 5000 t … 5000 t + 4999 of z of the whole arrays. -/
theorem flushed0_6 (c : Dev nD) (t : Fin cfg0.N) :
    (dat0 (F := Ideal) V c).flushed 6 t = ((cfg0.win 6).blk t).view.read (Elt Ideal) (Z0 V c) := by
  obtain ⟨e00, e01, e10, e11, e20, e21, e30, e31, e40, e41, e50, e51, e60, e61, e70, e71, e80, e81⟩ := idx_facts0 t
  have hN : cfg0.N = 10 := N_0
  have ht : t.val < 10 := lt_of_lt_of_eq t.isLt hN
  show (cfg0.win 6).cut (grid0.coords t) ((dat0 V c).after 6 t) = _
  rw [after0_6, z_inv0]
  funext j
  obtain ⟨r, q, rfl⟩ : ∃ (r : Fin 5000) (q : Fin 128), j = (ix2 r q : S5000x128.Idx) := ⟨j 0, j 1, eq_ix2 j⟩
  show zB0 V c t (ix2 r q) = Z0 V c (((cfg0.win 6).blk t).view.emb (ix2 r q : S5000x128.Idx))
  refine (zB0_eq V c t r q ⟨t.val * 5000 + r.val, by have := r.isLt; omega⟩ rfl).trans ?_
  refine congrArg (Z0 V c) ?_
  funext a
  apply Fin.ext
  match a with
  | ⟨0, _⟩ => show t.val * 5000 + r.val = win0_6.index t (0 : Fin 2) * 5000 + 1 * r.val; rw [e60]; omega
  | ⟨1, _⟩ => show q.val = win0_6.index t (1 : Fin 2) * 128 + 1 * q.val; rw [e61]; omega

/-- An index of the z array is in point t's block iff each coordinate is in the block's range. -/
theorem mem_blk0_6 (t : Fin cfg0.N) (i : S50000x128.Idx) :
    i ∈ ((cfg0.win 6).blk t).view.set
      ↔ ∀ a : Fin 2, win0_6.index t a * S5000x128.size a ≤ (i a).val ∧ (i a).val < win0_6.index t a * S5000x128.size a + S5000x128.size a := by
  show i ∈ ((View.whole main_v24_0).slice (win0_6.rect t)).set ↔ _
  rw [View.set_slice_whole, Rect.mem_set_unit]
  exact Iff.rfl

/-- Row R of the z array is in the block of point R / 5000. -/
theorem cover0_6 (i : S50000x128.Idx) :
    ∃ t : Fin cfg0.N, (cfg0.win 6).flush t = true ∧ i ∈ ((cfg0.win 6).blk t).view.set := by
  have hN : cfg0.N = 10 := N_0
  have h0 : (i 0).val < 50000 := (i 0).isLt
  have h1 : (i 1).val < 128 := (i 1).isLt
  have ht : (i 0).val / 5000 < cfg0.N := by rw [hN]; omega
  obtain ⟨e00, e01, e10, e11, e20, e21, e30, e31, e40, e41, e50, e51, e60, e61, e70, e71, e80, e81⟩ := idx_facts0 ⟨(i 0).val / 5000, ht⟩
  refine ⟨⟨(i 0).val / 5000, ht⟩, flush0_6 _, ?_⟩
  rw [mem_blk0_6]
  intro a
  match a with
  | ⟨0, _⟩ =>
    show win0_6.index ⟨(i 0).val / 5000, ht⟩ (0 : Fin 2) * 5000 ≤ (i 0).val
      ∧ (i 0).val < win0_6.index ⟨(i 0).val / 5000, ht⟩ (0 : Fin 2) * 5000 + 5000
    rw [e60]; dsimp only; omega
  | ⟨1, _⟩ =>
    show win0_6.index ⟨(i 0).val / 5000, ht⟩ (1 : Fin 2) * 128 ≤ (i 1).val
      ∧ (i 1).val < win0_6.index ⟨(i 0).val / 5000, ht⟩ (1 : Fin 2) * 128 + 128
    rw [e61]; omega

/-- The sum row's one block is the whole row: reading a row through it changes nothing. -/
theorem read_blk0_7 (t : Fin cfg0.N) (G : S1x128.Idx → EReal) :
    ((cfg0.win 7).blk t).view.read (Elt Ideal) G = G := by
  obtain ⟨e00, e01, e10, e11, e20, e21, e30, e31, e40, e41, e50, e51, e60, e61, e70, e71, e80, e81⟩ := idx_facts0 t
  funext j
  rw [View.read_apply]
  refine congrArg G ?_
  funext a
  apply Fin.ext
  match a with
  | ⟨0, _⟩ => show win0_7.index t (0 : Fin 2) * 1 + 1 * (j 0).val = (j 0).val; rw [e70]; omega
  | ⟨1, _⟩ => show win0_7.index t (1 : Fin 2) * 128 + 1 * (j 1).val = (j 1).val; rw [e71]; omega

/-- The one write-back of the sum row, after the last point, writes the column sums over all rows. -/
theorem flushed0_7 (c : Dev nD) (t : Fin cfg0.N) (hf : (cfg0.win 7).flush t = true) :
    (dat0 (F := Ideal) V c).flushed 7 t
      = ((cfg0.win 7).blk t).view.read (Elt Ideal) (fun i : S1x128.Idx => Cert.Gin.colSum (Z0 V c) (i 1)) := by
  have hN : cfg0.N = 10 := N_0
  have h9 : t.val + 1 = 10 := by have := (flush0_7 t).mp hf; have := t.isLt; omega
  rw [read_blk0_7]
  show (cfg0.win 7).cut (grid0.coords t) ((dat0 V c).after 7 t) = _
  rw [after0_7, (acc_inv0 V c t.val t.isLt).1, h9]
  exact funext fun i => total_sum0 V c (i 1)

/-- An index of the sum row is in point t's block iff each coordinate is in the block's range. -/
theorem mem_blk0_7 (t : Fin cfg0.N) (i : S1x128.Idx) :
    i ∈ ((cfg0.win 7).blk t).view.set
      ↔ ∀ a : Fin 2, win0_7.index t a * S1x128.size a ≤ (i a).val ∧ (i a).val < win0_7.index t a * S1x128.size a + S1x128.size a := by
  show i ∈ ((View.whole main_v24_1).slice (win0_7.rect t)).set ↔ _
  rw [View.set_slice_whole, Rect.mem_set_unit]
  exact Iff.rfl

/-- The last point's block is the whole row. -/
theorem cover0_7 (i : S1x128.Idx) :
    ∃ t : Fin cfg0.N, (cfg0.win 7).flush t = true ∧ i ∈ ((cfg0.win 7).blk t).view.set := by
  obtain ⟨e00, e01, e10, e11, e20, e21, e30, e31, e40, e41, e50, e51, e60, e61, e70, e71, e80, e81⟩ := idx_facts0 t0_9
  refine ⟨t0_9, (flush0_7 t0_9).mpr rfl, ?_⟩
  rw [mem_blk0_7]
  have h0 : (i 0).val < 1 := (i 0).isLt
  have h1 : (i 1).val < 128 := (i 1).isLt
  intro a
  match a with
  | ⟨0, _⟩ => show win0_7.index t0_9 (0 : Fin 2) * 1 ≤ (i 0).val ∧ (i 0).val < win0_7.index t0_9 (0 : Fin 2) * 1 + 1; rw [e70]; omega
  | ⟨1, _⟩ => show win0_7.index t0_9 (1 : Fin 2) * 128 ≤ (i 1).val ∧ (i 1).val < win0_7.index t0_9 (1 : Fin 2) * 128 + 128; rw [e71]; omega

/-- The sum-of-squares row's one block is the whole row: reading a row through it changes nothing. -/
theorem read_blk0_8 (t : Fin cfg0.N) (G : S1x128.Idx → EReal) :
    ((cfg0.win 8).blk t).view.read (Elt Ideal) G = G := by
  obtain ⟨e00, e01, e10, e11, e20, e21, e30, e31, e40, e41, e50, e51, e60, e61, e70, e71, e80, e81⟩ := idx_facts0 t
  funext j
  rw [View.read_apply]
  refine congrArg G ?_
  funext a
  apply Fin.ext
  match a with
  | ⟨0, _⟩ => show win0_8.index t (0 : Fin 2) * 1 + 1 * (j 0).val = (j 0).val; rw [e80]; omega
  | ⟨1, _⟩ => show win0_8.index t (1 : Fin 2) * 128 + 1 * (j 1).val = (j 1).val; rw [e81]; omega

/-- The one write-back of the sum-of-squares row, after the last point, writes the column sums over all rows. -/
theorem flushed0_8 (c : Dev nD) (t : Fin cfg0.N) (hf : (cfg0.win 8).flush t = true) :
    (dat0 (F := Ideal) V c).flushed 8 t
      = ((cfg0.win 8).blk t).view.read (Elt Ideal) (fun i : S1x128.Idx => Cert.Gin.colSum (fun j => Z0 V c j * Z0 V c j) (i 1)) := by
  have hN : cfg0.N = 10 := N_0
  have h9 : t.val + 1 = 10 := by have := (flush0_8 t).mp hf; have := t.isLt; omega
  rw [read_blk0_8]
  show (cfg0.win 8).cut (grid0.coords t) ((dat0 V c).after 8 t) = _
  rw [after0_8, (acc_inv0 V c t.val t.isLt).2, h9]
  exact funext fun i => total_sq0 V c (i 1)

/-- An index of the sum-of-squares row is in point t's block iff each coordinate is in the block's range. -/
theorem mem_blk0_8 (t : Fin cfg0.N) (i : S1x128.Idx) :
    i ∈ ((cfg0.win 8).blk t).view.set
      ↔ ∀ a : Fin 2, win0_8.index t a * S1x128.size a ≤ (i a).val ∧ (i a).val < win0_8.index t a * S1x128.size a + S1x128.size a := by
  show i ∈ ((View.whole main_v24_2).slice (win0_8.rect t)).set ↔ _
  rw [View.set_slice_whole, Rect.mem_set_unit]
  exact Iff.rfl

/-- The last point's block is the whole row. -/
theorem cover0_8 (i : S1x128.Idx) :
    ∃ t : Fin cfg0.N, (cfg0.win 8).flush t = true ∧ i ∈ ((cfg0.win 8).blk t).view.set := by
  obtain ⟨e00, e01, e10, e11, e20, e21, e30, e31, e40, e41, e50, e51, e60, e61, e70, e71, e80, e81⟩ := idx_facts0 t0_9
  refine ⟨t0_9, (flush0_8 t0_9).mpr rfl, ?_⟩
  rw [mem_blk0_8]
  have h0 : (i 0).val < 1 := (i 0).isLt
  have h1 : (i 1).val < 128 := (i 1).isLt
  intro a
  match a with
  | ⟨0, _⟩ => show win0_8.index t0_9 (0 : Fin 2) * 1 ≤ (i 0).val ∧ (i 0).val < win0_8.index t0_9 (0 : Fin 2) * 1 + 1; rw [e80]; omega
  | ⟨1, _⟩ => show win0_8.index t0_9 (1 : Fin 2) * 128 ≤ (i 1).val ∧ (i 1).val < win0_8.index t0_9 (1 : Fin 2) * 128 + 128; rw [e81]; omega

/-! ## The three arrays after the region -/

/-- The z array ends at z of the arrays the region found. -/
theorem region0_z (c : Dev nD) : (dat0 (F := Ideal) V c).arrAt 6 cfg0.N = Z0 V c :=
  (dat0 (F := Ideal) V c).arrAt_eq_of_cover 6 (Z0 V c) (fun t _ => flushed0_6 V c t) cover0_6

/-- The sum row ends at z's column sums over the 50000 rows. -/
theorem region0_sum (c : Dev nD) :
    (dat0 (F := Ideal) V c).arrAt 7 cfg0.N = fun i => Cert.Gin.colSum (Z0 V c) (i 1) :=
  (dat0 (F := Ideal) V c).arrAt_eq_of_cover 7 (fun i : S1x128.Idx => Cert.Gin.colSum (Z0 V c) (i 1))
    (flushed0_7 V c) cover0_7

/-- The sum-of-squares row ends at the column sums of z · z over the 50000 rows. -/
theorem region0_sumsq (c : Dev nD) :
    (dat0 (F := Ideal) V c).arrAt 8 cfg0.N = fun i => Cert.Gin.colSum (fun j => Z0 V c j * Z0 V c j) (i 1) :=
  (dat0 (F := Ideal) V c).arrAt_eq_of_cover 8 (fun i : S1x128.Idx => Cert.Gin.colSum (fun j => Z0 V c j * Z0 V c j) (i 1))
    (flushed0_8 V c) cover0_8

end Cert.Gin.RegionMlp

end
-- ==== Proof.RegionMlpOut2.lean ====
import proofs.«179664_j13365938225808_1_alg».proof.Proof.Gen.KernelIdeal.Frame
import Idealize.ShloMosaic.Lib.Pipeline.Value

/-!
  What one run of the body leaves in its three output blocks, as the body's own arithmetic applied to the
  blocks it loaded (region 2).

  The body first, at grid point 0 only, stores a zero row into each of the two accumulator blocks.  It then
  loads the six input blocks, stores z = max ((x + agg) · W1 + b1) 0 · W2 + b2 into the first output block,
  and replaces each accumulator row by itself plus a column sum over the block's rows: of z for the first,
  of z · z for the second.  So after the body the first output block holds z of the loaded blocks, and each
  accumulator holds its previous contents (the zero row at point 0, what the point before left otherwise)
  plus that point's column sum.
-/

noncomputable section

namespace Cert.Gin.RegionMlp

open Idealize.ShloMosaic Idealize.ShloMosaic.TcCoe Idealize.SL.Sem Idealize.ShloMosaic.Tactic
open Cert.KernelIdeal Cert.KernelIdeal.Gen

variable {F : FTy → Type} [FloatOps F]

/-- The offsets of a load or store of a whole block are all zero. -/
theorem hz2_2 : (![0, 0] : Fin 2 → Nat) = fun _ => 0 := funext fun a => by fin_cases a <;> rfl

/-- At the first point the z block is the body's z of the loaded blocks. -/
theorem o2_A_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i) (x0 : Vec F S5000x128 .f32) (x1 : Vec F S5000x128 .f32) (x2 : Vec F S128x128 .f32) (x3 : Vec F S1x128 .f32) (x4 : Vec F S128x128 .f32) (x5 : Vec F S1x128 .f32) :
    out2_A_6 c i arg1 harg1 arg2 harg2 arg3 harg3 arg4 harg4 arg5 harg5 arg6 harg6 arg7 harg7 arg8 harg8 arg9 harg9 hc0 x0 x1 x2 x3 x4 x5 = k2_pay4 x0 x1 x2 x3 x4 x5 := by
  have hz2 := hz2_2
  unfold out2_A_6
  rw [View.read_writes_eq_canon _ _ _ (cover2_A_6 c i arg1 harg1 arg2 harg2 arg3 harg3 arg4 harg4 arg5 harg5 arg6 harg6 arg7 harg7 arg8 harg8 arg9 harg9 hc0 x0 x1 x2 x3 x4 x5)]
  unfold kernelRun2_A
  dsimp only
  sl_unfold_words
  rw [View.canon_unit_zero hz2]
  simp only [View.readAt_eq_ld, harg1.read_unread, harg2.read_unread, harg3.read_unread, harg4.read_unread, harg5.read_unread, harg6.read_unread, View.ld_unit_zero (S := S5000x128) hz2, View.ld_unit_zero (S := S128x128) hz2, View.ld_unit_zero (S := S1x128) hz2]

/-- At the first point the sum row is the zero row plus the block's column sums of z. -/
theorem o2_A_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i) (x0 : Vec F S5000x128 .f32) (x1 : Vec F S5000x128 .f32) (x2 : Vec F S128x128 .f32) (x3 : Vec F S1x128 .f32) (x4 : Vec F S128x128 .f32) (x5 : Vec F S1x128 .f32) :
    out2_A_7 c i arg1 harg1 arg2 harg2 arg3 harg3 arg4 harg4 arg5 harg5 arg6 harg6 arg7 harg7 arg8 harg8 arg9 harg9 hc0 x0 x1 x2 x3 x4 x5 = k2_pay5 x0 x1 x2 x3 x4 x5 (k2_pay2 (F := F)) := by
  have hz2 := hz2_2
  unfold out2_A_7
  rw [View.read_writes_eq_canon _ _ _ (cover2_A_7 c i arg1 harg1 arg2 harg2 arg3 harg3 arg4 harg4 arg5 harg5 arg6 harg6 arg7 harg7 arg8 harg8 arg9 harg9 hc0 x0 x1 x2 x3 x4 x5)]
  unfold kernelRun2_A
  dsimp only
  sl_unfold_words
  rw [View.canon_cons_unit_zero (S := S1x128) hz2]
  simp only [View.readAt_eq_ld, harg1.read_unread, harg2.read_unread, harg3.read_unread, harg4.read_unread, harg5.read_unread, harg6.read_unread, View.ld_unit_zero (S := S5000x128) hz2, View.ld_unit_zero (S := S128x128) hz2, View.ld_unit_zero (S := S1x128) hz2]
  rw [View.readCov_unit_zero (S := S1x128) _ hz2]

/-- At the first point the sum-of-squares row is the zero row plus the block's column sums of z · z. -/
theorem o2_A_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i) (x0 : Vec F S5000x128 .f32) (x1 : Vec F S5000x128 .f32) (x2 : Vec F S128x128 .f32) (x3 : Vec F S1x128 .f32) (x4 : Vec F S128x128 .f32) (x5 : Vec F S1x128 .f32) :
    out2_A_8 c i arg1 harg1 arg2 harg2 arg3 harg3 arg4 harg4 arg5 harg5 arg6 harg6 arg7 harg7 arg8 harg8 arg9 harg9 hc0 x0 x1 x2 x3 x4 x5 = k2_pay1 (k2_pay4 x0 x1 x2 x3 x4 x5) (k2_pay3 (F := F)) := by
  have hz2 := hz2_2
  unfold out2_A_8
  rw [View.read_writes_eq_canon _ _ _ (cover2_A_8 c i arg1 harg1 arg2 harg2 arg3 harg3 arg4 harg4 arg5 harg5 arg6 harg6 arg7 harg7 arg8 harg8 arg9 harg9 hc0 x0 x1 x2 x3 x4 x5)]
  unfold kernelRun2_A
  dsimp only
  sl_unfold_words
  rw [View.canon_cons_unit_zero (S := S1x128) hz2]
  simp only [View.readAt_eq_ld, harg1.read_unread, harg2.read_unread, harg3.read_unread, harg4.read_unread, harg5.read_unread, harg6.read_unread, View.ld_unit_zero (S := S5000x128) hz2, View.ld_unit_zero (S := S128x128) hz2, View.ld_unit_zero (S := S1x128) hz2]
  rw [View.readCov_unit_zero (S := S1x128) _ hz2]

/-- At a later point the z block is the body's z of the loaded blocks. -/
theorem o2_B_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    out2_B_6 c i arg1 harg1 arg2 harg2 arg3 harg3 arg4 harg4 arg5 harg5 arg6 harg6 arg7 harg7 arg8 harg8 arg9 harg9 hc0 x0 x1 x2 x3 x4 x5 xo7 xo8 = k2_pay4 x0 x1 x2 x3 x4 x5 := by
  have hz2 := hz2_2
  unfold out2_B_6
  rw [View.read_writes_eq_canon _ _ _ (cover2_B_6 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  sl_unfold_words
  rw [View.canon_unit_zero hz2]
  simp only [View.readAt_eq_ld, harg1.read_unread, harg2.read_unread, harg3.read_unread, harg4.read_unread, harg5.read_unread, harg6.read_unread, harg8.read_unread, harg9.read_unread, View.ld_unit_zero (S := S5000x128) hz2, View.ld_unit_zero (S := S128x128) hz2, View.ld_unit_zero (S := S1x128) hz2]

/-- At a later point the sum row is its running contents plus the block's column sums of z. -/
theorem o2_B_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    out2_B_7 c i arg1 harg1 arg2 harg2 arg3 harg3 arg4 harg4 arg5 harg5 arg6 harg6 arg7 harg7 arg8 harg8 arg9 harg9 hc0 x0 x1 x2 x3 x4 x5 xo7 xo8 = k2_pay5 x0 x1 x2 x3 x4 x5 xo7 := by
  have hz2 := hz2_2
  unfold out2_B_7
  rw [View.read_writes_eq_canon _ _ _ (cover2_B_7 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  sl_unfold_words
  rw [View.canon_unit_zero hz2]
  simp only [View.readAt_eq_ld, harg1.read_unread, harg2.read_unread, harg3.read_unread, harg4.read_unread, harg5.read_unread, harg6.read_unread, harg8.read_unread, harg9.read_unread, View.ld_unit_zero (S := S5000x128) hz2, View.ld_unit_zero (S := S128x128) hz2, View.ld_unit_zero (S := S1x128) hz2]

/-- At a later point the sum-of-squares row is its running contents plus the block's column sums of z · z. -/
theorem o2_B_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    out2_B_8 c i arg1 harg1 arg2 harg2 arg3 harg3 arg4 harg4 arg5 harg5 arg6 harg6 arg7 harg7 arg8 harg8 arg9 harg9 hc0 x0 x1 x2 x3 x4 x5 xo7 xo8 = k2_pay1 (k2_pay4 x0 x1 x2 x3 x4 x5) xo8 := by
  have hz2 := hz2_2
  unfold out2_B_8
  rw [View.read_writes_eq_canon _ _ _ (cover2_B_8 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  sl_unfold_words
  rw [View.canon_unit_zero hz2]
  simp only [View.readAt_eq_ld, harg1.read_unread, harg2.read_unread, harg3.read_unread, harg4.read_unread, harg5.read_unread, harg6.read_unread, harg8.read_unread, harg9.read_unread, View.ld_unit_zero (S := S5000x128) hz2, View.ld_unit_zero (S := S128x128) hz2, View.ld_unit_zero (S := S1x128) hz2]

end Cert.Gin.RegionMlp

end
-- ==== Proof.RegionMlpAcc2.lean ====
import proofs.«179664_j13365938225808_1_alg».proof.Proof.Gen.KernelIdeal.Frame
import proofs.«179664_j13365938225808_1_alg».proof.Proof.Spec
import proofs.«179664_j13365938225808_1_alg».proof.Proof.RegionMlpOut2
import proofs.«179664_j13365938225808_1_alg».proof.Proof.RegionMlpAcc0
import proofs.«179664_j13365938225808_1_alg».proof.Proof.RegionMlpPay
import proofs.«179664_j13365938225808_1_alg».proof.Proof.LibBlockSum
import Idealize.ShloMosaic.Lib.Pipeline.Value

/-!
  What region 2 leaves in its three output arrays, as functions of the arrays it finds.

  The grid walks the 50000 rows in 10 blocks of 5000.  At point t the body reads rows 5000 t … 5000 t + 4999 of x
  and agg and the whole of W1, b1, W2, b2, writes z = max ((x + agg) · W1 + b1) 0 · W2 + b2 for those rows into
  the same rows of the z array (written back at every point), and adds the block's column sums of z and of z · z
  to two rows that start from zero at point 0 and are written back once, after the last point.  A sum over the
  50000 rows taken block by block is the same sum (addition of extended reals is commutative and associative),
  so the two rows end at the column sums of z and of z · z over all rows.
-/

noncomputable section

open scoped BigOperators

namespace Cert.Gin.RegionMlp

open Idealize.ShloMosaic Idealize.ShloMosaic.TcCoe Idealize.ShloMosaic.ValueIdx Idealize.SL.Sem
open Idealize.ShloMosaic.Pipeline (Dat)
open Cert.KernelIdeal Cert.KernelIdeal.Gen Cert.LibBlockSum

variable (V : (c : Dev nD) → (b : Ref sig .tc) → Buf (Elt Ideal) ((c : Thread nD τ).loc b))

/-- What region 2 computes before normalisation, from the six input windows' arrays. -/
abbrev Z2 (c : Dev nD) : Cert.Gin.Mat :=
  Cert.Gin.zOf (V c (Pipeline.arrRef spec2 0)) (V c (Pipeline.arrRef spec2 1)) (V c (Pipeline.arrRef spec2 2))
    (fun q => V c (Pipeline.arrRef spec2 3) (ix2 (0 : Fin 1) q)) (V c (Pipeline.arrRef spec2 4))
    (fun q => V c (Pipeline.arrRef spec2 5) (ix2 (0 : Fin 1) q))

/-! ## The blocks the body reads -/

/-- The printed index maps, decided over the grid: the windows over x, agg and z move one block of rows per
    point; the others stay on their one block. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-- Row r of window 0's block at point t is row 5000 t + r of its array. -/
theorem iblk2_rows_0 (c : Dev nD) (t : Fin cfg2.N) (r : Fin 5000) (k : Fin 128) (R : Fin 50000)
    (hR : R.val = t.val * 5000 + r.val) :
    (iblk2 V c 0 t : S5000x128.Idx → EReal) (ix2 r k) = ((V c (Pipeline.arrRef spec2 0)) : S50000x128.Idx → EReal) (ix2 R k) := by
  obtain ⟨e00, e01, e10, e11, e20, e21, e30, e31, e40, e41, e50, e51, e60, e61, e70, e71, e80, e81⟩ := idx_facts2 t
  unfold iblk2
  rw [View.read_apply]
  refine congrArg (V c (Pipeline.arrRef spec2 0)) ?_
  funext a
  apply Fin.ext
  match a with
  | ⟨0, _⟩ => show win2_0.index t (0 : Fin 2) * 5000 + 1 * r.val = R.val; rw [e00, hR]; omega
  | ⟨1, _⟩ => show win2_0.index t (1 : Fin 2) * 128 + 1 * k.val = k.val; rw [e01]; omega

/-- Row r of window 1's block at point t is row 5000 t + r of its array. -/
theorem iblk2_rows_1 (c : Dev nD) (t : Fin cfg2.N) (r : Fin 5000) (k : Fin 128) (R : Fin 50000)
    (hR : R.val = t.val * 5000 + r.val) :
    (iblk2 V c 1 t : S5000x128.Idx → EReal) (ix2 r k) = ((V c (Pipeline.arrRef spec2 1)) : S50000x128.Idx → EReal) (ix2 R k) := by
  obtain ⟨e00, e01, e10, e11, e20, e21, e30, e31, e40, e41, e50, e51, e60, e61, e70, e71, e80, e81⟩ := idx_facts2 t
  unfold iblk2
  rw [View.read_apply]
  refine congrArg (V c (Pipeline.arrRef spec2 1)) ?_
  funext a
  apply Fin.ext
  match a with
  | ⟨0, _⟩ => show win2_1.index t (0 : Fin 2) * 5000 + 1 * r.val = R.val; rw [e10, hR]; omega
  | ⟨1, _⟩ => show win2_1.index t (1 : Fin 2) * 128 + 1 * k.val = k.val; rw [e11]; omega

/-- Window 2 has one block, the whole array, at every point. -/
theorem iblk2_whole_2 (c : Dev nD) (t : Fin cfg2.N) (p : Fin 128) (k : Fin 128) :
    (iblk2 V c 2 t : S128x128.Idx → EReal) (ix2 p k) = ((V c (Pipeline.arrRef spec2 2)) : S128x128.Idx → EReal) (ix2 p k) := by
  obtain ⟨e00, e01, e10, e11, e20, e21, e30, e31, e40, e41, e50, e51, e60, e61, e70, e71, e80, e81⟩ := idx_facts2 t
  unfold iblk2
  rw [View.read_apply]
  refine congrArg (V c (Pipeline.arrRef spec2 2)) ?_
  funext a
  apply Fin.ext
  match a with
  | ⟨0, _⟩ => show win2_2.index t (0 : Fin 2) * 128 + 1 * p.val = p.val; rw [e20]; omega
  | ⟨1, _⟩ => show win2_2.index t (1 : Fin 2) * 128 + 1 * k.val = k.val; rw [e21]; omega

/-- Window 3 has one block, the whole array, at every point. -/
theorem iblk2_whole_3 (c : Dev nD) (t : Fin cfg2.N) (p : Fin 1) (k : Fin 128) :
    (iblk2 V c 3 t : S1x128.Idx → EReal) (ix2 p k) = ((V c (Pipeline.arrRef spec2 3)) : S1x128.Idx → EReal) (ix2 p k) := by
  obtain ⟨e00, e01, e10, e11, e20, e21, e30, e31, e40, e41, e50, e51, e60, e61, e70, e71, e80, e81⟩ := idx_facts2 t
  unfold iblk2
  rw [View.read_apply]
  refine congrArg (V c (Pipeline.arrRef spec2 3)) ?_
  funext a
  apply Fin.ext
  match a with
  | ⟨0, _⟩ => show win2_3.index t (0 : Fin 2) * 1 + 1 * p.val = p.val; rw [e30]; omega
  | ⟨1, _⟩ => show win2_3.index t (1 : Fin 2) * 128 + 1 * k.val = k.val; rw [e31]; omega

/-- Window 4 has one block, the whole array, at every point. -/
theorem iblk2_whole_4 (c : Dev nD) (t : Fin cfg2.N) (p : Fin 128) (k : Fin 128) :
    (iblk2 V c 4 t : S128x128.Idx → EReal) (ix2 p k) = ((V c (Pipeline.arrRef spec2 4)) : S128x128.Idx → EReal) (ix2 p k) := by
  obtain ⟨e00, e01, e10, e11, e20, e21, e30, e31, e40, e41, e50, e51, e60, e61, e70, e71, e80, e81⟩ := idx_facts2 t
  unfold iblk2
  rw [View.read_apply]
  refine congrArg (V c (Pipeline.arrRef spec2 4)) ?_
  funext a
  apply Fin.ext
  match a with
  | ⟨0, _⟩ => show win2_4.index t (0 : Fin 2) * 128 + 1 * p.val = p.val; rw [e40]; omega
  | ⟨1, _⟩ => show win2_4.index t (1 : Fin 2) * 128 + 1 * k.val = k.val; rw [e41]; omega

/-- Window 5 has one block, the whole array, at every point. -/
theorem iblk2_whole_5 (c : Dev nD) (t : Fin cfg2.N) (p : Fin 1) (k : Fin 128) :
    (iblk2 V c 5 t : S1x128.Idx → EReal) (ix2 p k) = ((V c (Pipeline.arrRef spec2 5)) : S1x128.Idx → EReal) (ix2 p k) := by
  obtain ⟨e00, e01, e10, e11, e20, e21, e30, e31, e40, e41, e50, e51, e60, e61, e70, e71, e80, e81⟩ := idx_facts2 t
  unfold iblk2
  rw [View.read_apply]
  refine congrArg (V c (Pipeline.arrRef spec2 5)) ?_
  funext a
  apply Fin.ext
  match a with
  | ⟨0, _⟩ => show win2_5.index t (0 : Fin 2) * 1 + 1 * p.val = p.val; rw [e50]; omega
  | ⟨1, _⟩ => show win2_5.index t (1 : Fin 2) * 128 + 1 * k.val = k.val; rw [e51]; omega

/-- z on the block of point t. -/
def zB2 (c : Dev nD) (t : Fin cfg2.N) : S5000x128.Idx → EReal :=
  zBlk (iblk2 V c 0 t) (iblk2 V c 1 t) (iblk2 V c 2 t) (iblk2 V c 3 t) (iblk2 V c 4 t) (iblk2 V c 5 t)

/-- Row r of that block is row 5000 t + r of z of the whole arrays. -/
theorem zB2_eq (c : Dev nD) (t : Fin cfg2.N) (r : Fin 5000) (q : Fin 128) (R : Fin 50000)
    (hR : R.val = t.val * 5000 + r.val) : zB2 V c t (ix2 r q) = Z2 V c (ix2 R q) :=
  zBlk_eq_zOf (iblk2 V c 0 t) (iblk2 V c 1 t) (iblk2 V c 2 t) (iblk2 V c 3 t) (iblk2 V c 4 t) (iblk2 V c 5 t)
    (V c (Pipeline.arrRef spec2 0)) (V c (Pipeline.arrRef spec2 1)) (V c (Pipeline.arrRef spec2 2))
    (fun q => V c (Pipeline.arrRef spec2 3) (ix2 (0 : Fin 1) q)) (V c (Pipeline.arrRef spec2 4))
    (fun q => V c (Pipeline.arrRef spec2 5) (ix2 (0 : Fin 1) q)) r R q
    (fun k => iblk2_rows_0 V c t r k R hR) (fun k => iblk2_rows_1 V c t r k R hR)
    (fun p k => iblk2_whole_2 V c t p k) (fun k => iblk2_whole_3 V c t 0 k)
    (fun p k => iblk2_whole_4 V c t p k) (fun k => iblk2_whole_5 V c t 0 k)

/-- The block's column sums of z and of z · z. -/
def sum2 (c : Dev nD) (t : Fin cfg2.N) (q : Fin 128) : EReal := ∑ r : Fin 5000, zB2 V c t (ix2 r q)
def sq2 (c : Dev nD) (t : Fin cfg2.N) (q : Fin 128) : EReal :=
  ∑ r : Fin 5000, zB2 V c t (ix2 r q) * zB2 V c t (ix2 r q)

/-! ## What the three output blocks hold after each point -/

/-- After the first point: z of its block, and the two rows at zero plus its column sums. -/
theorem outs2_A (c : Dev nD) (t : Fin cfg2.N) (h0 : t.val % 10 = 0) :
    outsAt2 V c t.val t.isLt
      = (zB2 V c t, (fun i => (0 : EReal) + sum2 V c t (i 1)), (fun i => (0 : EReal) + sq2 V c t (i 1))) := by
  rw [outsAt2_A V c t h0]
  have e6 : out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t) = zB2 V c t :=
    (o2_A_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t)).trans
      (pay4_eq_2 (iblk2 V c 0 t) (iblk2 V c 1 t) (iblk2 V c 2 t) (iblk2 V c 3 t) (iblk2 V c 4 t) (iblk2 V c 5 t))
  have e7 : out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t) = fun i => (0 : EReal) + sum2 V c t (i 1) :=
    (o2_A_7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t)).trans
      ((congrArg (k2_pay5 (F := Ideal) (iblk2 V c 0 t) (iblk2 V c 1 t) (iblk2 V c 2 t) (iblk2 V c 3 t) (iblk2 V c 4 t) (iblk2 V c 5 t)) pay2_eq_2).trans
        (pay5_eq_2 (iblk2 V c 0 t) (iblk2 V c 1 t) (iblk2 V c 2 t) (iblk2 V c 3 t) (iblk2 V c 4 t) (iblk2 V c 5 t) (fun _ => (0 : EReal))))
  have e8 : out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t) = fun i => (0 : EReal) + sq2 V c t (i 1) :=
    (o2_A_8 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t)).trans
      ((congrArg₂ (k2_pay1 (F := Ideal)) (pay4_eq_2 (iblk2 V c 0 t) (iblk2 V c 1 t) (iblk2 V c 2 t) (iblk2 V c 3 t) (iblk2 V c 4 t) (iblk2 V c 5 t)) pay3_eq_2).trans
        (pay1_eq_2 (zB2 V c t) (fun _ => (0 : EReal))))
  exact congrArg₂ Prod.mk e6 (congrArg₂ Prod.mk e7 e8)

/-- After a later point: z of its block, and the two rows at what the point before left plus its column sums. -/
theorem outs2_B (c : Dev nD) (t : Fin cfg2.N) (h0 : ¬t.val % 10 = 0) :
    outsAt2 V c t.val t.isLt
      = (zB2 V c t,
          (fun i => (outsAt2 V c (t.val - 1) (Nat.lt_of_le_of_lt (Nat.sub_le _ _) t.isLt)).2.1 i + sum2 V c t (i 1)),
          (fun i => (outsAt2 V c (t.val - 1) (Nat.lt_of_le_of_lt (Nat.sub_le _ _) t.isLt)).2.2 i + sq2 V c t (i 1))) := by
  rw [outsAt2_B V c t h0]
  have e6 : out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2 = zB2 V c t :=
    (o2_B_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2).trans
      (pay4_eq_2 (iblk2 V c 0 t) (iblk2 V c 1 t) (iblk2 V c 2 t) (iblk2 V c 3 t) (iblk2 V c 4 t) (iblk2 V c 5 t))
  have e7 : out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2
      = fun i => (outsAt2 V c (t.val - 1) (Nat.lt_of_le_of_lt (Nat.sub_le _ _) t.isLt)).2.1 i + sum2 V c t (i 1) :=
    (o2_B_7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2).trans
      (pay5_eq_2 (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1)
  have e8 : out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2
      = fun i => (outsAt2 V c (t.val - 1) (Nat.lt_of_le_of_lt (Nat.sub_le _ _) t.isLt)).2.2 i + sq2 V c t (i 1) :=
    (o2_B_8 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2).trans
      ((congrArg (fun z => k2_pay1 (F := Ideal) z (outsAt2 V c (t.val - 1) (Nat.lt_of_le_of_lt (Nat.sub_le _ _) t.isLt)).2.2) (pay4_eq_2 (iblk2 V c 0 t) (iblk2 V c 1 t) (iblk2 V c 2 t) (iblk2 V c 3 t) (iblk2 V c 4 t) (iblk2 V c 5 t))).trans
        (pay1_eq_2 (zB2 V c t) (outsAt2 V c (t.val - 1) (Nat.lt_of_le_of_lt (Nat.sub_le _ _) t.isLt)).2.2))
  exact congrArg₂ Prod.mk e6 (congrArg₂ Prod.mk e7 e8)

/-- The z block after any point is z of that point's block. -/
theorem z_inv2 (c : Dev nD) (t : Fin cfg2.N) : (outsAt2 V c t.val t.isLt).1 = zB2 V c t := by
  by_cases h0 : t.val % 10 = 0
  · rw [outs2_A V c t h0]
  · rw [outs2_B V c t h0]

/-- Point t's contribution to each running row, as a function of the point's number. -/
def gS2 (c : Dev nD) (q : Fin 128) (t : ℕ) : EReal := if h : t < cfg2.N then sum2 V c ⟨t, h⟩ q else 0
def gQ2 (c : Dev nD) (q : Fin 128) (t : ℕ) : EReal := if h : t < cfg2.N then sq2 V c ⟨t, h⟩ q else 0

theorem gS2_at (c : Dev nD) (q : Fin 128) (t : ℕ) (h : t < cfg2.N) : gS2 V c q t = sum2 V c ⟨t, h⟩ q := by
  unfold gS2; exact dif_pos h
theorem gQ2_at (c : Dev nD) (q : Fin 128) (t : ℕ) (h : t < cfg2.N) : gQ2 V c q t = sq2 V c ⟨t, h⟩ q := by
  unfold gQ2; exact dif_pos h

/-- After point n the two rows hold the running totals of the first n + 1 blocks' column sums. -/
theorem acc_inv2 (c : Dev nD) : ∀ (n : ℕ) (hn : n < cfg2.N),
    (outsAt2 V c n hn).2.1 = (fun i => running (gS2 V c (i 1)) (n + 1))
    ∧ (outsAt2 V c n hn).2.2 = (fun i => running (gQ2 V c (i 1)) (n + 1))
  | 0, hn => by
    have h : outsAt2 V c 0 hn = _ := outs2_A V c ⟨0, hn⟩ rfl
    rw [h]
    refine ⟨funext fun i => ?_, funext fun i => ?_⟩
    · show (0 : EReal) + sum2 V c ⟨0, hn⟩ (i 1) = running (gS2 V c (i 1)) 0 + gS2 V c (i 1) 0
      rw [running_zero, gS2_at V c (i 1) 0 hn]
    · show (0 : EReal) + sq2 V c ⟨0, hn⟩ (i 1) = running (gQ2 V c (i 1)) 0 + gQ2 V c (i 1) 0
      rw [running_zero, gQ2_at V c (i 1) 0 hn]
  | n + 1, hn => by
    have hN : cfg2.N = 10 := N_2
    have hB : ¬(⟨n + 1, hn⟩ : Fin cfg2.N).val % 10 = 0 := by dsimp only; omega
    have h : outsAt2 V c (n + 1) hn = _ := outs2_B V c ⟨n + 1, hn⟩ hB
    obtain ⟨ih1, ih2⟩ := acc_inv2 c n (Nat.lt_of_succ_lt hn)
    rw [h]
    refine ⟨funext fun i => ?_, funext fun i => ?_⟩
    · show (outsAt2 V c n _).2.1 i + sum2 V c ⟨n + 1, hn⟩ (i 1)
        = running (gS2 V c (i 1)) (n + 1) + gS2 V c (i 1) (n + 1)
      rw [ih1, gS2_at V c (i 1) (n + 1) hn]
    · show (outsAt2 V c n _).2.2 i + sq2 V c ⟨n + 1, hn⟩ (i 1)
        = running (gQ2 V c (i 1)) (n + 1) + gQ2 V c (i 1) (n + 1)
      rw [ih2, gQ2_at V c (i 1) (n + 1) hn]

/-- The ten blocks' column sums of z add up to the column sums over all 50000 rows. -/
theorem total_sum2 (c : Dev nD) (q : Fin 128) : running (gS2 V c q) 10 = Cert.Gin.colSum (Z2 V c) q := by
  rw [running_eq_sum_fin]
  unfold Cert.Gin.colSum
  rw [sum_blocks_of_eq 10 5000 (by norm_num) (fun R : Fin 50000 => Z2 V c (ix2 R q))]
  refine Finset.sum_congr rfl fun t _ => ?_
  have ht : t.val < cfg2.N := lt_of_lt_of_eq t.isLt (show (10 : ℕ) = cfg2.N from N_2.symm)
  rw [gS2_at V c q t.val ht]
  unfold sum2
  exact Finset.sum_congr rfl fun r _ => zB2_eq V c ⟨t.val, ht⟩ r q ⟨t.val * 5000 + r.val, _⟩ rfl

/-- The same for the squares. -/
theorem total_sq2 (c : Dev nD) (q : Fin 128) :
    running (gQ2 V c q) 10 = Cert.Gin.colSum (fun j => Z2 V c j * Z2 V c j) q := by
  rw [running_eq_sum_fin]
  unfold Cert.Gin.colSum
  rw [sum_blocks_of_eq 10 5000 (by norm_num) (fun R : Fin 50000 => Z2 V c (ix2 R q) * Z2 V c (ix2 R q))]
  refine Finset.sum_congr rfl fun t _ => ?_
  have ht : t.val < cfg2.N := lt_of_lt_of_eq t.isLt (show (10 : ℕ) = cfg2.N from N_2.symm)
  rw [gQ2_at V c q t.val ht]
  unfold sq2
  exact Finset.sum_congr rfl fun r _ => by rw [zB2_eq V c ⟨t.val, ht⟩ r q ⟨t.val * 5000 + r.val, _⟩ rfl]

end Cert.Gin.RegionMlp

end
-- ==== Proof.RegionMlp2.lean ====
import proofs.«179664_j13365938225808_1_alg».proof.Proof.RegionMlpAcc2

/-!
  Region 2's three output arrays after the region: the write-backs of the z blocks tile the z array, and the one
  write-back of each running row, after the last point, carries the totals over all 50000 rows.
-/

noncomputable section

open scoped BigOperators

namespace Cert.Gin.RegionMlp

open Idealize.ShloMosaic Idealize.ShloMosaic.TcCoe Idealize.ShloMosaic.ValueIdx Idealize.SL.Sem
open Idealize.ShloMosaic.Pipeline (Dat)
open Cert.KernelIdeal Cert.KernelIdeal.Gen Cert.LibBlockSum

variable (V : (c : Dev nD) → (b : Ref sig .tc) → Buf (Elt Ideal) ((c : Thread nD τ).loc b))

/-! ## From the blocks to the arrays -/

/-- What point t writes back of z is rows 5000 t … 5000 t + 4999 of z of the whole arrays. -/
theorem flushed2_6 (c : Dev nD) (t : Fin cfg2.N) :
    (dat2 (F := Ideal) V c).flushed 6 t = ((cfg2.win 6).blk t).view.read (Elt Ideal) (Z2 V c) := by
  obtain ⟨e00, e01, e10, e11, e20, e21, e30, e31, e40, e41, e50, e51, e60, e61, e70, e71, e80, e81⟩ := idx_facts2 t
  have hN : cfg2.N = 10 := N_2
  have ht : t.val < 10 := lt_of_lt_of_eq t.isLt hN
  show (cfg2.win 6).cut (grid2.coords t) ((dat2 V c).after 6 t) = _
  rw [after2_6, z_inv2]
  funext j
  obtain ⟨r, q, rfl⟩ : ∃ (r : Fin 5000) (q : Fin 128), j = (ix2 r q : S5000x128.Idx) := ⟨j 0, j 1, eq_ix2 j⟩
  show zB2 V c t (ix2 r q) = Z2 V c (((cfg2.win 6).blk t).view.emb (ix2 r q : S5000x128.Idx))
  refine (zB2_eq V c t r q ⟨t.val * 5000 + r.val, by have := r.isLt; omega⟩ rfl).trans ?_
  refine congrArg (Z2 V c) ?_
  funext a
  apply Fin.ext
  match a with
  | ⟨0, _⟩ => show t.val * 5000 + r.val = win2_6.index t (0 : Fin 2) * 5000 + 1 * r.val; rw [e60]; omega
  | ⟨1, _⟩ => show q.val = win2_6.index t (1 : Fin 2) * 128 + 1 * q.val; rw [e61]; omega

/-- An index of the z array is in point t's block iff each coordinate is in the block's range. -/
theorem mem_blk2_6 (t : Fin cfg2.N) (i : S50000x128.Idx) :
    i ∈ ((cfg2.win 6).blk t).view.set
      ↔ ∀ a : Fin 2, win2_6.index t a * S5000x128.size a ≤ (i a).val ∧ (i a).val < win2_6.index t a * S5000x128.size a + S5000x128.size a := by
  show i ∈ ((View.whole main_v61_0).slice (win2_6.rect t)).set ↔ _
  rw [View.set_slice_whole, Rect.mem_set_unit]
  exact Iff.rfl

/-- Row R of the z array is in the block of point R / 5000. -/
theorem cover2_6 (i : S50000x128.Idx) :
    ∃ t : Fin cfg2.N, (cfg2.win 6).flush t = true ∧ i ∈ ((cfg2.win 6).blk t).view.set := by
  have hN : cfg2.N = 10 := N_2
  have h0 : (i 0).val < 50000 := (i 0).isLt
  have h1 : (i 1).val < 128 := (i 1).isLt
  have ht : (i 0).val / 5000 < cfg2.N := by rw [hN]; omega
  obtain ⟨e00, e01, e10, e11, e20, e21, e30, e31, e40, e41, e50, e51, e60, e61, e70, e71, e80, e81⟩ := idx_facts2 ⟨(i 0).val / 5000, ht⟩
  refine ⟨⟨(i 0).val / 5000, ht⟩, flush2_6 _, ?_⟩
  rw [mem_blk2_6]
  intro a
  match a with
  | ⟨0, _⟩ =>
    show win2_6.index ⟨(i 0).val / 5000, ht⟩ (0 : Fin 2) * 5000 ≤ (i 0).val
      ∧ (i 0).val < win2_6.index ⟨(i 0).val / 5000, ht⟩ (0 : Fin 2) * 5000 + 5000
    rw [e60]; dsimp only; omega
  | ⟨1, _⟩ =>
    show win2_6.index ⟨(i 0).val / 5000, ht⟩ (1 : Fin 2) * 128 ≤ (i 1).val
      ∧ (i 1).val < win2_6.index ⟨(i 0).val / 5000, ht⟩ (1 : Fin 2) * 128 + 128
    rw [e61]; omega

/-- The sum row's one block is the whole row: reading a row through it changes nothing. -/
theorem read_blk2_7 (t : Fin cfg2.N) (G : S1x128.Idx → EReal) :
    ((cfg2.win 7).blk t).view.read (Elt Ideal) G = G := by
  obtain ⟨e00, e01, e10, e11, e20, e21, e30, e31, e40, e41, e50, e51, e60, e61, e70, e71, e80, e81⟩ := idx_facts2 t
  funext j
  rw [View.read_apply]
  refine congrArg G ?_
  funext a
  apply Fin.ext
  match a with
  | ⟨0, _⟩ => show win2_7.index t (0 : Fin 2) * 1 + 1 * (j 0).val = (j 0).val; rw [e70]; omega
  | ⟨1, _⟩ => show win2_7.index t (1 : Fin 2) * 128 + 1 * (j 1).val = (j 1).val; rw [e71]; omega

/-- The one write-back of the sum row, after the last point, writes the column sums over all rows. -/
theorem flushed2_7 (c : Dev nD) (t : Fin cfg2.N) (hf : (cfg2.win 7).flush t = true) :
    (dat2 (F := Ideal) V c).flushed 7 t
      = ((cfg2.win 7).blk t).view.read (Elt Ideal) (fun i : S1x128.Idx => Cert.Gin.colSum (Z2 V c) (i 1)) := by
  have hN : cfg2.N = 10 := N_2
  have h9 : t.val + 1 = 10 := by have := (flush2_7 t).mp hf; have := t.isLt; omega
  rw [read_blk2_7]
  show (cfg2.win 7).cut (grid2.coords t) ((dat2 V c).after 7 t) = _
  rw [after2_7, (acc_inv2 V c t.val t.isLt).1, h9]
  exact funext fun i => total_sum2 V c (i 1)

/-- An index of the sum row is in point t's block iff each coordinate is in the block's range. -/
theorem mem_blk2_7 (t : Fin cfg2.N) (i : S1x128.Idx) :
    i ∈ ((cfg2.win 7).blk t).view.set
      ↔ ∀ a : Fin 2, win2_7.index t a * S1x128.size a ≤ (i a).val ∧ (i a).val < win2_7.index t a * S1x128.size a + S1x128.size a := by
  show i ∈ ((View.whole main_v61_1).slice (win2_7.rect t)).set ↔ _
  rw [View.set_slice_whole, Rect.mem_set_unit]
  exact Iff.rfl

/-- The last point's block is the whole row. -/
theorem cover2_7 (i : S1x128.Idx) :
    ∃ t : Fin cfg2.N, (cfg2.win 7).flush t = true ∧ i ∈ ((cfg2.win 7).blk t).view.set := by
  obtain ⟨e00, e01, e10, e11, e20, e21, e30, e31, e40, e41, e50, e51, e60, e61, e70, e71, e80, e81⟩ := idx_facts2 t2_9
  refine ⟨t2_9, (flush2_7 t2_9).mpr rfl, ?_⟩
  rw [mem_blk2_7]
  have h0 : (i 0).val < 1 := (i 0).isLt
  have h1 : (i 1).val < 128 := (i 1).isLt
  intro a
  match a with
  | ⟨0, _⟩ => show win2_7.index t2_9 (0 : Fin 2) * 1 ≤ (i 0).val ∧ (i 0).val < win2_7.index t2_9 (0 : Fin 2) * 1 + 1; rw [e70]; omega
  | ⟨1, _⟩ => show win2_7.index t2_9 (1 : Fin 2) * 128 ≤ (i 1).val ∧ (i 1).val < win2_7.index t2_9 (1 : Fin 2) * 128 + 128; rw [e71]; omega

/-- The sum-of-squares row's one block is the whole row: reading a row through it changes nothing. -/
theorem read_blk2_8 (t : Fin cfg2.N) (G : S1x128.Idx → EReal) :
    ((cfg2.win 8).blk t).view.read (Elt Ideal) G = G := by
  obtain ⟨e00, e01, e10, e11, e20, e21, e30, e31, e40, e41, e50, e51, e60, e61, e70, e71, e80, e81⟩ := idx_facts2 t
  funext j
  rw [View.read_apply]
  refine congrArg G ?_
  funext a
  apply Fin.ext
  match a with
  | ⟨0, _⟩ => show win2_8.index t (0 : Fin 2) * 1 + 1 * (j 0).val = (j 0).val; rw [e80]; omega
  | ⟨1, _⟩ => show win2_8.index t (1 : Fin 2) * 128 + 1 * (j 1).val = (j 1).val; rw [e81]; omega

/-- The one write-back of the sum-of-squares row, after the last point, writes the column sums over all rows. -/
theorem flushed2_8 (c : Dev nD) (t : Fin cfg2.N) (hf : (cfg2.win 8).flush t = true) :
    (dat2 (F := Ideal) V c).flushed 8 t
      = ((cfg2.win 8).blk t).view.read (Elt Ideal) (fun i : S1x128.Idx => Cert.Gin.colSum (fun j => Z2 V c j * Z2 V c j) (i 1)) := by
  have hN : cfg2.N = 10 := N_2
  have h9 : t.val + 1 = 10 := by have := (flush2_8 t).mp hf; have := t.isLt; omega
  rw [read_blk2_8]
  show (cfg2.win 8).cut (grid2.coords t) ((dat2 V c).after 8 t) = _
  rw [after2_8, (acc_inv2 V c t.val t.isLt).2, h9]
  exact funext fun i => total_sq2 V c (i 1)

/-- An index of the sum-of-squares row is in point t's block iff each coordinate is in the block's range. -/
theorem mem_blk2_8 (t : Fin cfg2.N) (i : S1x128.Idx) :
    i ∈ ((cfg2.win 8).blk t).view.set
      ↔ ∀ a : Fin 2, win2_8.index t a * S1x128.size a ≤ (i a).val ∧ (i a).val < win2_8.index t a * S1x128.size a + S1x128.size a := by
  show i ∈ ((View.whole main_v61_2).slice (win2_8.rect t)).set ↔ _
  rw [View.set_slice_whole, Rect.mem_set_unit]
  exact Iff.rfl

/-- The last point's block is the whole row. -/
theorem cover2_8 (i : S1x128.Idx) :
    ∃ t : Fin cfg2.N, (cfg2.win 8).flush t = true ∧ i ∈ ((cfg2.win 8).blk t).view.set := by
  obtain ⟨e00, e01, e10, e11, e20, e21, e30, e31, e40, e41, e50, e51, e60, e61, e70, e71, e80, e81⟩ := idx_facts2 t2_9
  refine ⟨t2_9, (flush2_8 t2_9).mpr rfl, ?_⟩
  rw [mem_blk2_8]
  have h0 : (i 0).val < 1 := (i 0).isLt
  have h1 : (i 1).val < 128 := (i 1).isLt
  intro a
  match a with
  | ⟨0, _⟩ => show win2_8.index t2_9 (0 : Fin 2) * 1 ≤ (i 0).val ∧ (i 0).val < win2_8.index t2_9 (0 : Fin 2) * 1 + 1; rw [e80]; omega
  | ⟨1, _⟩ => show win2_8.index t2_9 (1 : Fin 2) * 128 ≤ (i 1).val ∧ (i 1).val < win2_8.index t2_9 (1 : Fin 2) * 128 + 128; rw [e81]; omega

/-! ## The three arrays after the region -/

/-- The z array ends at z of the arrays the region found. -/
theorem region2_z (c : Dev nD) : (dat2 (F := Ideal) V c).arrAt 6 cfg2.N = Z2 V c :=
  (dat2 (F := Ideal) V c).arrAt_eq_of_cover 6 (Z2 V c) (fun t _ => flushed2_6 V c t) cover2_6

/-- The sum row ends at z's column sums over the 50000 rows. -/
theorem region2_sum (c : Dev nD) :
    (dat2 (F := Ideal) V c).arrAt 7 cfg2.N = fun i => Cert.Gin.colSum (Z2 V c) (i 1) :=
  (dat2 (F := Ideal) V c).arrAt_eq_of_cover 7 (fun i : S1x128.Idx => Cert.Gin.colSum (Z2 V c) (i 1))
    (flushed2_7 V c) cover2_7

/-- The sum-of-squares row ends at the column sums of z · z over the 50000 rows. -/
theorem region2_sumsq (c : Dev nD) :
    (dat2 (F := Ideal) V c).arrAt 8 cfg2.N = fun i => Cert.Gin.colSum (fun j => Z2 V c j * Z2 V c j) (i 1) :=
  (dat2 (F := Ideal) V c).arrAt_eq_of_cover 8 (fun i : S1x128.Idx => Cert.Gin.colSum (fun j => Z2 V c j * Z2 V c j) (i 1))
    (flushed2_8 V c) cover2_8

end Cert.Gin.RegionMlp

end
-- ==== Proof.KerValue.lean ====
/-
  The idealized kernel program's result is the specification's network with the variance taken as the mean of
  the squares minus the squared mean.

  The result's buffer, as the run leaves it, is walked back through the segments.  The last stretch stacks the two
  layers' outputs.  A layer's output is what its normalising region leaves: the normalisation of the array z that
  the layer's first region left, by the mean and reciprocal standard deviation rows that the stretch between the
  two regions computed from that region's two column-sum rows, and by the layer's scale and shift rows.  The first
  region's z is the two affine maps with the rectifier between them applied to x plus the neighbour sum of x, with
  the layer's matrices and bias rows cut out of the stacked parameters.  For layer 0, x is the first argument; for
  layer 1, x is layer 0's output, which nothing overwrites in between.
-/
import proofs.«179664_j13365938225808_1_alg».proof.Proof.KerHost
import proofs.«179664_j13365938225808_1_alg».proof.Proof.KerRead
import proofs.«179664_j13365938225808_1_alg».proof.Proof.RegionBn
import proofs.«179664_j13365938225808_1_alg».proof.Proof.RegionMlp0
import proofs.«179664_j13365938225808_1_alg».proof.Proof.RegionMlp2
import proofs.«179664_j13365938225808_1_alg».proof.Proof.Spec

set_option maxRecDepth 16384

noncomputable section

namespace Cert.Gin.KerValue

open Idealize.ShloMosaic Idealize.ShloMosaic.TcCoe Idealize.ShloMosaic.ValueIdx Idealize.SL.Sem
open Cert.KernelIdeal Cert.KernelIdeal.Gen Cert.Gin Cert.Gin.KerHost Cert.Gin.KerRead

/-- The neighbour sum along the edge list `ei`, as a function of the features. -/
def AK (ei : Edges) : Mat → Mat := fun x => aggK x (srcK ei) (dstK ei)

/-- An array's entries squared. -/
abbrev sqOf (Z : Mat) : Mat := fun j => Z j * Z j

/-- The normalisation by the rows the host computes from the two column-sum rows is the specification's, with the
    variance as the mean of the squares minus the squared mean. -/
theorem norm_rows (Z : Mat) (S SS G B : FVec Ideal S1x128 .f32) (g be : Col)
    (hS : S = fun i => colSum Z (i 1)) (hSS : SS = fun i => colSum (sqOf Z) (i 1))
    (hG : ∀ q : Fin 128, G (ix2 (0 : Fin 1) q) = g q) (hB : ∀ q : Fin 128, B (ix2 (0 : Fin 1) q) = be q) :
    bn Z (fun q => meanK S (ix2 (0 : Fin 1) q)) (fun q => istdK S SS (ix2 (0 : Fin 1) q))
        (fun q => G (ix2 (0 : Fin 1) q)) (fun q => B (ix2 (0 : Fin 1) q))
      = normWith varK Z g be := by
  subst hS hSS
  have h1 : (fun q : Fin 128 => meanK (fun i => colSum Z (i 1)) (ix2 (0 : Fin 1) q)) = meanOf Z :=
    funext fun q => meanK_apply _ q
  have h2 : (fun q : Fin 128 => istdK (fun i => colSum Z (i 1)) (fun i => colSum (sqOf Z) (i 1)) (ix2 (0 : Fin 1) q))
      = fun q => Ideal.rsqrt (varK Z q + cEps) := funext fun q => istdK_apply _ _ q
  have h3 : (fun q : Fin 128 => G (ix2 (0 : Fin 1) q)) = g := funext hG
  have h4 : (fun q : Fin 128 => B (ix2 (0 : Fin 1) q)) = be := funext hB
  rw [h1, h2, h3, h4]
  rfl

variable (m : (ℓ : Loc nD τ sig) → Buf (Elt Ideal) ℓ) (ρ : Dev nD → PrngReg) (c : Dev nD)

/-! ## Layer 0 -/

/-- What layer 0's first region leaves in z. -/
theorem z0_value : W2 m ρ c (Proc.devRef .tc main_v24_0)
    = zOf (m ((c : Thread nD τ).loc main_arg0)) (AK (m ((c : Thread nD τ).loc main_arg1)) (m ((c : Thread nD τ).loc main_arg0))) (mat (m ((c : Thread nD τ).loc main_arg2)) 0) (vec (m ((c : Thread nD τ).loc main_arg3)) 0) (mat (m ((c : Thread nD τ).loc main_arg4)) 0) (vec (m ((c : Thread nD τ).loc main_arg5)) 0) := by
  refine ((W2_arr m ρ c 6).trans (Cert.Gin.RegionMlp.region0_z (V1 m ρ) c)).trans ?_
  show zOf (W1 m ρ c (Proc.devRef .tc main_arg0)) (W1 m ρ c (Proc.devRef .tc main_v13)) (W1 m ρ c (Proc.devRef .tc main_v15)) (fun q => W1 m ρ c (Proc.devRef .tc main_v18) (ix2 (0 : Fin 1) q))
      (W1 m ρ c (Proc.devRef .tc main_v20)) (fun q => W1 m ρ c (Proc.devRef .tc main_v23) (ix2 (0 : Fin 1) q)) = _
  rw [W1_arg0, W1_v13, W1_v15, W1_v18, W1_v20, W1_v23, sliceW0_eq, sliceW0_eq]
  simp only [rowV0_apply]
  rfl

/-- Its column sums. -/
theorem s0_value : W2 m ρ c (Proc.devRef .tc main_v24_1)
    = fun i => colSum (W2 m ρ c (Proc.devRef .tc main_v24_0)) (i 1) := by
  refine ((W2_arr m ρ c 7).trans (Cert.Gin.RegionMlp.region0_sum (V1 m ρ) c)).trans ?_
  rw [(W2_arr m ρ c 6).trans (Cert.Gin.RegionMlp.region0_z (V1 m ρ) c)]
theorem ss0_value : W2 m ρ c (Proc.devRef .tc main_v24_2)
    = fun i => colSum (sqOf (W2 m ρ c (Proc.devRef .tc main_v24_0))) (i 1) := by
  refine ((W2_arr m ρ c 8).trans (Cert.Gin.RegionMlp.region0_sumsq (V1 m ρ) c)).trans ?_
  rw [(W2_arr m ρ c 6).trans (Cert.Gin.RegionMlp.region0_z (V1 m ρ) c)]

/-- Layer 0's output. -/
theorem layer0_value : W4 m ρ c (Proc.devRef .tc main_v40)
    = layerWith varK (AK (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) 0 := by
  refine ((W4_arr m ρ c 5).trans (Cert.Gin.RegionBn.region1_value (V3 m ρ) c)).trans ?_
  show bn (W3 m ρ c (Proc.devRef .tc main_v24_0)) (fun q => W3 m ρ c (Proc.devRef .tc main_v26) (ix2 (0 : Fin 1) q)) (fun q => W3 m ρ c (Proc.devRef .tc main_v33) (ix2 (0 : Fin 1) q))
      (fun q => W3 m ρ c (Proc.devRef .tc main_v36) (ix2 (0 : Fin 1) q)) (fun q => W3 m ρ c (Proc.devRef .tc main_v39) (ix2 (0 : Fin 1) q)) = _
  rw [W3_v24_0, W3_v26, W3_v33, W3_v36, W3_v39]
  rw [norm_rows (W2 m ρ c (Proc.devRef .tc main_v24_0)) _ _ _ _ (vec (m ((c : Thread nD τ).loc main_arg6)) 0) (vec (m ((c : Thread nD τ).loc main_arg7)) 0) (s0_value m ρ c) (ss0_value m ρ c)
    (fun q => rowV0_apply _ q) (fun q => rowV0_apply _ q), z0_value]
  rfl

/-! ## Layer 1 -/

/-- What layer 1's first region leaves in z: layer 0's output takes the place of the first argument. -/
theorem z1_value : W6 m ρ c (Proc.devRef .tc main_v61_0)
    = zOf (W4 m ρ c (Proc.devRef .tc main_v40)) (AK (m ((c : Thread nD τ).loc main_arg1)) (W4 m ρ c (Proc.devRef .tc main_v40))) (mat (m ((c : Thread nD τ).loc main_arg2)) 1) (vec (m ((c : Thread nD τ).loc main_arg3)) 1) (mat (m ((c : Thread nD τ).loc main_arg4)) 1) (vec (m ((c : Thread nD τ).loc main_arg5)) 1) := by
  refine ((W6_arr m ρ c 6).trans (Cert.Gin.RegionMlp.region2_z (V5 m ρ) c)).trans ?_
  show zOf (W5 m ρ c (Proc.devRef .tc main_v40)) (W5 m ρ c (Proc.devRef .tc main_v50)) (W5 m ρ c (Proc.devRef .tc main_v52)) (fun q => W5 m ρ c (Proc.devRef .tc main_v55) (ix2 (0 : Fin 1) q))
      (W5 m ρ c (Proc.devRef .tc main_v57)) (fun q => W5 m ρ c (Proc.devRef .tc main_v60) (ix2 (0 : Fin 1) q)) = _
  rw [W5_v40, W5_v50, W5_v52, W5_v55, W5_v57, W5_v60, sliceW1_eq, sliceW1_eq]
  simp only [rowV1_apply]
  rfl

theorem s1_value : W6 m ρ c (Proc.devRef .tc main_v61_1)
    = fun i => colSum (W6 m ρ c (Proc.devRef .tc main_v61_0)) (i 1) := by
  refine ((W6_arr m ρ c 7).trans (Cert.Gin.RegionMlp.region2_sum (V5 m ρ) c)).trans ?_
  rw [(W6_arr m ρ c 6).trans (Cert.Gin.RegionMlp.region2_z (V5 m ρ) c)]
theorem ss1_value : W6 m ρ c (Proc.devRef .tc main_v61_2)
    = fun i => colSum (sqOf (W6 m ρ c (Proc.devRef .tc main_v61_0))) (i 1) := by
  refine ((W6_arr m ρ c 8).trans (Cert.Gin.RegionMlp.region2_sumsq (V5 m ρ) c)).trans ?_
  rw [(W6_arr m ρ c 6).trans (Cert.Gin.RegionMlp.region2_z (V5 m ρ) c)]

/-- Layer 1's output. -/
theorem layer1_value : W8 m ρ c (Proc.devRef .tc main_v77)
    = layerWith varK (AK (m ((c : Thread nD τ).loc main_arg1))) (W4 m ρ c (Proc.devRef .tc main_v40)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) 1 := by
  refine ((W8_arr m ρ c 5).trans (Cert.Gin.RegionBn.region3_value (V7 m ρ) c)).trans ?_
  show bn (W7 m ρ c (Proc.devRef .tc main_v61_0)) (fun q => W7 m ρ c (Proc.devRef .tc main_v63) (ix2 (0 : Fin 1) q)) (fun q => W7 m ρ c (Proc.devRef .tc main_v70) (ix2 (0 : Fin 1) q))
      (fun q => W7 m ρ c (Proc.devRef .tc main_v73) (ix2 (0 : Fin 1) q)) (fun q => W7 m ρ c (Proc.devRef .tc main_v76) (ix2 (0 : Fin 1) q)) = _
  rw [W7_v61_0, W7_v63, W7_v70, W7_v73, W7_v76]
  rw [norm_rows (W6 m ρ c (Proc.devRef .tc main_v61_0)) _ _ _ _ (vec (m ((c : Thread nD τ).loc main_arg6)) 1) (vec (m ((c : Thread nD τ).loc main_arg7)) 1) (s1_value m ρ c) (ss1_value m ρ c)
    (fun q => rowV1_apply _ q) (fun q => rowV1_apply _ q), z1_value]
  rfl

/-! ## The result -/

/-- The result's buffer after the run holds the network. -/
theorem result_value : W9 m ρ c (Proc.devRef .tc main_v80)
    = netWith varK (AK (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [W9_v80, W8_v40, layer1_value, layer0_value, stackK_eq]
  rfl

end Cert.Gin.KerValue

end
-- ==== Proof.RefRunAux.lean ====
/-
  The congruence lemmas that simplification states on demand for the reference's dimension records and for a typed
  reference built from a literal one, stated here once, upstream of the modules that simplify under them.
-/
import proofs.«179664_j13365938225808_1_alg».proof.Proof.Gen.ReferenceIdeal
import Idealize.ShloMosaic.Lib.StableHlo.Run

noncomputable section

namespace Cert.Gin.RefRun

open Cert.ReferenceIdeal Cert.ReferenceIdeal.Gen Idealize.ShloMosaic Idealize.ShloMosaic.StableHlo

theorem congr_simp_realized : True := by
  have := @scatter_S50000x128_S800000x1_S800000x128_1_0_0_1.congr_simp
  have := @gather_S50000x128_S800000x1_S800000x128_1_0_n_n_0_1_1128.congr_simp
  have := @dot_S50000x128_S128x128_S50000x128_1_0_0_1_n_n.congr_simp
  have := @TRef.of.congr_simp
  trivial

end Cert.Gin.RefRun

end
-- ==== Proof.RefRun0.lean ====
/-
  The first window of the reference program as a list of host operations, cut into four stretches: layer 0 up to
  the product with the scale of its normalisation.
-/
import proofs.«179664_j13365938225808_1_alg».proof.Proof.Gen.ReferenceIdeal
import Idealize.ShloMosaic.Lib.StableHlo.Run
import proofs.«179664_j13365938225808_1_alg».proof.Proof.RefRunAux

noncomputable section

namespace Cert.Gin.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 83 operations in order, each called function's operations listed at its call over that call's buffers. -/
abbrev ops0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.unary main_arg2 main_v4 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v4 main_v5 rfl shapeCasts_S1x128x128_S128x128,
    StableHlo.unary main_arg3 main_v6 ((extractStridedSlice S1x128 ![0, 0] · slices_S2x128_S1x128_0_0) : (⟨S2x128, .f32⟩ : BufTy).Contents (Elt F) → (⟨S1x128, .f32⟩ : BufTy).Contents (Elt F)),
    StableHlo.reshape main_v6 main_v7 rfl shapeCasts_S1x128_S128,
    StableHlo.unary main_arg4 main_v8 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v8 main_v9 rfl shapeCasts_S1x128x128_S128x128,
    StableHlo.unary main_arg5 main_v10 ((extractStridedSlice S1x128 ![0, 0] · slices_S2x128_S1x128_0_0) : (⟨S2x128, .f32⟩ : BufTy).Contents (Elt F) → (⟨S1x128, .f32⟩ : BufTy).Contents (Elt F)),
    StableHlo.reshape main_v10 main_v11 rfl shapeCasts_S1x128_S128,
    StableHlo.unary main_arg6 main_v12 ((extractStridedSlice S1x128 ![0, 0] · slices_S2x128_S1x128_0_0) : (⟨S2x128, .f32⟩ : BufTy).Contents (Elt F) → (⟨S1x128, .f32⟩ : BufTy).Contents (Elt F)),
    StableHlo.reshape main_v12 main_v13 rfl shapeCasts_S1x128_S128,
    StableHlo.unary main_arg7 main_v14 ((extractStridedSlice S1x128 ![0, 0] · slices_S2x128_S1x128_0_0) : (⟨S2x128, .f32⟩ : BufTy).Contents (Elt F) → (⟨S1x128, .f32⟩ : BufTy).Contents (Elt F)),
    StableHlo.reshape main_v14 main_v15 rfl shapeCasts_S1x128_S128,
    StableHlo.nullary main_c (constantI S_ 32 0#32),
    StableHlo.unary main_c main_v16 (broadcastInDim S800000 ![] bcast_S_S800000 : (⟨S_, .i32⟩ : BufTy).Contents (Elt F) → (⟨S800000, .i32⟩ : BufTy).Contents (Elt F)),
    StableHlo.binary main_v1 main_v16 main_v17 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v18 (broadcastInDim S800000 ![] bcast_S_S800000 : (⟨S_, .i32⟩ : BufTy).Contents (Elt F) → (⟨S800000, .i32⟩ : BufTy).Contents (Elt F)),
    StableHlo.binary main_v1 main_v18 main_v19 (addi : (⟨S800000, .i32⟩ : BufTy).Contents (Elt F) → (⟨S800000, .i32⟩ : BufTy).Contents (Elt F) → (⟨S800000, .i32⟩ : BufTy).Contents (Elt F)),
    StableHlo.ternary main_v17 main_v19 main_v1 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v20 main_v21 (broadcastInDim S800000x1 ![0] bcast_S800000_S800000x1_0 : (⟨S800000, .i32⟩ : BufTy).Contents (Elt F) → (⟨S800000x1, .i32⟩ : BufTy).Contents (Elt F)),
    StableHlo.binary main_arg0 main_v21 main_v22 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v23 (broadcastInDim S50000x128 ![] bcast_S_S50000x128 : (⟨S_, .f32⟩ : BufTy).Contents (Elt F) → (⟨S50000x128, .f32⟩ : BufTy).Contents (Elt F)),
    StableHlo.unary main_v3 main_v24 (broadcastInDim S800000x1 ![0] bcast_S800000_S800000x1_0 : (⟨S800000, .i32⟩ : BufTy).Contents (Elt F) → (⟨S800000x1, .i32⟩ : BufTy).Contents (Elt F)),
    StableHlo.ternary main_v23 main_v24 main_v22 main_v25 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_arg0 main_v25 main_v26 (addf : (⟨S50000x128, .f32⟩ : BufTy).Contents (Elt F) → (⟨S50000x128, .f32⟩ : BufTy).Contents (Elt F) → (⟨S50000x128, .f32⟩ : BufTy).Contents (Elt F)),
    StableHlo.binary main_v26 main_v5 main_v27 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v7 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S50000x128 ![0, 1] bcast_S1x128_S50000x128_0_1 : (⟨S1x128, .f32⟩ : BufTy).Contents (Elt F) → (⟨S50000x128, .f32⟩ : BufTy).Contents (Elt F)),
    StableHlo.binary main_v27 main_v29 main_v30 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (StableHlo.TRef.of main_v30 : StableHlo.TRef sig ⟨S50000x128, .f32⟩) main_call0.v0 main_call0.v1 maximumf,
    StableHlo.binary main_v31 main_v9 main_v32 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v11 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S50000x128 ![0, 1] bcast_S1x128_S50000x128_0_1 : (⟨S1x128, .f32⟩ : BufTy).Contents (Elt F) → (⟨S50000x128, .f32⟩ : BufTy).Contents (Elt F)),
    StableHlo.binary main_v32 main_v34 main_v35 (addf : (⟨S50000x128, .f32⟩ : BufTy).Contents (Elt F) → (⟨S50000x128, .f32⟩ : BufTy).Contents (Elt F) → (⟨S50000x128, .f32⟩ : BufTy).Contents (Elt F)),
    StableHlo.nullary main_cst_1 (constant S_ .f32 0x00000000#32),
    StableHlo.binary main_v35 main_cst_1 main_v36 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v37 (broadcastInDim S128 ![] bcast_S_S128 : (⟨S_, .f32⟩ : BufTy).Contents (Elt F) → (⟨S128, .f32⟩ : BufTy).Contents (Elt F)),
    StableHlo.binary main_v36 main_v37 main_v38 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call1.cst (constant S_ .f32 0x00000000#32),
    StableHlo.TRef.binary (StableHlo.TRef.of main_v35 : StableHlo.TRef sig ⟨S50000x128, .f32⟩) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (StableHlo.TRef.of main_v35 : StableHlo.TRef sig ⟨S50000x128, .f32⟩) main_call1.v4 main_call1.v5 subf,
    StableHlo.TRef.binary main_call1.v5 main_call1.v5 main_call1.v6 mulf,
    StableHlo.TRef.unary (StableHlo.TRef.of main_c_3 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v38 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S50000x128 ![0, 1] bcast_S1x128_S50000x128_0_1 : (⟨S1x128, .f32⟩ : BufTy).Contents (Elt F) → (⟨S50000x128, .f32⟩ : BufTy).Contents (Elt F)),
    StableHlo.binary main_v35 main_v41 main_v42 (subf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v43 (broadcastInDim S128 ![] bcast_S_S128 : (⟨S_, .f32⟩ : BufTy).Contents (Elt F) → (⟨S128, .f32⟩ : BufTy).Contents (Elt F)),
    StableHlo.binary main_v39 main_v43 main_v44 (addf : (⟨S128, .f32⟩ : BufTy).Contents (Elt F) → (⟨S128, .f32⟩ : BufTy).Contents (Elt F) → (⟨S128, .f32⟩ : BufTy).Contents (Elt F)),
    StableHlo.unary main_v44 main_v45 (Host.rsqrt : (⟨S128, .f32⟩ : BufTy).Contents (Elt F) → (⟨S128, .f32⟩ : BufTy).Contents (Elt F)),
    StableHlo.unary main_v45 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),
    StableHlo.binary main_v42 main_v47 main_v48 (mulf : (⟨S50000x128, .f32⟩ : BufTy).Contents (Elt F) → (⟨S50000x128, .f32⟩ : BufTy).Contents (Elt F) → (⟨S50000x128, .f32⟩ : BufTy).Contents (Elt F)),
    StableHlo.unary main_v13 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S50000x128 ![0, 1] bcast_S1x128_S50000x128_0_1 : (⟨S1x128, .f32⟩ : BufTy).Contents (Elt F) → (⟨S50000x128, .f32⟩ : BufTy).Contents (Elt F)),
    StableHlo.binary main_v48 main_v50 main_v51 (mulf : (⟨S50000x128, .f32⟩ : BufTy).Contents (Elt F) → (⟨S50000x128, .f32⟩ : BufTy).Contents (Elt F) → (⟨S50000x128, .f32⟩ : BufTy).Contents (Elt F)),
    StableHlo.unary main_v15 main_v52 (broadcastInDim S1x128 ![1] bcast_S128_S1x128_1 : (⟨S128, .f32⟩ : BufTy).Contents (Elt F) → (⟨S1x128, .f32⟩ : BufTy).Contents (Elt F)) ]

theorem part0_eq (c : Dev nD) : main_part0 (F := F) c = seq ops0 := rfl

theorem ops0_sub : (ops0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub ..⟩

theorem ops0_fresh : ∀ op ∈ (ops0 : List (HloOp τ sig (Elt F))), op.fresh = ∅ := by
  intro _ h; (repeat (cases h with | head => rfl | tail _ h => ?_)); exact nomatch h

/-- The parameter slices of layer 0, the neighbour sum of the input rows (gather by source, scatter-add by target) and its sum with the input. -/
abbrev opsA : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.unary main_arg2 main_v4 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v4 main_v5 rfl shapeCasts_S1x128x128_S128x128,
    StableHlo.unary main_arg3 main_v6 ((extractStridedSlice S1x128 ![0, 0] · slices_S2x128_S1x128_0_0) : (⟨S2x128, .f32⟩ : BufTy).Contents (Elt F) → (⟨S1x128, .f32⟩ : BufTy).Contents (Elt F)),
    StableHlo.reshape main_v6 main_v7 rfl shapeCasts_S1x128_S128,
    StableHlo.unary main_arg4 main_v8 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v8 main_v9 rfl shapeCasts_S1x128x128_S128x128,
    StableHlo.unary main_arg5 main_v10 ((extractStridedSlice S1x128 ![0, 0] · slices_S2x128_S1x128_0_0) : (⟨S2x128, .f32⟩ : BufTy).Contents (Elt F) → (⟨S1x128, .f32⟩ : BufTy).Contents (Elt F)),
    StableHlo.reshape main_v10 main_v11 rfl shapeCasts_S1x128_S128,
    StableHlo.unary main_arg6 main_v12 ((extractStridedSlice S1x128 ![0, 0] · slices_S2x128_S1x128_0_0) : (⟨S2x128, .f32⟩ : BufTy).Contents (Elt F) → (⟨S1x128, .f32⟩ : BufTy).Contents (Elt F)),
    StableHlo.reshape main_v12 main_v13 rfl shapeCasts_S1x128_S128,
    StableHlo.unary main_arg7 main_v14 ((extractStridedSlice S1x128 ![0, 0] · slices_S2x128_S1x128_0_0) : (⟨S2x128, .f32⟩ : BufTy).Contents (Elt F) → (⟨S1x128, .f32⟩ : BufTy).Contents (Elt F)),
    StableHlo.reshape main_v14 main_v15 rfl shapeCasts_S1x128_S128,
    StableHlo.nullary main_c (constantI S_ 32 0#32),
    StableHlo.unary main_c main_v16 (broadcastInDim S800000 ![] bcast_S_S800000 : (⟨S_, .i32⟩ : BufTy).Contents (Elt F) → (⟨S800000, .i32⟩ : BufTy).Contents (Elt F)),
    StableHlo.binary main_v1 main_v16 main_v17 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v18 (broadcastInDim S800000 ![] bcast_S_S800000 : (⟨S_, .i32⟩ : BufTy).Contents (Elt F) → (⟨S800000, .i32⟩ : BufTy).Contents (Elt F)),
    StableHlo.binary main_v1 main_v18 main_v19 (addi : (⟨S800000, .i32⟩ : BufTy).Contents (Elt F) → (⟨S800000, .i32⟩ : BufTy).Contents (Elt F) → (⟨S800000, .i32⟩ : BufTy).Contents (Elt F)),
    StableHlo.ternary main_v17 main_v19 main_v1 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v20 main_v21 (broadcastInDim S800000x1 ![0] bcast_S800000_S800000x1_0 : (⟨S800000, .i32⟩ : BufTy).Contents (Elt F) → (⟨S800000x1, .i32⟩ : BufTy).Contents (Elt F)),
    StableHlo.binary main_arg0 main_v21 main_v22 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v23 (broadcastInDim S50000x128 ![] bcast_S_S50000x128 : (⟨S_, .f32⟩ : BufTy).Contents (Elt F) → (⟨S50000x128, .f32⟩ : BufTy).Contents (Elt F)),
    StableHlo.unary main_v3 main_v24 (broadcastInDim S800000x1 ![0] bcast_S800000_S800000x1_0 : (⟨S800000, .i32⟩ : BufTy).Contents (Elt F) → (⟨S800000x1, .i32⟩ : BufTy).Contents (Elt F)),
    StableHlo.ternary main_v23 main_v24 main_v22 main_v25 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_arg0 main_v25 main_v26 (addf : (⟨S50000x128, .f32⟩ : BufTy).Contents (Elt F) → (⟨S50000x128, .f32⟩ : BufTy).Contents (Elt F) → (⟨S50000x128, .f32⟩ : BufTy).Contents (Elt F)) ]

/-- Layer 0's two affine maps with the rectifier between them, and the column means of the result. -/
abbrev opsB : List (HloOp τ sig (Elt F)) :=
  [ StableHlo.binary main_v26 main_v5 main_v27 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v7 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S50000x128 ![0, 1] bcast_S1x128_S50000x128_0_1 : (⟨S1x128, .f32⟩ : BufTy).Contents (Elt F) → (⟨S50000x128, .f32⟩ : BufTy).Contents (Elt F)),
    StableHlo.binary main_v27 main_v29 main_v30 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (StableHlo.TRef.of main_v30 : StableHlo.TRef sig ⟨S50000x128, .f32⟩) main_call0.v0 main_call0.v1 maximumf,
    StableHlo.binary main_v31 main_v9 main_v32 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v11 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S50000x128 ![0, 1] bcast_S1x128_S50000x128_0_1 : (⟨S1x128, .f32⟩ : BufTy).Contents (Elt F) → (⟨S50000x128, .f32⟩ : BufTy).Contents (Elt F)),
    StableHlo.binary main_v32 main_v34 main_v35 (addf : (⟨S50000x128, .f32⟩ : BufTy).Contents (Elt F) → (⟨S50000x128, .f32⟩ : BufTy).Contents (Elt F) → (⟨S50000x128, .f32⟩ : BufTy).Contents (Elt F)),
    StableHlo.nullary main_cst_1 (constant S_ .f32 0x00000000#32),
    StableHlo.binary main_v35 main_cst_1 main_v36 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v37 (broadcastInDim S128 ![] bcast_S_S128 : (⟨S_, .f32⟩ : BufTy).Contents (Elt F) → (⟨S128, .f32⟩ : BufTy).Contents (Elt F)),
    StableHlo.binary main_v36 main_v37 main_v38 (Host.divf : (⟨S128, .f32⟩ : BufTy).Contents (Elt F) → (⟨S128, .f32⟩ : BufTy).Contents (Elt F) → (⟨S128, .f32⟩ : BufTy).Contents (Elt F)) ]

/-- Layer 0's variance: the mean of the squared deviations from the column mean, kept where the divisor is positive. -/
abbrev opsC : List (HloOp τ sig (Elt F)) :=
  [ StableHlo.nullary main_c_3 (constantI S_ 32 0#32),
    StableHlo.TRef.nullary main_call1.cst (constant S_ .f32 0x00000000#32),
    StableHlo.TRef.binary (StableHlo.TRef.of main_v35 : StableHlo.TRef sig ⟨S50000x128, .f32⟩) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (StableHlo.TRef.of main_v35 : StableHlo.TRef sig ⟨S50000x128, .f32⟩) main_call1.v4 main_call1.v5 subf,
    StableHlo.TRef.binary main_call1.v5 main_call1.v5 main_call1.v6 mulf,
    StableHlo.TRef.unary (StableHlo.TRef.of main_c_3 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b) ]

/-- Layer 0's normalisation up to the scale: centred, times the inverse deviation, times the scale; and the shift as a row. -/
abbrev opsD : List (HloOp τ sig (Elt F)) :=
  [ StableHlo.unary main_v38 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S50000x128 ![0, 1] bcast_S1x128_S50000x128_0_1 : (⟨S1x128, .f32⟩ : BufTy).Contents (Elt F) → (⟨S50000x128, .f32⟩ : BufTy).Contents (Elt F)),
    StableHlo.binary main_v35 main_v41 main_v42 (subf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v43 (broadcastInDim S128 ![] bcast_S_S128 : (⟨S_, .f32⟩ : BufTy).Contents (Elt F) → (⟨S128, .f32⟩ : BufTy).Contents (Elt F)),
    StableHlo.binary main_v39 main_v43 main_v44 (addf : (⟨S128, .f32⟩ : BufTy).Contents (Elt F) → (⟨S128, .f32⟩ : BufTy).Contents (Elt F) → (⟨S128, .f32⟩ : BufTy).Contents (Elt F)),
    StableHlo.unary main_v44 main_v45 (Host.rsqrt : (⟨S128, .f32⟩ : BufTy).Contents (Elt F) → (⟨S128, .f32⟩ : BufTy).Contents (Elt F)),
    StableHlo.unary main_v45 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),
    StableHlo.binary main_v42 main_v47 main_v48 (mulf : (⟨S50000x128, .f32⟩ : BufTy).Contents (Elt F) → (⟨S50000x128, .f32⟩ : BufTy).Contents (Elt F) → (⟨S50000x128, .f32⟩ : BufTy).Contents (Elt F)),
    StableHlo.unary main_v13 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S50000x128 ![0, 1] bcast_S1x128_S50000x128_0_1 : (⟨S1x128, .f32⟩ : BufTy).Contents (Elt F) → (⟨S50000x128, .f32⟩ : BufTy).Contents (Elt F)),
    StableHlo.binary main_v48 main_v50 main_v51 (mulf : (⟨S50000x128, .f32⟩ : BufTy).Contents (Elt F) → (⟨S50000x128, .f32⟩ : BufTy).Contents (Elt F) → (⟨S50000x128, .f32⟩ : BufTy).Contents (Elt F)),
    StableHlo.unary main_v15 main_v52 (broadcastInDim S1x128 ![1] bcast_S128_S1x128_1 : (⟨S128, .f32⟩ : BufTy).Contents (Elt F) → (⟨S1x128, .f32⟩ : BufTy).Contents (Elt F)) ]

/-- The window is its stretches one after the other. -/
theorem ops0_split : (ops0 : List (HloOp τ sig (Elt F))) = opsA ++ (opsB ++ (opsC ++ (opsD))) := rfl

end Cert.Gin.RefRun

end
-- ==== Proof.RefTerm.lean ====
/-
  The reference program's value as one term of its arguments.

  The reference is a straight-line host program.  Every definition below is one stage of it, written with the
  very operations the printed program applies, in its order of operands: the neighbour sum (the edge list's two
  rows, the source index wrapped into range, the gathered rows scattered onto zeros at the target index), the
  two affine maps with the rectifier between them, the column mean, the variance as the outlined function
  computes it (it recomputes the mean as a row, subtracts, squares, sums, divides by the row count less zero, and
  guards the quotient by a comparison that always holds), the normalisation, and the stacking of the two layers.
-/
import proofs.«179664_j13365938225808_1_alg».proof.ReferenceIdeal
import proofs.«179664_j13365938225808_1_alg».proof.Proof.Gen.ReferenceIdeal
import proofs.«179664_j13365938225808_1_alg».proof.Proof.Spec

noncomputable section

namespace Cert.Gin.RefTerm

open Idealize.ShloMosaic Idealize.ShloMosaic.ValueIdx Cert.ReferenceIdeal Cert.ReferenceIdeal.Gen

/-! ## The neighbour sum -/

/-- The edges' source nodes: row 0 of the edge list. -/
def srcV (ei : IVec S2x800000 32) : IVec S800000 32 :=
  shapeCast S800000 (extractStridedSlice S1x800000 ![0, 0] ei slices_S2x800000_S1x800000_0_0)
    shapeCasts_S1x800000_S800000

/-- The edges' target nodes: row 1 of the edge list. -/
def dstV (ei : IVec S2x800000 32) : IVec S800000 32 :=
  shapeCast S800000 (extractStridedSlice S1x800000 ![1, 0] ei slices_S2x800000_S1x800000_1_0)
    shapeCasts_S1x800000_S800000

/-- The source nodes with a negative index wrapped by the number of rows. -/
def srcW (ei : IVec S2x800000 32) : IVec S800000 32 :=
  select (cmpi .slt (srcV ei) (broadcastInDim S800000 ![] bcast_S_S800000 (constantI S_ 32 0#32)))
    (addi (srcV ei) (broadcastInDim S800000 ![] bcast_S_S800000 (constantI S_ 32 50000#32)))
    (srcV ei)

/-- The rows of x at the edges' sources. -/
def gathered (x : FVec Ideal S50000x128 .f32) (ei : IVec S2x800000 32) : FVec Ideal S800000x128 .f32 :=
  Host.gather gather_S50000x128_S800000x1_S800000x128_1_0_n_n_0_1_1128 x
    (broadcastInDim S800000x1 ![0] bcast_S800000_S800000x1_0 (srcW ei))

/-- The neighbour sum: the gathered rows added onto zeros at the edges' targets. -/
def agg (x : FVec Ideal S50000x128 .f32) (ei : IVec S2x800000 32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 (dstV ei))
    (gathered x ei)

/-! ## The two affine maps -/

/-- A per-column vector as an array of 50000 equal rows, in the program's two steps. -/
def rowB (b : FVec Ideal S128 .f32) : FVec Ideal S50000x128 .f32 :=
  broadcastInDim S50000x128 ![0, 1] bcast_S1x128_S50000x128_0_1
    (broadcastInDim S1x128 ![1] bcast_S128_S1x128_1 b)

/-- The rectifier: the maximum with a splat zero. -/
def reluV (y : FVec Ideal S50000x128 .f32) : FVec Ideal S50000x128 .f32 :=
  maximumf y (broadcastInDim S50000x128 ![] bcast_S_S50000x128 (constant (F := Ideal) S_ .f32 0x00000000#32))

/-- An affine map y · w + b. -/
def dense (y : FVec Ideal S50000x128 .f32) (w : FVec Ideal S128x128 .f32) (b : FVec Ideal S128 .f32) :
    FVec Ideal S50000x128 .f32 :=
  addf (Host.dotGeneral (F := Ideal) dot_S50000x128_S128x128_S50000x128_1_0_0_1_n_n none y w) (rowB b)

/-- The layer before normalisation. -/
def zV (x : FVec Ideal S50000x128 .f32) (ei : IVec S2x800000 32) (w1 : FVec Ideal S128x128 .f32)
    (b1 : FVec Ideal S128 .f32) (w2 : FVec Ideal S128x128 .f32) (b2 : FVec Ideal S128 .f32) :
    FVec Ideal S50000x128 .f32 :=
  dense (reluV (dense (addf x (agg x ei)) w1 b1)) w2 b2

/-! ## Mean and variance -/

/-- The columns' sums over the rows, from zero. -/
def sumV (z : FVec Ideal S50000x128 .f32) : FVec Ideal S128 .f32 :=
  Host.reduceAdd (F := Ideal) z (constant (F := Ideal) S_ .f32 0x00000000#32) reducesTo_S50000x128_S128_d0 h_S_

/-- The columns' means. -/
def meanV (z : FVec Ideal S50000x128 .f32) : FVec Ideal S128 .f32 :=
  Host.divf (sumV z) (broadcastInDim S128 ![] bcast_S_S128 (constant (F := Ideal) S_ .f32 0x47435000#32))

/-- The columns' means as the variance recomputes them: one row. -/
def meanRow (z : FVec Ideal S50000x128 .f32) : FVec Ideal S1x128 .f32 :=
  Host.divf (broadcastInDim S1x128 ![1] bcast_S128_S1x128_1 (sumV z))
    (broadcastInDim S1x128 ![] bcast_S_S1x128 (constant (F := Ideal) S_ .f32 0x47435000#32))

/-- The deviations from the mean. -/
def devV (z : FVec Ideal S50000x128 .f32) : FVec Ideal S50000x128 .f32 :=
  subf z (broadcastInDim S50000x128 ![0, 1] bcast_S1x128_S50000x128_0_1 (meanRow z))

/-- The squared deviations. -/
def sqV (z : FVec Ideal S50000x128 .f32) : FVec Ideal S50000x128 .f32 :=
  mulf (devV z) (devV z)

/-- The variance's divisor: the row count less the converted integer zero. -/
def cntV : FVec Ideal S_ .f32 :=
  subf (constant (F := Ideal) S_ .f32 0x47435000#32) (sitofp (F := Ideal) .f32 (constantI S_ 32 0#32))

/-- The sum of the squared deviations over the divisor. -/
def quotV (z : FVec Ideal S50000x128 .f32) : FVec Ideal S128 .f32 :=
  Host.divf (sumV (sqV z)) (broadcastInDim S128 ![] bcast_S_S128 cntV)

/-- The variance: the quotient where the divisor is positive, a fixed word elsewhere. -/
def varV (z : FVec Ideal S50000x128 .f32) : FVec Ideal S128 .f32 :=
  select
    (broadcastInDim S128 ![] bcast_S_S128 (cmpf .ogt cntV (constant (F := Ideal) S_ .f32 0x00000000#32)))
    (quotV z)
    (broadcastInDim S128 ![] bcast_S_S128 (id (constant (F := Ideal) S_ .f32 0x7FC00000#32)))

/-! ## Normalisation -/

/-- The reciprocal square root of the variance plus ε. -/
def istdV (z : FVec Ideal S50000x128 .f32) : FVec Ideal S128 .f32 :=
  Host.rsqrt (addf (varV z) (broadcastInDim S128 ![] bcast_S_S128 (constant (F := Ideal) S_ .f32 0x3727C5AC#32)))

/-- Normalise, scale, shift, rectify. -/
def normV (z : FVec Ideal S50000x128 .f32) (g be : FVec Ideal S128 .f32) : FVec Ideal S50000x128 .f32 :=
  reluV (addf (mulf (mulf (subf z (rowB (meanV z))) (rowB (istdV z))) (rowB g)) (rowB be))

/-- One layer. -/
def layerV (x : FVec Ideal S50000x128 .f32) (ei : IVec S2x800000 32) (w1 : FVec Ideal S128x128 .f32)
    (b1 : FVec Ideal S128 .f32) (w2 : FVec Ideal S128x128 .f32) (b2 g be : FVec Ideal S128 .f32) :
    FVec Ideal S50000x128 .f32 :=
  normV (zV x ei w1 b1 w2 b2) g be

/-! ## The stacked parameters and the stacked result -/

/-- Layer 0's matrix. -/
def sliceW0 (W : FVec Ideal S2x128x128 .f32) : FVec Ideal S128x128 .f32 :=
  shapeCast S128x128 (extractStridedSlice S1x128x128 ![0, 0, 0] W slices_S2x128x128_S1x128x128_0_0_0)
    shapeCasts_S1x128x128_S128x128

/-- Layer 1's matrix. -/
def sliceW1 (W : FVec Ideal S2x128x128 .f32) : FVec Ideal S128x128 .f32 :=
  shapeCast S128x128 (extractStridedSlice S1x128x128 ![1, 0, 0] W slices_S2x128x128_S1x128x128_1_0_0)
    shapeCasts_S1x128x128_S128x128

/-- Layer 0's per-column vector. -/
def sliceV0 (b : FVec Ideal S2x128 .f32) : FVec Ideal S128 .f32 :=
  shapeCast S128 (extractStridedSlice S1x128 ![0, 0] b slices_S2x128_S1x128_0_0) shapeCasts_S1x128_S128

/-- Layer 1's per-column vector. -/
def sliceV1 (b : FVec Ideal S2x128 .f32) : FVec Ideal S128 .f32 :=
  shapeCast S128 (extractStridedSlice S1x128 ![1, 0] b slices_S2x128_S1x128_1_0) shapeCasts_S1x128_S128

/-- An array under a new leading axis of size one. -/
def lead1 (a : FVec Ideal S50000x128 .f32) : FVec Ideal S1x50000x128 .f32 :=
  broadcastInDim S1x50000x128 ![1, 2] bcast_S50000x128_S1x50000x128_1_2 a

/-- Two arrays stacked along a new leading axis. -/
def stackV (a b : FVec Ideal S50000x128 .f32) : FVec Ideal S2x50000x128 .f32 :=
  concatenate S2x50000x128 0 [⟨S1x50000x128, lead1 a⟩, ⟨S1x50000x128, lead1 b⟩]
    concatenates_S1x50000x128_S1x50000x128_S2x50000x128_d0

/-- Layer 0 of the stacked parameters. -/
def layer0 (h : FVec Ideal S50000x128 .f32) (ei : IVec S2x800000 32) (W1 : FVec Ideal S2x128x128 .f32)
    (b1 : FVec Ideal S2x128 .f32) (W2 : FVec Ideal S2x128x128 .f32) (b2 g be : FVec Ideal S2x128 .f32) :
    FVec Ideal S50000x128 .f32 :=
  layerV h ei (sliceW0 W1) (sliceV0 b1) (sliceW0 W2) (sliceV0 b2) (sliceV0 g) (sliceV0 be)

/-- Layer 1 of the stacked parameters. -/
def layer1 (h : FVec Ideal S50000x128 .f32) (ei : IVec S2x800000 32) (W1 : FVec Ideal S2x128x128 .f32)
    (b1 : FVec Ideal S2x128 .f32) (W2 : FVec Ideal S2x128x128 .f32) (b2 g be : FVec Ideal S2x128 .f32) :
    FVec Ideal S50000x128 .f32 :=
  layerV h ei (sliceW1 W1) (sliceV1 b1) (sliceW1 W2) (sliceV1 b2) (sliceV1 g) (sliceV1 be)

/-- The reference's result: the two layers' outputs stacked, the second layer fed the first one's output. -/
def net (h : FVec Ideal S50000x128 .f32) (ei : IVec S2x800000 32) (W1 : FVec Ideal S2x128x128 .f32)
    (b1 : FVec Ideal S2x128 .f32) (W2 : FVec Ideal S2x128x128 .f32) (b2 g be : FVec Ideal S2x128 .f32) :
    FVec Ideal S2x50000x128 .f32 :=
  stackV (layer0 h ei W1 b1 W2 b2 g be) (layer1 (layer0 h ei W1 b1 W2 b2 g be) ei W1 b1 W2 b2 g be)

end Cert.Gin.RefTerm

end
-- ==== Proof.LibAfterAppend.lean ====
/-
  Host operations run one list after the other: the buffer contents after `l₁ ++ l₂` are the contents after `l₂` from
  the contents after `l₁` (`after_append`), so a long stretch of host operations can be read in pieces cut at any
  position (`after_take_drop`) — each piece's result stated once over an arbitrary valuation, the pieces composed by
  rewriting. For any topology, signature and value type.
-/
import Idealize.ShloMosaic.Lib.StableHlo.Run

noncomputable section

namespace Cert.LibAfterAppend

open Idealize.ShloMosaic Idealize.ShloMosaic.StableHlo

variable {τ : Topo} {sig : RefSig} {Val : EltTy → Type}

/-- The contents after two lists of operations run in turn. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A list of operations cut at position `n`. -/
theorem after_take_drop (n : Nat) (l : List (HloOp τ sig Val)) (V : Valuation τ sig Val) :
    after l V = after (l.drop n) (after (l.take n) V) := by
  rw [← after_append, List.take_append_drop]

end Cert.LibAfterAppend

end
-- ==== Proof.RefRunVal0.lean ====
/-
  What the first window of the reference program leaves in the buffers the later windows read, as terms of the
  contents before it: stretch by stretch over an arbitrary valuation, then composed.
-/
import proofs.«179664_j13365938225808_1_alg».proof.Proof.RefRun0
import proofs.«179664_j13365938225808_1_alg».proof.Proof.RefTerm
import proofs.«179664_j13365938225808_1_alg».proof.Proof.LibAfterAppend

noncomputable section

namespace Cert.Gin.RefRun

open Cert.ReferenceIdeal Cert.ReferenceIdeal.Gen Idealize.ShloMosaic Idealize.ShloMosaic.TcCoe Idealize.SL.Sem Idealize.ShloMosaic.StableHlo Cert.Gin.RefTerm Cert.LibAfterAppend

/-! ## The first stretch: parameter slices, the neighbour sum -/

theorem A_v1 (W : Valuation τ sig (Elt Ideal)) :
    after (opsA (F := Ideal)) W (main_v1 : DevRef τ sig) = srcV (W (main_arg1 : DevRef τ sig)) := by
  after_results_simp <;> rfl

theorem A_v3 (W : Valuation τ sig (Elt Ideal)) :
    after (opsA (F := Ideal)) W (main_v3 : DevRef τ sig) = dstV (W (main_arg1 : DevRef τ sig)) := by
  after_results_simp <;> rfl

theorem A_v5 (W : Valuation τ sig (Elt Ideal)) :
    after (opsA (F := Ideal)) W (main_v5 : DevRef τ sig) = sliceW0 (W (main_arg2 : DevRef τ sig)) := by
  after_results_simp <;> rfl

theorem A_v7 (W : Valuation τ sig (Elt Ideal)) :
    after (opsA (F := Ideal)) W (main_v7 : DevRef τ sig) = sliceV0 (W (main_arg3 : DevRef τ sig)) := by
  after_results_simp <;> rfl

theorem A_v9 (W : Valuation τ sig (Elt Ideal)) :
    after (opsA (F := Ideal)) W (main_v9 : DevRef τ sig) = sliceW0 (W (main_arg4 : DevRef τ sig)) := by
  after_results_simp <;> rfl

theorem A_v11 (W : Valuation τ sig (Elt Ideal)) :
    after (opsA (F := Ideal)) W (main_v11 : DevRef τ sig) = sliceV0 (W (main_arg5 : DevRef τ sig)) := by
  after_results_simp <;> rfl

theorem A_v13 (W : Valuation τ sig (Elt Ideal)) :
    after (opsA (F := Ideal)) W (main_v13 : DevRef τ sig) = sliceV0 (W (main_arg6 : DevRef τ sig)) := by
  after_results_simp <;> rfl

theorem A_v15 (W : Valuation τ sig (Elt Ideal)) :
    after (opsA (F := Ideal)) W (main_v15 : DevRef τ sig) = sliceV0 (W (main_arg7 : DevRef τ sig)) := by
  after_results_simp <;> rfl

theorem A_v26 (W : Valuation τ sig (Elt Ideal)) :
    after (opsA (F := Ideal)) W (main_v26 : DevRef τ sig) = addf (W (main_arg0 : DevRef τ sig)) (agg (W (main_arg0 : DevRef τ sig)) (W (main_arg1 : DevRef τ sig))) := by
  after_results_simp <;> rfl

/-! ## The second stretch: the two affine maps, the column means -/

theorem B_v35 (W : Valuation τ sig (Elt Ideal)) :
    after (opsB (F := Ideal)) W (main_v35 : DevRef τ sig) = dense (reluV (dense (W (main_v26 : DevRef τ sig)) (W (main_v5 : DevRef τ sig)) (W (main_v7 : DevRef τ sig)))) (W (main_v9 : DevRef τ sig)) (W (main_v11 : DevRef τ sig)) := by
  after_results_simp <;> rfl

theorem B_v38 (W : Valuation τ sig (Elt Ideal)) :
    after (opsB (F := Ideal)) W (main_v38 : DevRef τ sig) = meanV (dense (reluV (dense (W (main_v26 : DevRef τ sig)) (W (main_v5 : DevRef τ sig)) (W (main_v7 : DevRef τ sig)))) (W (main_v9 : DevRef τ sig)) (W (main_v11 : DevRef τ sig))) := by
  after_results_simp <;> rfl

theorem B_v1 (W : Valuation τ sig (Elt Ideal)) :
    after (opsB (F := Ideal)) W (main_v1 : DevRef τ sig) = (W (main_v1 : DevRef τ sig)) := by
  after_results_simp <;> rfl

theorem B_v3 (W : Valuation τ sig (Elt Ideal)) :
    after (opsB (F := Ideal)) W (main_v3 : DevRef τ sig) = (W (main_v3 : DevRef τ sig)) := by
  after_results_simp <;> rfl

theorem B_v13 (W : Valuation τ sig (Elt Ideal)) :
    after (opsB (F := Ideal)) W (main_v13 : DevRef τ sig) = (W (main_v13 : DevRef τ sig)) := by
  after_results_simp <;> rfl

theorem B_v15 (W : Valuation τ sig (Elt Ideal)) :
    after (opsB (F := Ideal)) W (main_v15 : DevRef τ sig) = (W (main_v15 : DevRef τ sig)) := by
  after_results_simp <;> rfl

/-! ## The third stretch: the variance -/

theorem C_v39 (W : Valuation τ sig (Elt Ideal)) :
    after (opsC (F := Ideal)) W (main_v39 : DevRef τ sig) = varV (W (main_v35 : DevRef τ sig)) := by
  after_results_simp <;> rfl

theorem C_v1 (W : Valuation τ sig (Elt Ideal)) :
    after (opsC (F := Ideal)) W (main_v1 : DevRef τ sig) = (W (main_v1 : DevRef τ sig)) := by
  after_results_simp <;> rfl

theorem C_v3 (W : Valuation τ sig (Elt Ideal)) :
    after (opsC (F := Ideal)) W (main_v3 : DevRef τ sig) = (W (main_v3 : DevRef τ sig)) := by
  after_results_simp <;> rfl

theorem C_v13 (W : Valuation τ sig (Elt Ideal)) :
    after (opsC (F := Ideal)) W (main_v13 : DevRef τ sig) = (W (main_v13 : DevRef τ sig)) := by
  after_results_simp <;> rfl

theorem C_v15 (W : Valuation τ sig (Elt Ideal)) :
    after (opsC (F := Ideal)) W (main_v15 : DevRef τ sig) = (W (main_v15 : DevRef τ sig)) := by
  after_results_simp <;> rfl

theorem C_v35 (W : Valuation τ sig (Elt Ideal)) :
    after (opsC (F := Ideal)) W (main_v35 : DevRef τ sig) = (W (main_v35 : DevRef τ sig)) := by
  after_results_simp <;> rfl

theorem C_v38 (W : Valuation τ sig (Elt Ideal)) :
    after (opsC (F := Ideal)) W (main_v38 : DevRef τ sig) = (W (main_v38 : DevRef τ sig)) := by
  after_results_simp <;> rfl

/-! ## The fourth stretch: centred, times the inverse deviation, times the scale -/

theorem D_v51 (W : Valuation τ sig (Elt Ideal)) :
    after (opsD (F := Ideal)) W (main_v51 : DevRef τ sig) = mulf (mulf (subf (W (main_v35 : DevRef τ sig)) (rowB (W (main_v38 : DevRef τ sig)))) (rowB (Host.rsqrt (addf (W (main_v39 : DevRef τ sig)) (broadcastInDim S128 ![] bcast_S_S128 (constant (F := Ideal) S_ .f32 0x3727C5AC#32)))))) (rowB (W (main_v13 : DevRef τ sig))) := by
  after_results_simp <;> rfl

theorem D_v52 (W : Valuation τ sig (Elt Ideal)) :
    after (opsD (F := Ideal)) W (main_v52 : DevRef τ sig) = broadcastInDim S1x128 ![1] bcast_S128_S1x128_1 (W (main_v15 : DevRef τ sig)) := by
  after_results_simp <;> rfl

theorem D_v1 (W : Valuation τ sig (Elt Ideal)) :
    after (opsD (F := Ideal)) W (main_v1 : DevRef τ sig) = (W (main_v1 : DevRef τ sig)) := by
  after_results_simp <;> rfl

theorem D_v3 (W : Valuation τ sig (Elt Ideal)) :
    after (opsD (F := Ideal)) W (main_v3 : DevRef τ sig) = (W (main_v3 : DevRef τ sig)) := by
  after_results_simp <;> rfl

/-! ## The window -/

theorem w0_v1 (W : Valuation τ sig (Elt Ideal)) :
    after (ops0 (F := Ideal)) W (main_v1 : DevRef τ sig) = srcV (W (main_arg1 : DevRef τ sig)) := by
  rw [ops0_split, after_append, after_append, after_append, D_v1, C_v1, B_v1, A_v1]

theorem w0_v3 (W : Valuation τ sig (Elt Ideal)) :
    after (ops0 (F := Ideal)) W (main_v3 : DevRef τ sig) = dstV (W (main_arg1 : DevRef τ sig)) := by
  rw [ops0_split, after_append, after_append, after_append, D_v3, C_v3, B_v3, A_v3]

theorem w0_v52 (W : Valuation τ sig (Elt Ideal)) :
    after (ops0 (F := Ideal)) W (main_v52 : DevRef τ sig) = broadcastInDim S1x128 ![1] bcast_S128_S1x128_1 (sliceV0 (W (main_arg7 : DevRef τ sig))) := by
  rw [ops0_split, after_append, after_append, after_append, D_v52, C_v15, B_v15, A_v15]

theorem w0_v51 (W : Valuation τ sig (Elt Ideal)) :
    after (ops0 (F := Ideal)) W (main_v51 : DevRef τ sig) = mulf (mulf (subf (zV (W (main_arg0 : DevRef τ sig)) (W (main_arg1 : DevRef τ sig)) (sliceW0 (W (main_arg2 : DevRef τ sig))) (sliceV0 (W (main_arg3 : DevRef τ sig))) (sliceW0 (W (main_arg4 : DevRef τ sig))) (sliceV0 (W (main_arg5 : DevRef τ sig)))) (rowB (meanV (zV (W (main_arg0 : DevRef τ sig)) (W (main_arg1 : DevRef τ sig)) (sliceW0 (W (main_arg2 : DevRef τ sig))) (sliceV0 (W (main_arg3 : DevRef τ sig))) (sliceW0 (W (main_arg4 : DevRef τ sig))) (sliceV0 (W (main_arg5 : DevRef τ sig))))))) (rowB (istdV (zV (W (main_arg0 : DevRef τ sig)) (W (main_arg1 : DevRef τ sig)) (sliceW0 (W (main_arg2 : DevRef τ sig))) (sliceV0 (W (main_arg3 : DevRef τ sig))) (sliceW0 (W (main_arg4 : DevRef τ sig))) (sliceV0 (W (main_arg5 : DevRef τ sig))))))) (rowB (sliceV0 (W (main_arg6 : DevRef τ sig)))) := by
  rw [ops0_split, after_append, after_append, after_append, D_v51, C_v39, C_v35, C_v38, C_v13, B_v35, B_v38, B_v13, A_v26, A_v5, A_v7, A_v9, A_v11, A_v13]
  rfl

theorem w0_arg0 (W : Valuation τ sig (Elt Ideal)) :
    after (ops0 (F := Ideal)) W (main_arg0 : DevRef τ sig) = (W (main_arg0 : DevRef τ sig)) := by
  after_results_simp <;> rfl

theorem w0_arg1 (W : Valuation τ sig (Elt Ideal)) :
    after (ops0 (F := Ideal)) W (main_arg1 : DevRef τ sig) = (W (main_arg1 : DevRef τ sig)) := by
  after_results_simp <;> rfl

theorem w0_arg2 (W : Valuation τ sig (Elt Ideal)) :
    after (ops0 (F := Ideal)) W (main_arg2 : DevRef τ sig) = (W (main_arg2 : DevRef τ sig)) := by
  after_results_simp <;> rfl

theorem w0_arg3 (W : Valuation τ sig (Elt Ideal)) :
    after (ops0 (F := Ideal)) W (main_arg3 : DevRef τ sig) = (W (main_arg3 : DevRef τ sig)) := by
  after_results_simp <;> rfl

theorem w0_arg4 (W : Valuation τ sig (Elt Ideal)) :
    after (ops0 (F := Ideal)) W (main_arg4 : DevRef τ sig) = (W (main_arg4 : DevRef τ sig)) := by
  after_results_simp <;> rfl

theorem w0_arg5 (W : Valuation τ sig (Elt Ideal)) :
    after (ops0 (F := Ideal)) W (main_arg5 : DevRef τ sig) = (W (main_arg5 : DevRef τ sig)) := by
  after_results_simp <;> rfl

theorem w0_arg6 (W : Valuation τ sig (Elt Ideal)) :
    after (ops0 (F := Ideal)) W (main_arg6 : DevRef τ sig) = (W (main_arg6 : DevRef τ sig)) := by
  after_results_simp <;> rfl

theorem w0_arg7 (W : Valuation τ sig (Elt Ideal)) :
    after (ops0 (F := Ideal)) W (main_arg7 : DevRef τ sig) = (W (main_arg7 : DevRef τ sig)) := by
  after_results_simp <;> rfl

end Cert.Gin.RefRun

end
-- ==== Proof.RefRun1.lean ====
/-
  The second window of the reference program as a list of host operations, cut into four stretches: the end of
  layer 0 and layer 1 up to the product with the scale of its normalisation.
-/
import proofs.«179664_j13365938225808_1_alg».proof.Proof.Gen.ReferenceIdeal
import Idealize.ShloMosaic.Lib.StableHlo.Run
import proofs.«179664_j13365938225808_1_alg».proof.Proof.RefRunAux

noncomputable section

namespace Cert.Gin.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 85 operations in order, each called function's operations listed at its call over that call's buffers. -/
abbrev ops1 : List (HloOp τ sig (Elt F)) :=
  [ StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v51 main_v53 main_v54 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (StableHlo.TRef.of main_v54 : StableHlo.TRef sig ⟨S50000x128, .f32⟩) main_call2.v0 main_call2.v1 maximumf,
    StableHlo.unary main_arg2 main_v56 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v56 main_v57 rfl shapeCasts_S1x128x128_S128x128,
    StableHlo.unary main_arg3 main_v58 ((extractStridedSlice S1x128 ![1, 0] · slices_S2x128_S1x128_1_0) : (⟨S2x128, .f32⟩ : BufTy).Contents (Elt F) → (⟨S1x128, .f32⟩ : BufTy).Contents (Elt F)),
    StableHlo.reshape main_v58 main_v59 rfl shapeCasts_S1x128_S128,
    StableHlo.unary main_arg4 main_v60 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v60 main_v61 rfl shapeCasts_S1x128x128_S128x128,
    StableHlo.unary main_arg5 main_v62 ((extractStridedSlice S1x128 ![1, 0] · slices_S2x128_S1x128_1_0) : (⟨S2x128, .f32⟩ : BufTy).Contents (Elt F) → (⟨S1x128, .f32⟩ : BufTy).Contents (Elt F)),
    StableHlo.reshape main_v62 main_v63 rfl shapeCasts_S1x128_S128,
    StableHlo.unary main_arg6 main_v64 ((extractStridedSlice S1x128 ![1, 0] · slices_S2x128_S1x128_1_0) : (⟨S2x128, .f32⟩ : BufTy).Contents (Elt F) → (⟨S1x128, .f32⟩ : BufTy).Contents (Elt F)),
    StableHlo.reshape main_v64 main_v65 rfl shapeCasts_S1x128_S128,
    StableHlo.unary main_arg7 main_v66 ((extractStridedSlice S1x128 ![1, 0] · slices_S2x128_S1x128_1_0) : (⟨S2x128, .f32⟩ : BufTy).Contents (Elt F) → (⟨S1x128, .f32⟩ : BufTy).Contents (Elt F)),
    StableHlo.reshape main_v66 main_v67 rfl shapeCasts_S1x128_S128,
    StableHlo.nullary main_c_5 (constantI S_ 32 0#32),
    StableHlo.unary main_c_5 main_v68 (broadcastInDim S800000 ![] bcast_S_S800000 : (⟨S_, .i32⟩ : BufTy).Contents (Elt F) → (⟨S800000, .i32⟩ : BufTy).Contents (Elt F)),
    StableHlo.binary main_v1 main_v68 main_v69 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v70 (broadcastInDim S800000 ![] bcast_S_S800000 : (⟨S_, .i32⟩ : BufTy).Contents (Elt F) → (⟨S800000, .i32⟩ : BufTy).Contents (Elt F)),
    StableHlo.binary main_v1 main_v70 main_v71 (addi : (⟨S800000, .i32⟩ : BufTy).Contents (Elt F) → (⟨S800000, .i32⟩ : BufTy).Contents (Elt F) → (⟨S800000, .i32⟩ : BufTy).Contents (Elt F)),
    StableHlo.ternary main_v69 main_v71 main_v1 main_v72 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v72 main_v73 (broadcastInDim S800000x1 ![0] bcast_S800000_S800000x1_0 : (⟨S800000, .i32⟩ : BufTy).Contents (Elt F) → (⟨S800000x1, .i32⟩ : BufTy).Contents (Elt F)),
    StableHlo.binary main_v55 main_v73 main_v74 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_7 (constant S_ .f32 0x00000000#32),
    StableHlo.unary main_cst_7 main_v75 (broadcastInDim S50000x128 ![] bcast_S_S50000x128 : (⟨S_, .f32⟩ : BufTy).Contents (Elt F) → (⟨S50000x128, .f32⟩ : BufTy).Contents (Elt F)),
    StableHlo.unary main_v3 main_v76 (broadcastInDim S800000x1 ![0] bcast_S800000_S800000x1_0 : (⟨S800000, .i32⟩ : BufTy).Contents (Elt F) → (⟨S800000x1, .i32⟩ : BufTy).Contents (Elt F)),
    StableHlo.ternary main_v75 main_v76 main_v74 main_v77 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v55 main_v77 main_v78 (addf : (⟨S50000x128, .f32⟩ : BufTy).Contents (Elt F) → (⟨S50000x128, .f32⟩ : BufTy).Contents (Elt F) → (⟨S50000x128, .f32⟩ : BufTy).Contents (Elt F)),
    StableHlo.binary main_v78 main_v57 main_v79 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v59 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S50000x128 ![0, 1] bcast_S1x128_S50000x128_0_1 : (⟨S1x128, .f32⟩ : BufTy).Contents (Elt F) → (⟨S50000x128, .f32⟩ : BufTy).Contents (Elt F)),
    StableHlo.binary main_v79 main_v81 main_v82 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (StableHlo.TRef.of main_v82 : StableHlo.TRef sig ⟨S50000x128, .f32⟩) main_call3.v0 main_call3.v1 maximumf,
    StableHlo.binary main_v83 main_v61 main_v84 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v63 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S50000x128 ![0, 1] bcast_S1x128_S50000x128_0_1 : (⟨S1x128, .f32⟩ : BufTy).Contents (Elt F) → (⟨S50000x128, .f32⟩ : BufTy).Contents (Elt F)),
    StableHlo.binary main_v84 main_v86 main_v87 (addf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x00000000#32),
    StableHlo.binary main_v87 main_cst_8 main_v88 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_9 (constant S_ .f32 0x47435000#32),
    StableHlo.unary main_cst_9 main_v89 (broadcastInDim S128 ![] bcast_S_S128 : (⟨S_, .f32⟩ : BufTy).Contents (Elt F) → (⟨S128, .f32⟩ : BufTy).Contents (Elt F)),
    StableHlo.binary main_v88 main_v89 main_v90 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call4.cst (constant S_ .f32 0x00000000#32),
    StableHlo.TRef.binary (StableHlo.TRef.of main_v87 : StableHlo.TRef sig ⟨S50000x128, .f32⟩) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (StableHlo.TRef.of main_v87 : StableHlo.TRef sig ⟨S50000x128, .f32⟩) main_call4.v4 main_call4.v5 subf,
    StableHlo.TRef.binary main_call4.v5 main_call4.v5 main_call4.v6 mulf,
    StableHlo.TRef.unary (StableHlo.TRef.of main_c_10 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v90 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S50000x128 ![0, 1] bcast_S1x128_S50000x128_0_1 : (⟨S1x128, .f32⟩ : BufTy).Contents (Elt F) → (⟨S50000x128, .f32⟩ : BufTy).Contents (Elt F)),
    StableHlo.binary main_v87 main_v93 main_v94 (subf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3727C5AC#32),
    StableHlo.unary main_cst_11 main_v95 (broadcastInDim S128 ![] bcast_S_S128 : (⟨S_, .f32⟩ : BufTy).Contents (Elt F) → (⟨S128, .f32⟩ : BufTy).Contents (Elt F)),
    StableHlo.binary main_v91 main_v95 main_v96 (addf : (⟨S128, .f32⟩ : BufTy).Contents (Elt F) → (⟨S128, .f32⟩ : BufTy).Contents (Elt F) → (⟨S128, .f32⟩ : BufTy).Contents (Elt F)),
    StableHlo.unary main_v96 main_v97 (Host.rsqrt : (⟨S128, .f32⟩ : BufTy).Contents (Elt F) → (⟨S128, .f32⟩ : BufTy).Contents (Elt F)),
    StableHlo.unary main_v97 main_v98 (broadcastInDim S1x128 ![1] bcast_S128_S1x128_1 : (⟨S128, .f32⟩ : BufTy).Contents (Elt F) → (⟨S1x128, .f32⟩ : BufTy).Contents (Elt F)),
    StableHlo.unary main_v98 main_v99 (broadcastInDim S50000x128 ![0, 1] bcast_S1x128_S50000x128_0_1 : (⟨S1x128, .f32⟩ : BufTy).Contents (Elt F) → (⟨S50000x128, .f32⟩ : BufTy).Contents (Elt F)),
    StableHlo.binary main_v94 main_v99 main_v100 (mulf : (⟨S50000x128, .f32⟩ : BufTy).Contents (Elt F) → (⟨S50000x128, .f32⟩ : BufTy).Contents (Elt F) → (⟨S50000x128, .f32⟩ : BufTy).Contents (Elt F)),
    StableHlo.unary main_v65 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S50000x128 ![0, 1] bcast_S1x128_S50000x128_0_1 : (⟨S1x128, .f32⟩ : BufTy).Contents (Elt F) → (⟨S50000x128, .f32⟩ : BufTy).Contents (Elt F)),
    StableHlo.binary main_v100 main_v102 main_v103 (mulf : (⟨S50000x128, .f32⟩ : BufTy).Contents (Elt F) → (⟨S50000x128, .f32⟩ : BufTy).Contents (Elt F) → (⟨S50000x128, .f32⟩ : BufTy).Contents (Elt F)),
    StableHlo.unary main_v67 main_v104 (broadcastInDim S1x128 ![1] bcast_S128_S1x128_1 : (⟨S128, .f32⟩ : BufTy).Contents (Elt F) → (⟨S1x128, .f32⟩ : BufTy).Contents (Elt F)),
    StableHlo.unary main_v104 main_v105 (broadcastInDim S50000x128 ![0, 1] bcast_S1x128_S50000x128_0_1 : (⟨S1x128, .f32⟩ : BufTy).Contents (Elt F) → (⟨S50000x128, .f32⟩ : BufTy).Contents (Elt F)) ]

theorem part1_eq (c : Dev nD) : main_part1 (F := F) c = seq ops1 := rfl

theorem ops1_sub : (ops1 : List (HloOp τ sig (Elt F))).Forall fun op => op.bufs ⊆ tcRefs τ sig :=
  ⟨unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub ..⟩

theorem ops1_fresh : ∀ op ∈ (ops1 : List (HloOp τ sig (Elt F))), op.fresh = ∅ := by
  intro _ h; (repeat (cases h with | head => rfl | tail _ h => ?_)); exact nomatch h

/-- Layer 0's shift and rectifier; the parameter slices of layer 1; the neighbour sum of layer 0's output and its sum with that output. -/
abbrev opsE : List (HloOp τ sig (Elt F)) :=
  [ StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v51 main_v53 main_v54 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (StableHlo.TRef.of main_v54 : StableHlo.TRef sig ⟨S50000x128, .f32⟩) main_call2.v0 main_call2.v1 maximumf,
    StableHlo.unary main_arg2 main_v56 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v56 main_v57 rfl shapeCasts_S1x128x128_S128x128,
    StableHlo.unary main_arg3 main_v58 ((extractStridedSlice S1x128 ![1, 0] · slices_S2x128_S1x128_1_0) : (⟨S2x128, .f32⟩ : BufTy).Contents (Elt F) → (⟨S1x128, .f32⟩ : BufTy).Contents (Elt F)),
    StableHlo.reshape main_v58 main_v59 rfl shapeCasts_S1x128_S128,
    StableHlo.unary main_arg4 main_v60 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v60 main_v61 rfl shapeCasts_S1x128x128_S128x128,
    StableHlo.unary main_arg5 main_v62 ((extractStridedSlice S1x128 ![1, 0] · slices_S2x128_S1x128_1_0) : (⟨S2x128, .f32⟩ : BufTy).Contents (Elt F) → (⟨S1x128, .f32⟩ : BufTy).Contents (Elt F)),
    StableHlo.reshape main_v62 main_v63 rfl shapeCasts_S1x128_S128,
    StableHlo.unary main_arg6 main_v64 ((extractStridedSlice S1x128 ![1, 0] · slices_S2x128_S1x128_1_0) : (⟨S2x128, .f32⟩ : BufTy).Contents (Elt F) → (⟨S1x128, .f32⟩ : BufTy).Contents (Elt F)),
    StableHlo.reshape main_v64 main_v65 rfl shapeCasts_S1x128_S128,
    StableHlo.unary main_arg7 main_v66 ((extractStridedSlice S1x128 ![1, 0] · slices_S2x128_S1x128_1_0) : (⟨S2x128, .f32⟩ : BufTy).Contents (Elt F) → (⟨S1x128, .f32⟩ : BufTy).Contents (Elt F)),
    StableHlo.reshape main_v66 main_v67 rfl shapeCasts_S1x128_S128,
    StableHlo.nullary main_c_5 (constantI S_ 32 0#32),
    StableHlo.unary main_c_5 main_v68 (broadcastInDim S800000 ![] bcast_S_S800000 : (⟨S_, .i32⟩ : BufTy).Contents (Elt F) → (⟨S800000, .i32⟩ : BufTy).Contents (Elt F)),
    StableHlo.binary main_v1 main_v68 main_v69 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v70 (broadcastInDim S800000 ![] bcast_S_S800000 : (⟨S_, .i32⟩ : BufTy).Contents (Elt F) → (⟨S800000, .i32⟩ : BufTy).Contents (Elt F)),
    StableHlo.binary main_v1 main_v70 main_v71 (addi : (⟨S800000, .i32⟩ : BufTy).Contents (Elt F) → (⟨S800000, .i32⟩ : BufTy).Contents (Elt F) → (⟨S800000, .i32⟩ : BufTy).Contents (Elt F)),
    StableHlo.ternary main_v69 main_v71 main_v1 main_v72 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v72 main_v73 (broadcastInDim S800000x1 ![0] bcast_S800000_S800000x1_0 : (⟨S800000, .i32⟩ : BufTy).Contents (Elt F) → (⟨S800000x1, .i32⟩ : BufTy).Contents (Elt F)),
    StableHlo.binary main_v55 main_v73 main_v74 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_7 (constant S_ .f32 0x00000000#32),
    StableHlo.unary main_cst_7 main_v75 (broadcastInDim S50000x128 ![] bcast_S_S50000x128 : (⟨S_, .f32⟩ : BufTy).Contents (Elt F) → (⟨S50000x128, .f32⟩ : BufTy).Contents (Elt F)),
    StableHlo.unary main_v3 main_v76 (broadcastInDim S800000x1 ![0] bcast_S800000_S800000x1_0 : (⟨S800000, .i32⟩ : BufTy).Contents (Elt F) → (⟨S800000x1, .i32⟩ : BufTy).Contents (Elt F)),
    StableHlo.ternary main_v75 main_v76 main_v74 main_v77 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v55 main_v77 main_v78 (addf : (⟨S50000x128, .f32⟩ : BufTy).Contents (Elt F) → (⟨S50000x128, .f32⟩ : BufTy).Contents (Elt F) → (⟨S50000x128, .f32⟩ : BufTy).Contents (Elt F)) ]

/-- Layer 1's two affine maps with the rectifier between them, and the column means of the result. -/
abbrev opsF : List (HloOp τ sig (Elt F)) :=
  [ StableHlo.binary main_v78 main_v57 main_v79 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v59 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S50000x128 ![0, 1] bcast_S1x128_S50000x128_0_1 : (⟨S1x128, .f32⟩ : BufTy).Contents (Elt F) → (⟨S50000x128, .f32⟩ : BufTy).Contents (Elt F)),
    StableHlo.binary main_v79 main_v81 main_v82 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (StableHlo.TRef.of main_v82 : StableHlo.TRef sig ⟨S50000x128, .f32⟩) main_call3.v0 main_call3.v1 maximumf,
    StableHlo.binary main_v83 main_v61 main_v84 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v63 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S50000x128 ![0, 1] bcast_S1x128_S50000x128_0_1 : (⟨S1x128, .f32⟩ : BufTy).Contents (Elt F) → (⟨S50000x128, .f32⟩ : BufTy).Contents (Elt F)),
    StableHlo.binary main_v84 main_v86 main_v87 (addf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x00000000#32),
    StableHlo.binary main_v87 main_cst_8 main_v88 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_9 (constant S_ .f32 0x47435000#32),
    StableHlo.unary main_cst_9 main_v89 (broadcastInDim S128 ![] bcast_S_S128 : (⟨S_, .f32⟩ : BufTy).Contents (Elt F) → (⟨S128, .f32⟩ : BufTy).Contents (Elt F)),
    StableHlo.binary main_v88 main_v89 main_v90 (Host.divf : (⟨S128, .f32⟩ : BufTy).Contents (Elt F) → (⟨S128, .f32⟩ : BufTy).Contents (Elt F) → (⟨S128, .f32⟩ : BufTy).Contents (Elt F)) ]

/-- Layer 1's variance: the mean of the squared deviations from the column mean, kept where the divisor is positive. -/
abbrev opsG : List (HloOp τ sig (Elt F)) :=
  [ StableHlo.nullary main_c_10 (constantI S_ 32 0#32),
    StableHlo.TRef.nullary main_call4.cst (constant S_ .f32 0x00000000#32),
    StableHlo.TRef.binary (StableHlo.TRef.of main_v87 : StableHlo.TRef sig ⟨S50000x128, .f32⟩) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (StableHlo.TRef.of main_v87 : StableHlo.TRef sig ⟨S50000x128, .f32⟩) main_call4.v4 main_call4.v5 subf,
    StableHlo.TRef.binary main_call4.v5 main_call4.v5 main_call4.v6 mulf,
    StableHlo.TRef.unary (StableHlo.TRef.of main_c_10 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b) ]

/-- Layer 1's normalisation up to the scale, and the shift broadcast over the rows. -/
abbrev opsH : List (HloOp τ sig (Elt F)) :=
  [ StableHlo.unary main_v90 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S50000x128 ![0, 1] bcast_S1x128_S50000x128_0_1 : (⟨S1x128, .f32⟩ : BufTy).Contents (Elt F) → (⟨S50000x128, .f32⟩ : BufTy).Contents (Elt F)),
    StableHlo.binary main_v87 main_v93 main_v94 (subf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3727C5AC#32),
    StableHlo.unary main_cst_11 main_v95 (broadcastInDim S128 ![] bcast_S_S128 : (⟨S_, .f32⟩ : BufTy).Contents (Elt F) → (⟨S128, .f32⟩ : BufTy).Contents (Elt F)),
    StableHlo.binary main_v91 main_v95 main_v96 (addf : (⟨S128, .f32⟩ : BufTy).Contents (Elt F) → (⟨S128, .f32⟩ : BufTy).Contents (Elt F) → (⟨S128, .f32⟩ : BufTy).Contents (Elt F)),
    StableHlo.unary main_v96 main_v97 (Host.rsqrt : (⟨S128, .f32⟩ : BufTy).Contents (Elt F) → (⟨S128, .f32⟩ : BufTy).Contents (Elt F)),
    StableHlo.unary main_v97 main_v98 (broadcastInDim S1x128 ![1] bcast_S128_S1x128_1 : (⟨S128, .f32⟩ : BufTy).Contents (Elt F) → (⟨S1x128, .f32⟩ : BufTy).Contents (Elt F)),
    StableHlo.unary main_v98 main_v99 (broadcastInDim S50000x128 ![0, 1] bcast_S1x128_S50000x128_0_1 : (⟨S1x128, .f32⟩ : BufTy).Contents (Elt F) → (⟨S50000x128, .f32⟩ : BufTy).Contents (Elt F)),
    StableHlo.binary main_v94 main_v99 main_v100 (mulf : (⟨S50000x128, .f32⟩ : BufTy).Contents (Elt F) → (⟨S50000x128, .f32⟩ : BufTy).Contents (Elt F) → (⟨S50000x128, .f32⟩ : BufTy).Contents (Elt F)),
    StableHlo.unary main_v65 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S50000x128 ![0, 1] bcast_S1x128_S50000x128_0_1 : (⟨S1x128, .f32⟩ : BufTy).Contents (Elt F) → (⟨S50000x128, .f32⟩ : BufTy).Contents (Elt F)),
    StableHlo.binary main_v100 main_v102 main_v103 (mulf : (⟨S50000x128, .f32⟩ : BufTy).Contents (Elt F) → (⟨S50000x128, .f32⟩ : BufTy).Contents (Elt F) → (⟨S50000x128, .f32⟩ : BufTy).Contents (Elt F)),
    StableHlo.unary main_v67 main_v104 (broadcastInDim S1x128 ![1] bcast_S128_S1x128_1 : (⟨S128, .f32⟩ : BufTy).Contents (Elt F) → (⟨S1x128, .f32⟩ : BufTy).Contents (Elt F)),
    StableHlo.unary main_v104 main_v105 (broadcastInDim S50000x128 ![0, 1] bcast_S1x128_S50000x128_0_1 : (⟨S1x128, .f32⟩ : BufTy).Contents (Elt F) → (⟨S50000x128, .f32⟩ : BufTy).Contents (Elt F)) ]

/-- The window is its stretches one after the other. -/
theorem ops1_split : (ops1 : List (HloOp τ sig (Elt F))) = opsE ++ (opsF ++ (opsG ++ (opsH))) := rfl

end Cert.Gin.RefRun

end
-- ==== Proof.RefRunVal1.lean ====
/-
  What the second window of the reference program leaves in the buffers the last window reads, as terms of the
  contents before it: stretch by stretch over an arbitrary valuation, then composed.  The edge list's two rows were
  sliced by the first window; the neighbour sum here reads them from their buffers, so its statement takes their
  contents as hypotheses.
-/
import proofs.«179664_j13365938225808_1_alg».proof.Proof.RefRun1
import proofs.«179664_j13365938225808_1_alg».proof.Proof.RefTerm
import proofs.«179664_j13365938225808_1_alg».proof.Proof.LibAfterAppend

noncomputable section

namespace Cert.Gin.RefRun

open Cert.ReferenceIdeal Cert.ReferenceIdeal.Gen Idealize.ShloMosaic Idealize.ShloMosaic.TcCoe Idealize.SL.Sem Idealize.ShloMosaic.StableHlo Cert.Gin.RefTerm Cert.LibAfterAppend

/-! ## The first stretch: layer 0's output, layer 1's parameter slices, the neighbour sum -/

theorem E_v55 (W : Valuation τ sig (Elt Ideal)) :
    after (opsE (F := Ideal)) W (main_v55 : DevRef τ sig) = reluV (addf (W (main_v51 : DevRef τ sig)) (broadcastInDim S50000x128 ![0, 1] bcast_S1x128_S50000x128_0_1 (W (main_v52 : DevRef τ sig)))) := by
  after_results_simp <;> rfl

theorem E_v57 (W : Valuation τ sig (Elt Ideal)) :
    after (opsE (F := Ideal)) W (main_v57 : DevRef τ sig) = sliceW1 (W (main_arg2 : DevRef τ sig)) := by
  after_results_simp <;> rfl

theorem E_v59 (W : Valuation τ sig (Elt Ideal)) :
    after (opsE (F := Ideal)) W (main_v59 : DevRef τ sig) = sliceV1 (W (main_arg3 : DevRef τ sig)) := by
  after_results_simp <;> rfl

theorem E_v61 (W : Valuation τ sig (Elt Ideal)) :
    after (opsE (F := Ideal)) W (main_v61 : DevRef τ sig) = sliceW1 (W (main_arg4 : DevRef τ sig)) := by
  after_results_simp <;> rfl

theorem E_v63 (W : Valuation τ sig (Elt Ideal)) :
    after (opsE (F := Ideal)) W (main_v63 : DevRef τ sig) = sliceV1 (W (main_arg5 : DevRef τ sig)) := by
  after_results_simp <;> rfl

theorem E_v65 (W : Valuation τ sig (Elt Ideal)) :
    after (opsE (F := Ideal)) W (main_v65 : DevRef τ sig) = sliceV1 (W (main_arg6 : DevRef τ sig)) := by
  after_results_simp <;> rfl

theorem E_v67 (W : Valuation τ sig (Elt Ideal)) :
    after (opsE (F := Ideal)) W (main_v67 : DevRef τ sig) = sliceV1 (W (main_arg7 : DevRef τ sig)) := by
  after_results_simp <;> rfl

theorem E_v78 (W : Valuation τ sig (Elt Ideal)) (e : IVec S2x800000 32)
    (h1 : W (main_v1 : DevRef τ sig) = srcV e) (h3 : W (main_v3 : DevRef τ sig) = dstV e) :
    after (opsE (F := Ideal)) W (main_v78 : DevRef τ sig) = addf (reluV (addf (W (main_v51 : DevRef τ sig)) (broadcastInDim S50000x128 ![0, 1] bcast_S1x128_S50000x128_0_1 (W (main_v52 : DevRef τ sig))))) (agg (reluV (addf (W (main_v51 : DevRef τ sig)) (broadcastInDim S50000x128 ![0, 1] bcast_S1x128_S50000x128_0_1 (W (main_v52 : DevRef τ sig))))) e) := by
  after_results_simp
  rw [h1, h3]
  rfl

/-! ## The second stretch: the two affine maps, the column means -/

theorem F_v87 (W : Valuation τ sig (Elt Ideal)) :
    after (opsF (F := Ideal)) W (main_v87 : DevRef τ sig) = dense (reluV (dense (W (main_v78 : DevRef τ sig)) (W (main_v57 : DevRef τ sig)) (W (main_v59 : DevRef τ sig)))) (W (main_v61 : DevRef τ sig)) (W (main_v63 : DevRef τ sig)) := by
  after_results_simp <;> rfl

theorem F_v90 (W : Valuation τ sig (Elt Ideal)) :
    after (opsF (F := Ideal)) W (main_v90 : DevRef τ sig) = meanV (dense (reluV (dense (W (main_v78 : DevRef τ sig)) (W (main_v57 : DevRef τ sig)) (W (main_v59 : DevRef τ sig)))) (W (main_v61 : DevRef τ sig)) (W (main_v63 : DevRef τ sig))) := by
  after_results_simp <;> rfl

theorem F_v55 (W : Valuation τ sig (Elt Ideal)) :
    after (opsF (F := Ideal)) W (main_v55 : DevRef τ sig) = (W (main_v55 : DevRef τ sig)) := by
  after_results_simp <;> rfl

theorem F_v65 (W : Valuation τ sig (Elt Ideal)) :
    after (opsF (F := Ideal)) W (main_v65 : DevRef τ sig) = (W (main_v65 : DevRef τ sig)) := by
  after_results_simp <;> rfl

theorem F_v67 (W : Valuation τ sig (Elt Ideal)) :
    after (opsF (F := Ideal)) W (main_v67 : DevRef τ sig) = (W (main_v67 : DevRef τ sig)) := by
  after_results_simp <;> rfl

/-! ## The third stretch: the variance -/

theorem G_v91 (W : Valuation τ sig (Elt Ideal)) :
    after (opsG (F := Ideal)) W (main_v91 : DevRef τ sig) = varV (W (main_v87 : DevRef τ sig)) := by
  after_results_simp <;> rfl

theorem G_v55 (W : Valuation τ sig (Elt Ideal)) :
    after (opsG (F := Ideal)) W (main_v55 : DevRef τ sig) = (W (main_v55 : DevRef τ sig)) := by
  after_results_simp <;> rfl

theorem G_v65 (W : Valuation τ sig (Elt Ideal)) :
    after (opsG (F := Ideal)) W (main_v65 : DevRef τ sig) = (W (main_v65 : DevRef τ sig)) := by
  after_results_simp <;> rfl

theorem G_v67 (W : Valuation τ sig (Elt Ideal)) :
    after (opsG (F := Ideal)) W (main_v67 : DevRef τ sig) = (W (main_v67 : DevRef τ sig)) := by
  after_results_simp <;> rfl

theorem G_v87 (W : Valuation τ sig (Elt Ideal)) :
    after (opsG (F := Ideal)) W (main_v87 : DevRef τ sig) = (W (main_v87 : DevRef τ sig)) := by
  after_results_simp <;> rfl

theorem G_v90 (W : Valuation τ sig (Elt Ideal)) :
    after (opsG (F := Ideal)) W (main_v90 : DevRef τ sig) = (W (main_v90 : DevRef τ sig)) := by
  after_results_simp <;> rfl

/-! ## The fourth stretch: centred, times the inverse deviation, times the scale; the shift over the rows -/

theorem H_v103 (W : Valuation τ sig (Elt Ideal)) :
    after (opsH (F := Ideal)) W (main_v103 : DevRef τ sig) = mulf (mulf (subf (W (main_v87 : DevRef τ sig)) (rowB (W (main_v90 : DevRef τ sig)))) (rowB (Host.rsqrt (addf (W (main_v91 : DevRef τ sig)) (broadcastInDim S128 ![] bcast_S_S128 (constant (F := Ideal) S_ .f32 0x3727C5AC#32)))))) (rowB (W (main_v65 : DevRef τ sig))) := by
  after_results_simp <;> rfl

theorem H_v105 (W : Valuation τ sig (Elt Ideal)) :
    after (opsH (F := Ideal)) W (main_v105 : DevRef τ sig) = rowB (W (main_v67 : DevRef τ sig)) := by
  after_results_simp <;> rfl

theorem H_v55 (W : Valuation τ sig (Elt Ideal)) :
    after (opsH (F := Ideal)) W (main_v55 : DevRef τ sig) = (W (main_v55 : DevRef τ sig)) := by
  after_results_simp <;> rfl

/-! ## The window -/

theorem w1_v55 (W : Valuation τ sig (Elt Ideal)) :
    after (ops1 (F := Ideal)) W (main_v55 : DevRef τ sig) = reluV (addf (W (main_v51 : DevRef τ sig)) (broadcastInDim S50000x128 ![0, 1] bcast_S1x128_S50000x128_0_1 (W (main_v52 : DevRef τ sig)))) := by
  rw [ops1_split, after_append, after_append, after_append, H_v55, G_v55, F_v55, E_v55]

theorem w1_v105 (W : Valuation τ sig (Elt Ideal)) :
    after (ops1 (F := Ideal)) W (main_v105 : DevRef τ sig) = rowB (sliceV1 (W (main_arg7 : DevRef τ sig))) := by
  rw [ops1_split, after_append, after_append, after_append, H_v105, G_v67, F_v67, E_v67]

theorem w1_v103 (W : Valuation τ sig (Elt Ideal)) (e : IVec S2x800000 32)
    (h1 : W (main_v1 : DevRef τ sig) = srcV e) (h3 : W (main_v3 : DevRef τ sig) = dstV e) :
    after (ops1 (F := Ideal)) W (main_v103 : DevRef τ sig) = mulf (mulf (subf (zV (reluV (addf (W (main_v51 : DevRef τ sig)) (broadcastInDim S50000x128 ![0, 1] bcast_S1x128_S50000x128_0_1 (W (main_v52 : DevRef τ sig))))) e (sliceW1 (W (main_arg2 : DevRef τ sig))) (sliceV1 (W (main_arg3 : DevRef τ sig))) (sliceW1 (W (main_arg4 : DevRef τ sig))) (sliceV1 (W (main_arg5 : DevRef τ sig)))) (rowB (meanV (zV (reluV (addf (W (main_v51 : DevRef τ sig)) (broadcastInDim S50000x128 ![0, 1] bcast_S1x128_S50000x128_0_1 (W (main_v52 : DevRef τ sig))))) e (sliceW1 (W (main_arg2 : DevRef τ sig))) (sliceV1 (W (main_arg3 : DevRef τ sig))) (sliceW1 (W (main_arg4 : DevRef τ sig))) (sliceV1 (W (main_arg5 : DevRef τ sig))))))) (rowB (istdV (zV (reluV (addf (W (main_v51 : DevRef τ sig)) (broadcastInDim S50000x128 ![0, 1] bcast_S1x128_S50000x128_0_1 (W (main_v52 : DevRef τ sig))))) e (sliceW1 (W (main_arg2 : DevRef τ sig))) (sliceV1 (W (main_arg3 : DevRef τ sig))) (sliceW1 (W (main_arg4 : DevRef τ sig))) (sliceV1 (W (main_arg5 : DevRef τ sig))))))) (rowB (sliceV1 (W (main_arg6 : DevRef τ sig)))) := by
  rw [ops1_split, after_append, after_append, after_append, H_v103, G_v91, G_v87, G_v90, G_v65, F_v87, F_v90, F_v65, E_v78 W e h1 h3, E_v57, E_v59, E_v61, E_v63, E_v65]
  rfl

theorem w1_arg0 (W : Valuation τ sig (Elt Ideal)) :
    after (ops1 (F := Ideal)) W (main_arg0 : DevRef τ sig) = (W (main_arg0 : DevRef τ sig)) := by
  after_results_simp <;> rfl

theorem w1_arg1 (W : Valuation τ sig (Elt Ideal)) :
    after (ops1 (F := Ideal)) W (main_arg1 : DevRef τ sig) = (W (main_arg1 : DevRef τ sig)) := by
  after_results_simp <;> rfl

theorem w1_arg2 (W : Valuation τ sig (Elt Ideal)) :
    after (ops1 (F := Ideal)) W (main_arg2 : DevRef τ sig) = (W (main_arg2 : DevRef τ sig)) := by
  after_results_simp <;> rfl

theorem w1_arg3 (W : Valuation τ sig (Elt Ideal)) :
    after (ops1 (F := Ideal)) W (main_arg3 : DevRef τ sig) = (W (main_arg3 : DevRef τ sig)) := by
  after_results_simp <;> rfl

theorem w1_arg4 (W : Valuation τ sig (Elt Ideal)) :
    after (ops1 (F := Ideal)) W (main_arg4 : DevRef τ sig) = (W (main_arg4 : DevRef τ sig)) := by
  after_results_simp <;> rfl

theorem w1_arg5 (W : Valuation τ sig (Elt Ideal)) :
    after (ops1 (F := Ideal)) W (main_arg5 : DevRef τ sig) = (W (main_arg5 : DevRef τ sig)) := by
  after_results_simp <;> rfl

theorem w1_arg6 (W : Valuation τ sig (Elt Ideal)) :
    after (ops1 (F := Ideal)) W (main_arg6 : DevRef τ sig) = (W (main_arg6 : DevRef τ sig)) := by
  after_results_simp <;> rfl

theorem w1_arg7 (W : Valuation τ sig (Elt Ideal)) :
    after (ops1 (F := Ideal)) W (main_arg7 : DevRef τ sig) = (W (main_arg7 : DevRef τ sig)) := by
  after_results_simp <;> rfl

end Cert.Gin.RefRun

end
-- ==== Proof.RefRun2.lean ====
/-
  The last window of the reference program as a list of host operations: the second layer's shift added, the
  rectifier, the two layers' outputs each given a leading axis of length one and joined along it.
-/
import proofs.«179664_j13365938225808_1_alg».proof.Proof.Gen.ReferenceIdeal
import Idealize.ShloMosaic.Lib.StableHlo.Run
import proofs.«179664_j13365938225808_1_alg».proof.Proof.RefRunAux

noncomputable section

namespace Cert.Gin.RefRun

open Cert.ReferenceIdeal Cert.ReferenceIdeal.Gen Idealize.ShloMosaic Idealize.ShloMosaic.TcCoe Idealize.SL.Sem Idealize.ShloMosaic.StableHlo

variable {F : FTy → Type} [FloatOps F]

/-- The last window's seven operations, the rectifier's three listed at its call. -/
abbrev ops2 : List (HloOp τ sig (Elt F)) :=
  [ StableHlo.binary main_v103 main_v105 main_v106 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (StableHlo.TRef.of main_v106 : StableHlo.TRef sig ⟨S50000x128, .f32⟩) main_call5.v0 main_call5.v1 maximumf,
    StableHlo.unary main_v55 main_v108 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v107 main_v109 (broadcastInDim S1x50000x128 ![1, 2] bcast_S50000x128_S1x50000x128_1_2 : (⟨S50000x128, .f32⟩ : BufTy).Contents (Elt F) → (⟨S1x50000x128, .f32⟩ : BufTy).Contents (Elt F)),
    StableHlo.binary main_v108 main_v109 main_v110 ((fun a b => concatenate S2x50000x128 0 [⟨S1x50000x128, a⟩, ⟨S1x50000x128, b⟩] concatenates_S1x50000x128_S1x50000x128_S2x50000x128_d0) : (⟨S1x50000x128, .f32⟩ : BufTy).Contents (Elt F) → (⟨S1x50000x128, .f32⟩ : BufTy).Contents (Elt F) → (⟨S2x50000x128, .f32⟩ : BufTy).Contents (Elt F)) ]

theorem part2_eq (c : Dev nD) : main_part2 (F := F) c = seq ops2 := rfl

theorem ops2_sub : (ops2 : List (HloOp τ sig (Elt F))).Forall fun op => op.bufs ⊆ tcRefs τ sig :=
  ⟨binary_bufs_sub .., nullary_bufs_sub .., unary_bufs_sub .., binary_bufs_sub .., unary_bufs_sub .., unary_bufs_sub .., binary_bufs_sub ..⟩

theorem ops2_fresh : ∀ op ∈ (ops2 : List (HloOp τ sig (Elt F))), op.fresh = ∅ := by
  intro _ h; (repeat (cases h with | head => rfl | tail _ h => ?_)); exact nomatch h

end Cert.Gin.RefRun

end
-- ==== Proof.RefRunVal2.lean ====
/-
  What the last window of the reference program leaves in the result buffer, as a term of the contents before it.
-/
import proofs.«179664_j13365938225808_1_alg».proof.Proof.RefRun2
import proofs.«179664_j13365938225808_1_alg».proof.Proof.RefTerm
import proofs.«179664_j13365938225808_1_alg».proof.Proof.LibAfterAppend

noncomputable section

namespace Cert.Gin.RefRun

open Cert.ReferenceIdeal Cert.ReferenceIdeal.Gen Idealize.ShloMosaic Idealize.ShloMosaic.TcCoe Idealize.SL.Sem Idealize.ShloMosaic.StableHlo Cert.Gin.RefTerm Cert.LibAfterAppend

theorem w2_v110 (W : Valuation τ sig (Elt Ideal)) :
    after (ops2 (F := Ideal)) W (main_v110 : DevRef τ sig) = stackV (W (main_v55 : DevRef τ sig)) (reluV (addf (W (main_v103 : DevRef τ sig)) (W (main_v105 : DevRef τ sig)))) := by
  after_results_simp <;> rfl

theorem w2_arg0 (W : Valuation τ sig (Elt Ideal)) :
    after (ops2 (F := Ideal)) W (main_arg0 : DevRef τ sig) = (W (main_arg0 : DevRef τ sig)) := by
  after_results_simp <;> rfl

theorem w2_arg1 (W : Valuation τ sig (Elt Ideal)) :
    after (ops2 (F := Ideal)) W (main_arg1 : DevRef τ sig) = (W (main_arg1 : DevRef τ sig)) := by
  after_results_simp <;> rfl

theorem w2_arg2 (W : Valuation τ sig (Elt Ideal)) :
    after (ops2 (F := Ideal)) W (main_arg2 : DevRef τ sig) = (W (main_arg2 : DevRef τ sig)) := by
  after_results_simp <;> rfl

theorem w2_arg3 (W : Valuation τ sig (Elt Ideal)) :
    after (ops2 (F := Ideal)) W (main_arg3 : DevRef τ sig) = (W (main_arg3 : DevRef τ sig)) := by
  after_results_simp <;> rfl

theorem w2_arg4 (W : Valuation τ sig (Elt Ideal)) :
    after (ops2 (F := Ideal)) W (main_arg4 : DevRef τ sig) = (W (main_arg4 : DevRef τ sig)) := by
  after_results_simp <;> rfl

theorem w2_arg5 (W : Valuation τ sig (Elt Ideal)) :
    after (ops2 (F := Ideal)) W (main_arg5 : DevRef τ sig) = (W (main_arg5 : DevRef τ sig)) := by
  after_results_simp <;> rfl

theorem w2_arg6 (W : Valuation τ sig (Elt Ideal)) :
    after (ops2 (F := Ideal)) W (main_arg6 : DevRef τ sig) = (W (main_arg6 : DevRef τ sig)) := by
  after_results_simp <;> rfl

theorem w2_arg7 (W : Valuation τ sig (Elt Ideal)) :
    after (ops2 (F := Ideal)) W (main_arg7 : DevRef τ sig) = (W (main_arg7 : DevRef τ sig)) := by
  after_results_simp <;> rfl

end Cert.Gin.RefRun

end
-- ==== Proof.RefRun.lean ====
/-
  The reference program's run.  Its three windows are three lists of host operations run one after the other; every
  weakly fair execution terminates with each buffer at the fold of the operations over the launch contents, and the
  fold at the result buffer is the network's term of the eight arguments, the arguments themselves unchanged.
-/
import proofs.«179664_j13365938225808_1_alg».proof.Proof.RefRunVal0
import proofs.«179664_j13365938225808_1_alg».proof.Proof.RefRunVal1
import proofs.«179664_j13365938225808_1_alg».proof.Proof.RefRunVal2

noncomputable section

namespace Cert.Gin.RefRun

open Idealize.ShloMosaic Idealize.ShloMosaic.TcCoe Idealize.SL.Sem Cert.ReferenceIdeal Cert.ReferenceIdeal.Gen
open Idealize.ShloMosaic.StableHlo Cert.Gin.RefTerm Cert.LibAfterAppend

/-- @main runs its three windows in order: the three lists as one. -/
theorem main_eq (c : Dev nD) : main (F := Ideal) c = seq (ops0 ++ (ops1 ++ ops2) : List (HloOp τ sig (Elt Ideal))) := by
  rw [seq_append, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops0 ++ (ops1 ++ ops2) : List (HloOp τ sig (Elt Ideal))).Forall fun op => op.bufs ⊆ tcRefs τ sig := by
  rw [List.forall_iff_forall_mem]
  intro op h
  rcases List.mem_append.mp h with h | h
  · exact List.forall_iff_forall_mem.mp ops0_sub op h
  rcases List.mem_append.mp h with h | h
  · exact List.forall_iff_forall_mem.mp ops1_sub op h
  · exact List.forall_iff_forall_mem.mp ops2_sub op h

/-- Every operation determines its results. -/
theorem ops_fresh : ∀ op ∈ (ops0 ++ (ops1 ++ ops2) : List (HloOp τ sig (Elt Ideal))), op.fresh = ∅ := by
  intro op h
  rcases List.mem_append.mp h with h | h
  · exact ops0_fresh op h
  rcases List.mem_append.mp h with h | h
  · exact ops1_fresh op h
  · exact ops2_fresh op h

/-- The fold at the result buffer: the two layers stacked, the second fed the first one's output.  Read from the
    last window back: the stack of layer 0's output and the rectified sum of layer 1's scaled normalisation and
    shift; each of those the second window's term of what the first window left; those the first window's terms
    of the arguments. -/
theorem fin_v110 (V : Valuation τ sig (Elt Ideal)) :
    after (ops0 ++ (ops1 ++ ops2) : List (HloOp τ sig (Elt Ideal))) V (main_v110 : DevRef τ sig)
      = net (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  rw [after_append, after_append, w2_v110, w1_v55, w1_v105,
    w1_v103 (after ops0 V) (V (main_arg1 : DevRef τ sig)) (w0_v1 V) (w0_v3 V),
    w0_v51, w0_v52, w0_arg2, w0_arg3, w0_arg4, w0_arg5, w0_arg6, w0_arg7]
  rfl

theorem fin_arg0 (V : Valuation τ sig (Elt Ideal)) :
    after (ops0 ++ (ops1 ++ ops2) : List (HloOp τ sig (Elt Ideal))) V (main_arg0 : DevRef τ sig) = (V (main_arg0 : DevRef τ sig)) := by
  rw [after_append, after_append, w2_arg0, w1_arg0, w0_arg0]

theorem fin_arg1 (V : Valuation τ sig (Elt Ideal)) :
    after (ops0 ++ (ops1 ++ ops2) : List (HloOp τ sig (Elt Ideal))) V (main_arg1 : DevRef τ sig) = (V (main_arg1 : DevRef τ sig)) := by
  rw [after_append, after_append, w2_arg1, w1_arg1, w0_arg1]

theorem fin_arg2 (V : Valuation τ sig (Elt Ideal)) :
    after (ops0 ++ (ops1 ++ ops2) : List (HloOp τ sig (Elt Ideal))) V (main_arg2 : DevRef τ sig) = (V (main_arg2 : DevRef τ sig)) := by
  rw [after_append, after_append, w2_arg2, w1_arg2, w0_arg2]

theorem fin_arg3 (V : Valuation τ sig (Elt Ideal)) :
    after (ops0 ++ (ops1 ++ ops2) : List (HloOp τ sig (Elt Ideal))) V (main_arg3 : DevRef τ sig) = (V (main_arg3 : DevRef τ sig)) := by
  rw [after_append, after_append, w2_arg3, w1_arg3, w0_arg3]

theorem fin_arg4 (V : Valuation τ sig (Elt Ideal)) :
    after (ops0 ++ (ops1 ++ ops2) : List (HloOp τ sig (Elt Ideal))) V (main_arg4 : DevRef τ sig) = (V (main_arg4 : DevRef τ sig)) := by
  rw [after_append, after_append, w2_arg4, w1_arg4, w0_arg4]

theorem fin_arg5 (V : Valuation τ sig (Elt Ideal)) :
    after (ops0 ++ (ops1 ++ ops2) : List (HloOp τ sig (Elt Ideal))) V (main_arg5 : DevRef τ sig) = (V (main_arg5 : DevRef τ sig)) := by
  rw [after_append, after_append, w2_arg5, w1_arg5, w0_arg5]

theorem fin_arg6 (V : Valuation τ sig (Elt Ideal)) :
    after (ops0 ++ (ops1 ++ ops2) : List (HloOp τ sig (Elt Ideal))) V (main_arg6 : DevRef τ sig) = (V (main_arg6 : DevRef τ sig)) := by
  rw [after_append, after_append, w2_arg6, w1_arg6, w0_arg6]

theorem fin_arg7 (V : Valuation τ sig (Elt Ideal)) :
    after (ops0 ++ (ops1 ++ ops2) : List (HloOp τ sig (Elt Ideal))) V (main_arg7 : DevRef τ sig) = (V (main_arg7 : DevRef τ sig)) := by
  rw [after_append, after_append, w2_arg7, w1_arg7, w0_arg7]

/-- On every device, from any memory with zero counters: every weakly fair execution of the reference terminates
    with the result buffer at the network's term of the arguments' launch contents and the arguments unchanged. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v110)
        = Cert.Gin.RefTerm.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v110).trans (fin_v110 (launchContents m c)),
      (h c main_arg0).trans (fin_arg0 (launchContents m c)),
      (h c main_arg1).trans (fin_arg1 (launchContents m c)),
      (h c main_arg2).trans (fin_arg2 (launchContents m c)),
      (h c main_arg3).trans (fin_arg3 (launchContents m c)),
      (h c main_arg4).trans (fin_arg4 (launchContents m c)),
      (h c main_arg5).trans (fin_arg5 (launchContents m c)),
      (h c main_arg6).trans (fin_arg6 (launchContents m c)),
      (h c main_arg7).trans (fin_arg7 (launchContents m c))⟩)
    (run_seq scopedRefs_eq scopedSems_eq defs main (fun _ => (ops0 ++ (ops1 ++ ops2) : List (HloOp τ sig (Elt Ideal)))) main_eq (fun _ => ops_sub) m ρ
      (fun _ => ops_fresh))

end Cert.Gin.RefRun

end
-- ==== Proof.LibHostLayout.lean ====
/-
  The host's layout steps as one function of the index, for any extents and element type: a vector broadcast to
  every row of a matrix in two steps ([b] to [1, b] along axis 1, then [1, b] to [a, b]); a one-column matrix
  broadcast across the columns; a vector kept as a one-column matrix; a scalar splat; and, at the ideal values, the
  host's sum over the last axis of a matrix as the initial value plus the sum of the row's entries.
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.LibHostLayout

open Idealize.ShloMosaic Idealize.ShloMosaic.ValueIdx

variable {α : Type}

/-- A vector recast as a one-row matrix by a broadcast along axis 1. -/
theorem vecRow_eq {b : Nat} (x : (⟨1, ![b]⟩ : Shape).Idx → α)
    (h : (⟨1, ![b]⟩ : Shape).BroadcastsInDim ⟨2, ![1, b]⟩ (![1] : Fin 1 → Fin 2)) :
    broadcastInDim ⟨2, ![1, b]⟩ (![1] : Fin 1 → Fin 2) h x = fun i => x (ix1 (i 1)) := by
  funext i
  refine broadcastInDim_apply _ h x i (ix1 (i 1)) fun a => ?_
  match a with
  | ⟨0, _⟩ =>
    show (i 1).val = if b = 1 then 0 else (i 1).val
    split
    · next hb => have := (i 1).isLt; have : (i 1).val < b := this; omega
    · rfl

/-- A one-row matrix broadcast to every row. -/
theorem rowAll_eq {a b : Nat} (x : (⟨2, ![1, b]⟩ : Shape).Idx → α)
    (h : (⟨2, ![1, b]⟩ : Shape).BroadcastsInDim ⟨2, ![a, b]⟩ (![0, 1] : Fin 2 → Fin 2)) :
    broadcastInDim ⟨2, ![a, b]⟩ (![0, 1] : Fin 2 → Fin 2) h x = fun i => x (ix2 (0 : Fin 1) (i 1)) := by
  funext i
  refine broadcastInDim_apply _ h x i (ix2 (0 : Fin 1) (i 1)) fun c => ?_
  match c with
  | ⟨0, _⟩ => show (0 : Nat) = if (1 : Nat) = 1 then 0 else (i 0).val; rfl
  | ⟨1, _⟩ =>
    show (i 1).val = if b = 1 then 0 else (i 1).val
    split
    · next hb => have : (i 1).val < b := (i 1).isLt; omega
    · rfl

/-- A one-column matrix broadcast across the columns. -/
theorem colAll_eq {a b : Nat} (x : (⟨2, ![a, 1]⟩ : Shape).Idx → α)
    (h : (⟨2, ![a, 1]⟩ : Shape).BroadcastsInDim ⟨2, ![a, b]⟩ (![0, 1] : Fin 2 → Fin 2)) :
    broadcastInDim ⟨2, ![a, b]⟩ (![0, 1] : Fin 2 → Fin 2) h x = fun i => x (ix2 (i 0) (0 : Fin 1)) := by
  funext i
  refine broadcastInDim_apply _ h x i (ix2 (i 0) (0 : Fin 1)) fun c => ?_
  match c with
  | ⟨0, _⟩ =>
    show (i 0).val = if a = 1 then 0 else (i 0).val
    split
    · next ha => have : (i 0).val < a := (i 0).isLt; omega
    · rfl
  | ⟨1, _⟩ => show (0 : Nat) = if (1 : Nat) = 1 then 0 else (i 1).val; rfl

/-- A vector kept as a one-column matrix by a broadcast along axis 0. -/
theorem vecCol_eq {a : Nat} (x : (⟨1, ![a]⟩ : Shape).Idx → α)
    (h : (⟨1, ![a]⟩ : Shape).BroadcastsInDim ⟨2, ![a, 1]⟩ (![0] : Fin 1 → Fin 2)) :
    broadcastInDim ⟨2, ![a, 1]⟩ (![0] : Fin 1 → Fin 2) h x = fun i => x (ix1 (i 0)) := by
  funext i
  refine broadcastInDim_apply _ h x i (ix1 (i 0)) fun c => ?_
  match c with
  | ⟨0, _⟩ =>
    show (i 0).val = if a = 1 then 0 else (i 0).val
    split
    · next ha => have : (i 0).val < a := (i 0).isLt; omega
    · rfl

/-- A scalar splat to any shape. -/
theorem splat_eq {t : Shape} (x : (⟨0, ![]⟩ : Shape).Idx → α)
    (h : (⟨0, ![]⟩ : Shape).BroadcastsInDim t (![] : Fin 0 → Fin t.rank)) :
    broadcastInDim t (![] : Fin 0 → Fin t.rank) h x = fun _ => x ix0 := by
  funext i
  exact broadcastInDim_apply _ h x i ix0 fun a => a.elim0

end Cert.LibHostLayout

end
-- ==== Proof.RefRead.lean ====
/-
  The reference's term read index by index.

  Every stage of the reference's term is read at an index and found to be the corresponding stage of the
  specification: the two-step broadcast of a per-column vector is the vector at the column; the host's product is
  the matrix product; the host's sum over the rows, from zero, is the column's sum; the mean in the main
  function and the mean the variance recomputes as a row are one number; the variance's divisor, the row count
  less the converted integer zero, is the row count, which is positive, so the guarding comparison holds and the
  select takes the quotient; a slice of the stacked parameters is the layer's matrix or vector; the concatenation
  of the two layers under a new leading axis is the stack.  The neighbour sum is carried as one opaque function.
-/
import proofs.«179664_j13365938225808_1_alg».proof.Proof.RefTerm
import proofs.«179664_j13365938225808_1_alg».proof.Proof.Consts
import proofs.«179664_j13365938225808_1_alg».proof.Proof.LibMatmul
import proofs.«179664_j13365938225808_1_alg».proof.Proof.LibHostLayout
import proofs.«179664_j13365938225808_1_alg».proof.Proof.LibAxisReduce
import Idealize.ShloMosaic.Lib.ValueLayout

noncomputable section

open scoped BigOperators

namespace Cert.Gin.RefTerm.Read

open Idealize.ShloMosaic Idealize.ShloMosaic.ValueIdx Cert.ReferenceIdeal Cert.ReferenceIdeal.Gen Cert.Gin Cert.Gin.RefTerm

/-! ## Layout -/

/-- A per-column vector of an array, as a function of the column. -/
def colOf (b : FVec Ideal S128 .f32) : Col := fun q => b (ix1 q)

/-- A splat scalar at any index is the scalar. -/
theorem splat_apply {α : Type} {t : Shape} (h : S_.BroadcastsInDim t (![] : Fin 0 → Fin t.rank)) (x : S_.Idx → α)
    (i : t.Idx) : broadcastInDim t ![] h x i = x ix0 :=
  congrFun (Cert.LibHostLayout.splat_eq x h) i

/-- The two-step broadcast of a per-column vector reads the vector at the column. -/
theorem rowB_eq (b : FVec Ideal S128 .f32) : rowB b = fun i => b (ix1 (i 1)) := by
  funext i
  exact (congrFun (Cert.LibHostLayout.rowAll_eq _ bcast_S1x128_S50000x128_0_1) i).trans
    (congrFun (Cert.LibHostLayout.vecRow_eq b bcast_S128_S1x128_1) _)

/-- The rectifier is the maximum with zero. -/
theorem reluV_eq (y : FVec Ideal S50000x128 .f32) : reluV y = fun i => max (y i) 0 := by
  funext i
  show max (y i) (broadcastInDim S50000x128 ![] bcast_S_S50000x128 (constant (F := Ideal) S_ .f32 0x00000000#32) i) = _
  rw [splat_apply]
  show max (y i) (Ideal.ofBits .f32 0x00000000#32) = _
  rw [Ideal.ofBits_zero_f32]

/-! ## The affine maps -/

/-- The host's product with these dimension numbers is the matrix product. -/
theorem dot_eq (y : FVec Ideal S50000x128 .f32) (w : FVec Ideal S128x128 .f32) :
    Host.dotGeneral (F := Ideal) dot_S50000x128_S128x128_S50000x128_1_0_0_1_n_n none y w = Cert.LibMatmul.MM y w :=
  Cert.LibMatmul.dotGeneral_eq (A := 50000) (K := 128) (B := 128) dot_S50000x128_S128x128_S50000x128_1_0_0_1_n_n
    rfl rfl rfl rfl rfl rfl none .single y w

/-- An affine map of the term is the specification's. -/
theorem dense_eq (y : FVec Ideal S50000x128 .f32) (w : FVec Ideal S128x128 .f32) (b : FVec Ideal S128 .f32) :
    dense y w b = lin y w (colOf b) := by
  funext i
  show Host.dotGeneral (F := Ideal) dot_S50000x128_S128x128_S50000x128_1_0_0_1_n_n none y w i + rowB b i = _
  rw [dot_eq, rowB_eq]
  rfl

/-- The hidden activation. -/
theorem hid_eq (x a : FVec Ideal S50000x128 .f32) (w1 : FVec Ideal S128x128 .f32) (b1 : FVec Ideal S128 .f32) :
    reluV (dense (addf x a) w1 b1) = hid x a w1 (colOf b1) := by
  rw [reluV_eq, dense_eq]
  rfl

/-- The layer before normalisation. -/
theorem zV_eq (x : FVec Ideal S50000x128 .f32) (ei : IVec S2x800000 32) (w1 : FVec Ideal S128x128 .f32)
    (b1 : FVec Ideal S128 .f32) (w2 : FVec Ideal S128x128 .f32) (b2 : FVec Ideal S128 .f32) :
    zV x ei w1 b1 w2 b2 = zOf x (agg x ei) w1 (colOf b1) w2 (colOf b2) := by
  unfold zV zOf
  rw [hid_eq, dense_eq]

/-! ## Sums over the rows -/

/-- The host's sum over the rows of each column of a matrix, at column q: the starting value plus the sum of
    the entries (·, q). -/
theorem hostColSum_apply {a b : Nat} (x : FVec Ideal ⟨2, ![a, b]⟩ .f32) (init : FVec Ideal ⟨0, ![]⟩ .f32)
    (h' : (⟨2, ![a, b]⟩ : Shape).ReducesTo [0] (⟨1, ![b]⟩ : Shape))
    (h : (⟨2, ![a, b]⟩ : Shape).Reduces [0] (⟨1, ![b]⟩ : Shape)) (hu : 0 < (⟨0, ![]⟩ : Shape).numel)
    (q : Fin b) :
    Host.reduceAdd x init h' hu (ix1 q) = init ix0 + ∑ k : Fin a, x (ix2 k q) := by
  unfold Host.reduceAdd
  rw [Ideal.hostReduceAdd_def, Ideal.hostReduceAdd_single h' h]
  have hi : init (Shape.Idx.first hu) = init ix0 := congrArg init (eq_ix0 _)
  have hf : (fun k => x (h.lift (ix1 q) k)) = fun k : Fin a => x (ix2 k q) :=
    funext fun k => congrArg x (Cert.LibAxisReduce.lift_rows h q k)
  rw [hi]
  exact congrArg (fun f => init ix0 + ∑ k : Fin a, f k) hf

/-- The shape relation of a sum over the rows. -/
theorem reduces_rows : S50000x128.Reduces [0] S128 := by decide

/-- The columns' sums from zero are the columns' sums. -/
theorem sumV_apply (z : FVec Ideal S50000x128 .f32) (q : Fin 128) : sumV z (ix1 q) = colSum z q := by
  refine (hostColSum_apply (a := 50000) (b := 128) z (constant (F := Ideal) S_ .f32 0x00000000#32)
    reducesTo_S50000x128_S128_d0 reduces_rows h_S_ q).trans ?_
  show Ideal.ofBits .f32 0x00000000#32 + _ = _
  rw [Ideal.ofBits_zero_f32, zero_add]
  rfl

theorem sumV_eq (z : FVec Ideal S50000x128 .f32) : sumV z = fun j => colSum z (j 0) := by
  funext j
  obtain ⟨q, rfl⟩ : ∃ q : Fin 128, j = ix1 q := ⟨j 0, eq_ix1 j⟩
  exact sumV_apply z q

/-! ## Mean and variance -/

/-- The main function's mean. -/
theorem meanV_eq (z : FVec Ideal S50000x128 .f32) : meanV z = fun j => meanOf z (j 0) := by
  funext j
  show Ideal.div (sumV z j)
    (broadcastInDim S128 ![] bcast_S_S128 (constant (F := Ideal) S_ .f32 0x47435000#32) j) = _
  rw [splat_apply, sumV_eq]
  rfl

/-- The mean the variance recomputes as a row is the same number. -/
theorem meanRow_eq (z : FVec Ideal S50000x128 .f32) : meanRow z = fun j => meanOf z (j 1) := by
  funext j
  show Ideal.div (broadcastInDim S1x128 ![1] bcast_S128_S1x128_1 (sumV z) j)
    (broadcastInDim S1x128 ![] bcast_S_S1x128 (constant (F := Ideal) S_ .f32 0x47435000#32) j) = _
  rw [splat_apply, Cert.LibHostLayout.vecRow_eq, sumV_eq]
  rfl

/-- The deviations from the mean. -/
theorem devV_eq (z : FVec Ideal S50000x128 .f32) : devV z = fun i => z i - meanOf z (i 1) := by
  funext i
  show z i - broadcastInDim S50000x128 ![0, 1] bcast_S1x128_S50000x128_0_1 (meanRow z) i = _
  rw [Cert.LibHostLayout.rowAll_eq, meanRow_eq]

/-- The squared deviations. -/
theorem sqV_eq (z : FVec Ideal S50000x128 .f32) :
    sqV z = fun i => (z i - meanOf z (i 1)) * (z i - meanOf z (i 1)) := by
  unfold sqV
  rw [devV_eq]
  rfl

/-- The variance's divisor is the row count: the converted integer zero is zero. -/
theorem cntV_eq : cntV ix0 = cN := by
  show Ideal.ofBits .f32 0x47435000#32 - (((0#32 : BitVec 32).toInt : ℝ) : EReal) = cN
  have h0 : (((0#32 : BitVec 32).toInt : ℝ) : EReal) = 0 := by
    have : (0#32 : BitVec 32).toInt = 0 := by decide
    rw [this, Int.cast_zero, EReal.coe_zero]
  rw [h0, sub_zero]
  rfl

/-- The row count is positive. -/
theorem cN_pos : (0 : EReal) < cN := by
  rw [cN_eq]
  exact EReal.coe_pos.mpr (by norm_num)

/-- The sum of the squared deviations over the divisor is the specification's variance. -/
theorem quotV_eq (z : FVec Ideal S50000x128 .f32) : quotV z = fun j => varR z (j 0) := by
  funext j
  show Ideal.div (sumV (sqV z) j) (broadcastInDim S128 ![] bcast_S_S128 cntV j) = _
  rw [splat_apply, cntV_eq, sumV_eq, sqV_eq]
  rfl

/-- The guarding comparison holds, so the select takes the quotient. -/
theorem varV_eq (z : FVec Ideal S50000x128 .f32) : varV z = fun j => varR z (j 0) := by
  rw [← quotV_eq]
  funext j
  unfold varV
  rw [select_apply, splat_apply (x := cmpf .ogt cntV (constant (F := Ideal) S_ .f32 0x00000000#32))]
  have hc : cmpf .ogt cntV (constant (F := Ideal) S_ .f32 0x00000000#32) ix0 = 1#1 := by
    show Ideal.cmp .ogt (cntV ix0) (Ideal.ofBits .f32 0x00000000#32) = 1#1
    rw [cntV_eq, Ideal.ofBits_zero_f32]
    show BitVec.ofBool (decide ((0 : EReal) < cN)) = 1#1
    rw [decide_eq_true cN_pos]
    rfl
  rw [hc, select_one]

/-- The reciprocal square root of the variance plus ε. -/
theorem istdV_eq (z : FVec Ideal S50000x128 .f32) :
    istdV z = fun j => Ideal.rsqrt (varR z (j 0) + cEps) := by
  funext j
  show Ideal.rsqrt (varV z j
    + broadcastInDim S128 ![] bcast_S_S128 (constant (F := Ideal) S_ .f32 0x3727C5AC#32) j) = _
  rw [splat_apply, varV_eq]
  rfl

/-- The normalisation of the term is the specification's. -/
theorem normV_eq (z : FVec Ideal S50000x128 .f32) (g be : FVec Ideal S128 .f32) :
    normV z g be = normWith varR z (colOf g) (colOf be) := by
  unfold normV
  rw [reluV_eq]
  funext i
  show max ((z i - rowB (meanV z) i) * rowB (istdV z) i * rowB g i + rowB be i) 0 = _
  rw [rowB_eq, rowB_eq, rowB_eq, rowB_eq, meanV_eq, istdV_eq]
  rfl

/-- One layer of the term is one layer of the specification. -/
theorem layerV_eq (x : FVec Ideal S50000x128 .f32) (ei : IVec S2x800000 32) (w1 : FVec Ideal S128x128 .f32)
    (b1 : FVec Ideal S128 .f32) (w2 : FVec Ideal S128x128 .f32) (b2 g be : FVec Ideal S128 .f32) :
    layerV x ei w1 b1 w2 b2 g be
      = normWith varR (zOf x (agg x ei) w1 (colOf b1) w2 (colOf b2)) (colOf g) (colOf be) := by
  unfold layerV
  rw [normV_eq, zV_eq]

/-! ## The stacked parameters -/

/-- Layer 0's matrix is the first slice. -/
theorem sliceW0_eq (W : FVec Ideal S2x128x128 .f32) : sliceW0 W = mat W 0 := by
  funext i
  obtain ⟨p, q, rfl⟩ : ∃ (p : Fin 128) (q : Fin 128), i = ix2 p q := ⟨i 0, i 1, eq_ix2 i⟩
  unfold sliceW0
  refine (shapeCast_1ab_ab_apply _ shapeCasts_S1x128x128_S128x128 p q).trans ?_
  exact extractStridedSlice_apply _ W slices_S2x128x128_S1x128x128_0_0_0 _ (ix3 (0 : Fin 2) p q) fun a =>
    match a with
    | ⟨0, _⟩ => rfl
    | ⟨1, _⟩ => (Nat.zero_add _).symm
    | ⟨2, _⟩ => (Nat.zero_add _).symm

/-- Layer 1's matrix is the second slice. -/
theorem sliceW1_eq (W : FVec Ideal S2x128x128 .f32) : sliceW1 W = mat W 1 := by
  funext i
  obtain ⟨p, q, rfl⟩ : ∃ (p : Fin 128) (q : Fin 128), i = ix2 p q := ⟨i 0, i 1, eq_ix2 i⟩
  unfold sliceW1
  refine (shapeCast_1ab_ab_apply _ shapeCasts_S1x128x128_S128x128 p q).trans ?_
  exact extractStridedSlice_apply _ W slices_S2x128x128_S1x128x128_1_0_0 _ (ix3 (1 : Fin 2) p q) fun a =>
    match a with
    | ⟨0, _⟩ => rfl
    | ⟨1, _⟩ => (Nat.zero_add _).symm
    | ⟨2, _⟩ => (Nat.zero_add _).symm

/-- Layer 0's per-column vector is the first row. -/
theorem sliceV0_eq (b : FVec Ideal S2x128 .f32) : colOf (sliceV0 b) = vec b 0 := by
  funext q
  unfold colOf sliceV0
  refine (shapeCast_1a_a_apply _ shapeCasts_S1x128_S128 q).trans ?_
  exact extractStridedSlice_apply _ b slices_S2x128_S1x128_0_0 _ (ix2 (0 : Fin 2) q) fun a =>
    match a with
    | ⟨0, _⟩ => rfl
    | ⟨1, _⟩ => (Nat.zero_add _).symm

/-- Layer 1's per-column vector is the second row. -/
theorem sliceV1_eq (b : FVec Ideal S2x128 .f32) : colOf (sliceV1 b) = vec b 1 := by
  funext q
  unfold colOf sliceV1
  refine (shapeCast_1a_a_apply _ shapeCasts_S1x128_S128 q).trans ?_
  exact extractStridedSlice_apply _ b slices_S2x128_S1x128_1_0 _ (ix2 (1 : Fin 2) q) fun a =>
    match a with
    | ⟨0, _⟩ => rfl
    | ⟨1, _⟩ => (Nat.zero_add _).symm

/-! ## The stacked result -/

/-- An array under a new leading unit axis reads the array at the two trailing coordinates. -/
theorem lead1_apply (a : FVec Ideal S50000x128 .f32) (u : Fin 1) (r : Fin 50000) (q : Fin 128) :
    lead1 a (ix3 u r q) = a (ix2 r q) :=
  broadcastInDim_apply _ bcast_S50000x128_S1x50000x128_1_2 a _ (ix2 r q) fun c =>
    match c with
    | ⟨0, _⟩ => rfl
    | ⟨1, _⟩ => rfl

/-- The concatenation of the two layers under a new leading axis is the stack. -/
theorem stackV_eq (a b : FVec Ideal S50000x128 .f32) : stackV a b = stack a b := by
  funext j
  obtain ⟨l, r, q, rfl⟩ : ∃ (l : Fin 2) (r : Fin 50000) (q : Fin 128), j = ix3 l r q := ⟨j 0, j 1, j 2, eq_ix3 j⟩
  unfold stackV
  match l with
  | ⟨0, _⟩ =>
    refine (concatenate_pair_apply_left (0 : Fin S2x50000x128.rank) (lead1 a) (lead1 b)
      concatenates_S1x50000x128_S1x50000x128_S2x50000x128_d0 _ rfl (ix3 (0 : Fin 1) r q) fun c =>
        match c with
        | ⟨0, _⟩ => rfl
        | ⟨1, _⟩ => rfl
        | ⟨2, _⟩ => rfl).trans ?_
    exact lead1_apply a 0 r q
  | ⟨1, _⟩ =>
    refine (concatenate_pair_apply_right (0 : Fin S2x50000x128.rank) (lead1 a) (lead1 b)
      concatenates_S1x50000x128_S1x50000x128_S2x50000x128_d0 _ rfl rfl (ix3 (0 : Fin 1) r q)
      (fun c hc =>
        match c, hc with
        | ⟨0, _⟩, hc => absurd rfl hc
        | ⟨1, _⟩, _ => rfl
        | ⟨2, _⟩, _ => rfl)
      rfl).trans ?_
    exact lead1_apply b 0 r q

/-! ## The network -/

theorem layer0_eq (h : FVec Ideal S50000x128 .f32) (ei : IVec S2x800000 32) (W1 : FVec Ideal S2x128x128 .f32)
    (b1 : FVec Ideal S2x128 .f32) (W2 : FVec Ideal S2x128x128 .f32) (b2 g be : FVec Ideal S2x128 .f32) :
    layer0 h ei W1 b1 W2 b2 g be = layerWith varR (fun x => agg x ei) h W1 b1 W2 b2 g be 0 := by
  unfold layer0 layerWith
  rw [layerV_eq, sliceW0_eq, sliceW0_eq, sliceV0_eq, sliceV0_eq, sliceV0_eq, sliceV0_eq]

theorem layer1_eq (h : FVec Ideal S50000x128 .f32) (ei : IVec S2x800000 32) (W1 : FVec Ideal S2x128x128 .f32)
    (b1 : FVec Ideal S2x128 .f32) (W2 : FVec Ideal S2x128x128 .f32) (b2 g be : FVec Ideal S2x128 .f32) :
    layer1 h ei W1 b1 W2 b2 g be = layerWith varR (fun x => agg x ei) h W1 b1 W2 b2 g be 1 := by
  unfold layer1 layerWith
  rw [layerV_eq, sliceW1_eq, sliceW1_eq, sliceV1_eq, sliceV1_eq, sliceV1_eq, sliceV1_eq]

end Cert.Gin.RefTerm.Read

namespace Cert.Gin.RefTerm

open Idealize.ShloMosaic Cert.ReferenceIdeal Cert.Gin

/-- The reference's term is the specification's network with the variance as the mean of the squared
    deviations and the term's neighbour sum. -/
theorem net_eq_spec (h : FVec Ideal S50000x128 .f32) (ei : IVec S2x800000 32) (W1 : FVec Ideal S2x128x128 .f32)
    (b1 : FVec Ideal S2x128 .f32) (W2 : FVec Ideal S2x128x128 .f32) (b2 g be : FVec Ideal S2x128 .f32) :
    net h ei W1 b1 W2 b2 g be = netWith varR (fun x => agg x ei) h W1 b1 W2 b2 g be := by
  unfold net netWith
  rw [Read.stackV_eq, Read.layer1_eq, Read.layer0_eq]

end Cert.Gin.RefTerm

end
-- ==== Proof.LibVariance.lean ====
/-
  The two ways of computing a variance agree on finite data, over the extended reals.

  Batch normalisation needs, per column, the mean `m = (∑ a) / n` and the variance of `n` numbers.  One program takes the
  mean of the squared deviations, `(∑ (a - m)²) / n`; another keeps two running sums and takes `(∑ a²) / n - m²`.  Over the
  reals these are one number when `n` is the number of terms (expand the square and use `∑ a = n · m`).  Over the extended
  reals the identity is FALSE at infinities (`⊤ - ⊤ = ⊥`), so it is stated for data that are real numbers, with the
  division being the extended reals' `Ideal.div` by a nonzero real.  The variance so computed is a nonnegative real, so
  adding a positive `ε` gives a positive real: the reciprocal square root after it is finite.
-/
import Idealize.ShloMosaic.PureOps.Ideal

namespace Cert.LibVariance

open Idealize.ShloMosaic Finset

variable {ι : Type*} [Fintype ι]

/-- A finite sum of real numbers, read in the extended reals, is the sum of the numbers read there. -/
theorem coe_sum (s : Finset ι) (a : ι → ℝ) : ((∑ i ∈ s, a i : ℝ) : EReal) = ∑ i ∈ s, (a i : EReal) := by
  classical
  induction s using Finset.induction_on with
  | empty => simp
  | insert i s hi ih => rw [Finset.sum_insert hi, Finset.sum_insert hi, EReal.coe_add, ih]

/-- Dividing a real by a nonzero real in the extended reals is the real quotient. -/
theorem div_coe_coe (x : ℝ) {n : ℝ} (hn : n ≠ 0) : Ideal.div (x : EReal) (n : EReal) = ((x / n : ℝ) : EReal) := by
  rw [Ideal.div_coe hn, ← EReal.coe_mul, mul_one_div]

/-- Over the reals: the mean of the squared deviations from the mean is the mean of the squares minus the squared mean,
    when `n` is the number of terms. -/
theorem real_var (a : ι → ℝ) {n : ℝ} (hn : n ≠ 0) (hcard : (Fintype.card ι : ℝ) = n) :
    (∑ i, (a i - (∑ k, a k) / n) * (a i - (∑ k, a k) / n)) / n
      = (∑ i, a i * a i) / n - ((∑ k, a k) / n) * ((∑ k, a k) / n) := by
  set S := ∑ k, a k with hS
  have hexp : ∑ i, (a i - S / n) * (a i - S / n)
      = (∑ i, a i * a i) - 2 * (S / n) * S + n * ((S / n) * (S / n)) := by
    have : ∀ i, (a i - S / n) * (a i - S / n) = a i * a i - 2 * (S / n) * a i + (S / n) * (S / n) := fun i => by ring
    rw [Finset.sum_congr rfl fun i _ => this i, Finset.sum_add_distrib, Finset.sum_sub_distrib, ← Finset.mul_sum,
      Finset.sum_const, Finset.card_univ, nsmul_eq_mul, hcard]
  rw [hexp]
  field_simp
  ring

/-- Over the reals the mean of squared deviations is nonnegative when `n` is positive. -/
theorem real_var_nonneg (a : ι → ℝ) (m : ℝ) {n : ℝ} (hn : 0 < n) : 0 ≤ (∑ i, (a i - m) * (a i - m)) / n :=
  div_nonneg (Finset.sum_nonneg fun i _ => mul_self_nonneg _) hn.le

/-- The mean of real data, computed in the extended reals, is the real mean. -/
theorem mean_coe (a : ι → ℝ) {n : ℝ} (hn : n ≠ 0) :
    Ideal.div (∑ i, (a i : EReal)) (n : EReal) = (((∑ i, a i) / n : ℝ) : EReal) := by
  rw [← coe_sum, div_coe_coe _ hn]

/-- The mean of squared deviations of real data from a real centre, computed in the extended reals, is the real one. -/
theorem centred_coe (a : ι → ℝ) (m : ℝ) {n : ℝ} (hn : n ≠ 0) :
    Ideal.div (∑ i, ((a i : EReal) - (m : EReal)) * ((a i : EReal) - (m : EReal))) (n : EReal)
      = (((∑ i, (a i - m) * (a i - m)) / n : ℝ) : EReal) := by
  have : ∀ i, ((a i : EReal) - (m : EReal)) * ((a i : EReal) - (m : EReal)) = (((a i - m) * (a i - m) : ℝ) : EReal) :=
    fun i => by rw [← EReal.coe_sub, ← EReal.coe_mul]
  rw [Finset.sum_congr rfl fun i _ => this i, ← coe_sum, div_coe_coe _ hn]

/-- The mean of the squares of real data, computed in the extended reals, is the real one. -/
theorem squares_coe (a : ι → ℝ) {n : ℝ} (hn : n ≠ 0) :
    Ideal.div (∑ i, (a i : EReal) * (a i : EReal)) (n : EReal) = (((∑ i, a i * a i) / n : ℝ) : EReal) := by
  have : ∀ i, (a i : EReal) * (a i : EReal) = ((a i * a i : ℝ) : EReal) := fun i => by rw [← EReal.coe_mul]
  rw [Finset.sum_congr rfl fun i _ => this i, ← coe_sum, div_coe_coe _ hn]

/-- THE IDENTITY over the extended reals, for real data: with `m` the mean, the mean of the squared deviations from `m` is the
    mean of the squares minus `m · m`. -/
theorem var_two_forms (a : ι → ℝ) {n : ℝ} (hn : n ≠ 0) (hcard : (Fintype.card ι : ℝ) = n) :
    Ideal.div (∑ i, ((a i : EReal) - Ideal.div (∑ k, (a k : EReal)) (n : EReal))
                  * ((a i : EReal) - Ideal.div (∑ k, (a k : EReal)) (n : EReal))) (n : EReal)
      = Ideal.div (∑ i, (a i : EReal) * (a i : EReal)) (n : EReal)
          - Ideal.div (∑ k, (a k : EReal)) (n : EReal) * Ideal.div (∑ k, (a k : EReal)) (n : EReal) := by
  rw [mean_coe a hn, centred_coe a _ hn, squares_coe a hn, ← EReal.coe_mul, ← EReal.coe_sub, real_var a hn hcard]

/-- The variance of real data is a nonnegative real, so a positive `ε` added to it gives a positive real. -/
theorem var_add_eps_pos (a : ι → ℝ) {n ε : ℝ} (hn : 0 < n) (hε : 0 < ε) :
    ∃ r : ℝ, 0 < r ∧
      Ideal.div (∑ i, ((a i : EReal) - Ideal.div (∑ k, (a k : EReal)) (n : EReal))
                  * ((a i : EReal) - Ideal.div (∑ k, (a k : EReal)) (n : EReal))) (n : EReal) + (ε : EReal) = (r : EReal) := by
  refine ⟨(∑ i, (a i - (∑ k, a k) / n) * (a i - (∑ k, a k) / n)) / n + ε, ?_, ?_⟩
  · have := real_var_nonneg a ((∑ k, a k) / n) hn
    linarith
  · rw [mean_coe a hn.ne', centred_coe a _ hn.ne', ← EReal.coe_add]

end Cert.LibVariance
-- ==== Proof.Math.lean ====
/-
  The two networks are one on real data.

  The two programs' networks differ in one place only: the variance a layer normalises with.  One is the mean of the
  squared deviations from the mean, the other the mean of the squares minus the squared mean.  Over the extended reals
  these differ at infinities, but on a column of real numbers, with the divisor the number of rows, they are one number.
  So the proof follows the data through the network and shows that it stays real: a layer's affine maps and rectifiers
  keep real entries real (finite sums, products and maxima of reals are real); a column's mean is real (a real sum
  divided by 50000); the variance of a real column is a nonnegative real, so adding the positive ε gives a positive real
  whose inverse square root is real; hence a layer's output on real input is real, and the second layer, fed the first
  one's output, is again in the situation where the two variances agree.
-/
import proofs.«179664_j13365938225808_1_alg».proof.Proof.Spec
import proofs.«179664_j13365938225808_1_alg».proof.Proof.Consts
import proofs.«179664_j13365938225808_1_alg».proof.Proof.LibReal
import proofs.«179664_j13365938225808_1_alg».proof.Proof.LibVariance

noncomputable section

open scoped BigOperators

namespace Cert.Gin.Math

open Idealize.ShloMosaic Idealize.ShloMosaic.ValueIdx Cert.Gin Cert.LibReal

/-! ## The affine part of a layer keeps real entries real -/

/-- A layer's matrix, taken out of real stacked matrices, is real. -/
theorem mat_real {W : SW3.Idx → EReal} (hW : AllR W) (l : Fin 2) : AllR (mat W l) := fun _ => hW _

/-- A layer's per-column vector, taken out of real stacked vectors, is real. -/
theorem vec_real {b : SV2.Idx → EReal} (hb : AllR b) (l : Fin 2) : AllR (vec b l) := fun _ => hb _

/-- The hidden activation of real data is real: a finite sum of products of reals, plus a real, rectified. -/
theorem hid_real {x a : Mat} {w1 : SW.Idx → EReal} {b1 : Col} (hx : AllR x) (ha : AllR a) (hw : AllR w1)
    (hb : AllR b1) : AllR (hid x a w1 b1) := by
  intro i
  show IsR (max ((∑ k : Fin 128, (x (ix2 (i 0) k) + a (ix2 (i 0) k)) * w1 (ix2 k (i 1))) + b1 (i 1)) 0)
  exact ((IsR.sum _ _ fun k _ => ((hx _).add (ha _)).mul (hw _)).add (hb _)).max isR_zero

/-- An affine map of real data is real. -/
theorem lin_real {y : Mat} {w : SW.Idx → EReal} {b : Col} (hy : AllR y) (hw : AllR w) (hb : AllR b) :
    AllR (lin y w b) := by
  intro i
  show IsR ((∑ k : Fin 128, y (ix2 (i 0) k) * w (ix2 k (i 1))) + b (i 1))
  exact (IsR.sum _ _ fun k _ => (hy _).mul (hw _)).add (hb _)

/-- The layer before normalisation is real on real data. -/
theorem zOf_real {x a : Mat} {w1 : SW.Idx → EReal} {b1 : Col} {w2 : SW.Idx → EReal} {b2 : Col} (hx : AllR x)
    (ha : AllR a) (hw1 : AllR w1) (hb1 : AllR b1) (hw2 : AllR w2) (hb2 : AllR b2) :
    AllR (zOf x a w1 b1 w2 b2) :=
  lin_real (hid_real hx ha hw1 hb1) hw2 hb2

/-! ## A real column's mean and variances, in terms of the column's numbers -/

/-- A column's mean, written out. -/
theorem meanOf_apply (z : Mat) (q : Fin 128) : meanOf z q = Ideal.div (∑ r : Fin 50000, z (ix2 r q)) cN := rfl

/-- The mean-of-squares variance of a column, written out. -/
theorem varK_apply (z : Mat) (q : Fin 128) :
    varK z q = Ideal.div (∑ r : Fin 50000, z (ix2 r q) * z (ix2 r q)) cN - meanOf z q * meanOf z q := rfl

/-- The mean-of-squared-deviations variance of a column, written out: the deviations are from that column's mean. -/
theorem varR_apply (z : Mat) (q : Fin 128) :
    varR z q = Ideal.div (∑ r : Fin 50000, (z (ix2 r q) - meanOf z q) * (z (ix2 r q) - meanOf z q)) cN := rfl

/-- The mean of a column of real numbers a is (∑ a) / 50000. -/
theorem meanOf_col {z : Mat} {q : Fin 128} {a : Fin 50000 → ℝ} (ha : ∀ r, z (ix2 r q) = (a r : EReal)) :
    meanOf z q = Ideal.div (∑ k, (a k : EReal)) ((50000 : ℝ) : EReal) := by
  rw [meanOf_apply, cN_eq]
  simp only [ha]

/-- The mean-of-squares variance of a column of real numbers a. -/
theorem varK_col {z : Mat} {q : Fin 128} {a : Fin 50000 → ℝ} (ha : ∀ r, z (ix2 r q) = (a r : EReal)) :
    varK z q = Ideal.div (∑ i, (a i : EReal) * (a i : EReal)) ((50000 : ℝ) : EReal)
      - Ideal.div (∑ k, (a k : EReal)) ((50000 : ℝ) : EReal) * Ideal.div (∑ k, (a k : EReal)) ((50000 : ℝ) : EReal) := by
  rw [varK_apply, meanOf_col ha, cN_eq]
  simp only [ha]

/-- The mean-of-squared-deviations variance of a column of real numbers a. -/
theorem varR_col {z : Mat} {q : Fin 128} {a : Fin 50000 → ℝ} (ha : ∀ r, z (ix2 r q) = (a r : EReal)) :
    varR z q = Ideal.div (∑ i, ((a i : EReal) - Ideal.div (∑ k, (a k : EReal)) ((50000 : ℝ) : EReal))
        * ((a i : EReal) - Ideal.div (∑ k, (a k : EReal)) ((50000 : ℝ) : EReal))) ((50000 : ℝ) : EReal) := by
  rw [varR_apply, meanOf_col ha, cN_eq]
  simp only [ha]

/-- A real array's column is a family of real numbers. -/
theorem col_numbers {z : Mat} (hz : AllR z) (q : Fin 128) :
    ∃ a : Fin 50000 → ℝ, ∀ r, z (ix2 r q) = (a r : EReal) := by
  have h : ∀ r : Fin 50000, ∃ x : ℝ, z (ix2 r q) = (x : EReal) := fun r => hz (ix2 r q)
  choose a ha using h
  exact ⟨a, ha⟩

/-- The mean of real data is real. -/
theorem meanOf_real {z : Mat} (hz : AllR z) : AllR (meanOf z) := by
  intro q
  show IsR (Ideal.div (colSum z q) cN)
  rw [cN_eq]
  exact (IsR.sum _ _ fun r _ => hz _).div (by norm_num)

/-- On real data the two variances are one: 50000 is the number of rows. -/
theorem var_eq {z : Mat} (hz : AllR z) : varK z = varR z := by
  funext q
  obtain ⟨a, ha⟩ := col_numbers hz q
  rw [varK_col ha, varR_col ha]
  exact (Cert.LibVariance.var_two_forms (ι := Fin 50000) a (n := 50000) (by norm_num) (by simp)).symm

/-- On real data the variance plus ε is a positive real. -/
theorem varR_eps_pos {z : Mat} (hz : AllR z) (q : Fin 128) : ∃ r : ℝ, 0 < r ∧ varR z q + cEps = (r : EReal) := by
  obtain ⟨a, ha⟩ := col_numbers hz q
  obtain ⟨e, he, hE⟩ := cEps_pos
  rw [varR_col ha, hE]
  exact Cert.LibVariance.var_add_eps_pos (ι := Fin 50000) a (n := 50000) (ε := e) (by norm_num) he

/-! ## The normalisation -/

/-- On real data the two normalisations agree. -/
theorem normWith_eq {z : Mat} (hz : AllR z) (g be : Col) : normWith varK z g be = normWith varR z g be := by
  unfold normWith
  rw [var_eq hz]

/-- The normalisation of real data with real scale and shift is real: the inverse square root is taken of a
    positive real. -/
theorem normWith_real {z : Mat} {g be : Col} (hz : AllR z) (hg : AllR g) (hbe : AllR be) :
    AllR (normWith varR z g be) := by
  intro i
  show IsR (max ((z i - meanOf z (i 1)) * Ideal.rsqrt (varR z (i 1) + cEps) * g (i 1) + be (i 1)) 0)
  obtain ⟨r, hr, e⟩ := varR_eps_pos hz (i 1)
  have hrs : IsR (Ideal.rsqrt (varR z (i 1) + cEps)) := by rw [e]; exact isR_rsqrt hr
  exact (((((hz i).sub (meanOf_real hz _)).mul hrs).mul (hg _)).add (hbe _)).max isR_zero

/-! ## A layer, and the network -/

/-- On real input whose neighbour sum is real, with real parameters, a layer is the same with either variance. -/
theorem layer_eq (A : Mat → Mat) (x : Mat) (W1 : SW3.Idx → EReal) (b1 : SV2.Idx → EReal) (W2 : SW3.Idx → EReal)
    (b2 g be : SV2.Idx → EReal) (hx : AllR x) (hAx : AllR (A x)) (hW1 : AllR W1) (hb1 : AllR b1) (hW2 : AllR W2)
    (hb2 : AllR b2) (l : Fin 2) :
    layerWith varK A x W1 b1 W2 b2 g be l = layerWith varR A x W1 b1 W2 b2 g be l :=
  normWith_eq (zOf_real hx hAx (mat_real hW1 l) (vec_real hb1 l) (mat_real hW2 l) (vec_real hb2 l)) _ _

/-- ... and its output is real. -/
theorem layer_real (A : Mat → Mat) (x : Mat) (W1 : SW3.Idx → EReal) (b1 : SV2.Idx → EReal) (W2 : SW3.Idx → EReal)
    (b2 g be : SV2.Idx → EReal) (hx : AllR x) (hAx : AllR (A x)) (hW1 : AllR W1) (hb1 : AllR b1) (hW2 : AllR W2)
    (hb2 : AllR b2) (hg : AllR g) (hbe : AllR be) (l : Fin 2) :
    AllR (layerWith varR A x W1 b1 W2 b2 g be l) :=
  normWith_real (zOf_real hx hAx (mat_real hW1 l) (vec_real hb1 l) (mat_real hW2 l) (vec_real hb2 l))
    (vec_real hg l) (vec_real hbe l)

/-- THE NETWORKS AGREE on real data when the neighbour sum keeps real data real: the first layers agree, their common
    output is real, so the second layers, fed that output, agree as well. -/
theorem net_eq (A : Mat → Mat) (hA : ∀ x : Mat, AllR x → AllR (A x)) (h : Mat) (W1 : SW3.Idx → EReal)
    (b1 : SV2.Idx → EReal) (W2 : SW3.Idx → EReal) (b2 g be : SV2.Idx → EReal)
    (hh : AllR h) (hW1 : AllR W1) (hb1 : AllR b1) (hW2 : AllR W2) (hb2 : AllR b2) (hg : AllR g) (hbe : AllR be) :
    netWith varK A h W1 b1 W2 b2 g be = netWith varR A h W1 b1 W2 b2 g be := by
  have e0 : layerWith varK A h W1 b1 W2 b2 g be 0 = layerWith varR A h W1 b1 W2 b2 g be 0 :=
    layer_eq A h W1 b1 W2 b2 g be hh (hA h hh) hW1 hb1 hW2 hb2 0
  have r0 : AllR (layerWith varR A h W1 b1 W2 b2 g be 0) :=
    layer_real A h W1 b1 W2 b2 g be hh (hA h hh) hW1 hb1 hW2 hb2 hg hbe 0
  unfold netWith
  rw [e0, layer_eq A _ W1 b1 W2 b2 g be r0 (hA _ r0) hW1 hb1 hW2 hb2 1]

end Cert.Gin.Math

end
-- ==== Proof.FinPre.lean ====
/-
  Under the precondition "every float argument is finite" every float argument array holds real numbers only.

  The precondition is a conjunction of seven tests, one per float array, each of the form
  "all entries x satisfy |x| < +inf".  Over the extended reals |x| = max x (-x), and the word 0x7F800000 denotes
  the top element; max x (-x) lies strictly below the top exactly when x is neither the top nor the bottom,
  that is, when x is a real number.
-/
import proofs.«179664_j13365938225808_1_alg».proof.Defs
import proofs.«179664_j13365938225808_1_alg».proof.Proof.Gen.Pre_finite_inputs
import proofs.«179664_j13365938225808_1_alg».proof.Proof.LibReal
import Idealize.ShloMosaic.Lib.ReduceAll
import Idealize.ShloMosaic.Lib.ValueIdx

noncomputable section

namespace Cert.Gin.Fin

open Idealize.ShloMosaic Cert.LibReal Cert.Pre_finite_inputs

/-- The float word 0x7F800000 denotes the top element. -/
theorem pre_inf_word : Ideal.ofBits .f32 0x7F800000#32 = (⊤ : EReal) := by
  simp [Ideal.ofBits, Ideal.ieee]

/-- An extended real whose absolute value lies strictly below the top is a real number. -/
theorem pre_isR_of_abs_lt_top (x : EReal) (h : max x (-x) < ⊤) : IsR x := by
  induction x using EReal.rec with
  | bot => simp at h
  | coe r => exact ⟨r, rfl⟩
  | top => simp at h

/-- The comparison word of |x| < +inf being 1 makes x a real number. -/
theorem pre_isR_of_cmp (x : EReal) (h : Ideal.cmp .olt (max x (-x)) (Ideal.ofBits .f32 0x7F800000#32) = 1#1) :
    IsR x := by
  rw [pre_inf_word] at h
  refine pre_isR_of_abs_lt_top x ?_
  by_contra hn
  simp [Ideal.cmp, hn] at h

/-- One conjunct: an array all of whose entries pass the test |x| < +inf holds real numbers only. -/
theorem pre_allR_of_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi
        (cmpf .olt (Host.absf x) (broadcastInDim s ![] hb (constant (F := Ideal) S_ .f32 0x7F800000#32)))
        (constantI S_ 1 1#1) hr hu j = 1#1) : AllR x := by
  haveI : Subsingleton S_.Idx := ⟨fun a b => funext fun d => d.elim0⟩
  intro i
  have h := Host.reduce_andi_all _ _ hr hu j e i
  exact pre_isR_of_cmp (x i) h

/-- The printed test, over plain arrays: when it comes out 1, the seven float arrays hold real numbers only
    (the integer array is not tested). -/
theorem real_of_fn [hF : Facts] (x0 : FVec Ideal S50000x128 .f32) (x1 : IVec S2x800000 32)
    (x2 : FVec Ideal S2x128x128 .f32) (x3 : FVec Ideal S2x128 .f32) (x4 : FVec Ideal S2x128x128 .f32)
    (x5 x6 x7 : FVec Ideal S2x128 .f32)
    (h : fn (F := Ideal) x0 x1 x2 x3 x4 x5 x6 x7 = fun _ => 1#1) :
    AllR x0 ∧ AllR x2 ∧ AllR x3 ∧ AllR x4 ∧ AllR x5 ∧ AllR x6 ∧ AllR x7 := by
  have h0 := congrFun h ValueIdx.ix0
  dsimp only [fn, fn_part1, andi] at h0
  obtain ⟨h28, h32⟩ := IntOp.andi_eq_one.1 h0
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨pre_allR_of_all x0 _ _ _ _ h3, pre_allR_of_all x2 _ _ _ _ h7, pre_allR_of_all x3 _ _ _ _ h12,
    pre_allR_of_all x4 _ _ _ _ h17, pre_allR_of_all x5 _ _ _ _ h22, pre_allR_of_all x6 _ _ _ _ h27,
    pre_allR_of_all x7 _ _ _ _ h32⟩

/-- Under the certificate's precondition every float argument array holds real numbers only, on every device. -/
theorem real_of_pre (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m)
    (c : Dev Cert.KernelIdeal.nD) :
    AllR (m ((c.tc : Thread Cert.KernelIdeal.nD Cert.KernelIdeal.τ).loc Cert.KernelIdeal.main_arg0))
    ∧ AllR (m ((c.tc : Thread Cert.KernelIdeal.nD Cert.KernelIdeal.τ).loc Cert.KernelIdeal.main_arg2))
    ∧ AllR (m ((c.tc : Thread Cert.KernelIdeal.nD Cert.KernelIdeal.τ).loc Cert.KernelIdeal.main_arg3))
    ∧ AllR (m ((c.tc : Thread Cert.KernelIdeal.nD Cert.KernelIdeal.τ).loc Cert.KernelIdeal.main_arg4))
    ∧ AllR (m ((c.tc : Thread Cert.KernelIdeal.nD Cert.KernelIdeal.τ).loc Cert.KernelIdeal.main_arg5))
    ∧ AllR (m ((c.tc : Thread Cert.KernelIdeal.nD Cert.KernelIdeal.τ).loc Cert.KernelIdeal.main_arg6))
    ∧ AllR (m ((c.tc : Thread Cert.KernelIdeal.nD Cert.KernelIdeal.τ).loc Cert.KernelIdeal.main_arg7)) :=
  real_of_fn (hF := Cert.Pre_finite_inputs.Gen.facts) _ _ _ _ _ _ _ _ (hpre c)

end Cert.Gin.Fin

end
-- ==== Proof.FinAgg.lean ====
/-
  Gathers and scatter-adds keep arrays of real numbers real.

  A gather only copies entries of its operand, so it keeps an array of real numbers real; a scatter-add's entry is
  the operand's entry plus a finite sum of update entries, and real numbers are closed under finite sums.  Neither
  fact depends on the dimension numbers or on the index words.
-/
import Idealize.ShloMosaic.PureOps.Ideal.Laws
import proofs.«179664_j13365938225808_1_alg».proof.Proof.LibReal

noncomputable section

open scoped BigOperators

namespace Cert.Gin.Fin

open Idealize.ShloMosaic Cert.LibReal

/-- A gather of an array of real numbers holds real numbers only: every entry is an entry of the operand. -/
theorem agg_gather_real {s si t : Shape} {w : Nat} (d : GatherDims s si t) (x : s.Idx → EReal) (hx : AllR x)
    (idx : IVec si w) : AllR (Host.gather d x idx) :=
  fun j => hx (d.operandIdx j idx)

/-- A scatter-add of real updates into an array of real numbers holds real numbers only: every entry is the
    operand's entry plus a finite sum of update entries. -/
theorem agg_scatterAdd_real {s si su : Shape} {w : Nat} {φ : FTy} (d : ScatterDims s si su) (x : s.Idx → EReal)
    (hx : AllR x) (idx : IVec si w) (upd : su.Idx → EReal) (hu : AllR upd) :
    AllR (Host.scatterAdd (F := Ideal) (φ := φ) d x idx upd) :=
  fun i => (hx i).add (IsR.sum _ _ fun j _ => hu j)

end Cert.Gin.Fin

end
-- ==== Proof.BridgeAgg.lean ====
/-
  The two programs' neighbour sums are one function, and it keeps arrays of real numbers real.

  Both programs cut the edge list into its source and target rows, wrap a negative source index by the number of
  rows, gather the source rows of x and add them onto zeros at the target rows.  They spell this with the same
  operations over the same shapes and the same dimension numbers, each declared once per program; the two
  declarations have the same data, so the two terms are one.  The sum starts from an array of zeros, gathers entries
  of x and adds finitely many of them up, so it is real wherever x is.
-/
import proofs.«179664_j13365938225808_1_alg».proof.Proof.KerHost
import proofs.«179664_j13365938225808_1_alg».proof.Proof.RefTerm
import proofs.«179664_j13365938225808_1_alg».proof.Proof.FinAgg
import proofs.«179664_j13365938225808_1_alg».proof.Proof.LibReal
import Idealize.ShloMosaic.Lib.IdealHost

noncomputable section

namespace Cert.Gin.Bridge

open Idealize.ShloMosaic Cert.LibReal

/-- The two programs' gathers have the same dimension numbers. -/
theorem gather_dims_same :
    Cert.KernelIdeal.gather_S50000x128_S800000x1_S800000x128_1_0_n_n_0_1_1128
      = Cert.ReferenceIdeal.gather_S50000x128_S800000x1_S800000x128_1_0_n_n_0_1_1128 := rfl

/-- The two programs' scatter-adds have the same dimension numbers. -/
theorem scatter_dims_same :
    Cert.KernelIdeal.scatter_S50000x128_S800000x1_S800000x128_1_0_0_1
      = Cert.ReferenceIdeal.scatter_S50000x128_S800000x1_S800000x128_1_0_0_1 := rfl

/-- The edges' source rows are cut the same way. -/
theorem src_same (ei : Cert.Gin.KerHost.Edges) : Cert.Gin.KerHost.srcK ei = Cert.Gin.RefTerm.srcV ei := rfl

/-- The edges' target rows are cut the same way. -/
theorem dst_same (ei : Cert.Gin.KerHost.Edges) : Cert.Gin.KerHost.dstK ei = Cert.Gin.RefTerm.dstV ei := rfl

/-- The two programs' neighbour sums are one function of x and the edge list. -/
theorem agg_same (x : FVec Ideal Cert.KernelIdeal.S50000x128 .f32) (ei : Cert.Gin.KerHost.Edges) :
    Cert.Gin.KerHost.aggK x (Cert.Gin.KerHost.srcK ei) (Cert.Gin.KerHost.dstK ei) = Cert.Gin.RefTerm.agg x ei := by
  rw [src_same, dst_same]
  unfold Cert.Gin.KerHost.aggK Cert.Gin.RefTerm.agg Cert.Gin.RefTerm.gathered Cert.Gin.RefTerm.srcW
  rw [gather_dims_same, scatter_dims_same]

/-- The neighbour sum of an array of real numbers holds real numbers only. -/
theorem agg_real (x : FVec Ideal Cert.ReferenceIdeal.S50000x128 .f32) (ei : IVec Cert.ReferenceIdeal.S2x800000 32)
    (hx : AllR x) : AllR (Cert.Gin.RefTerm.agg x ei) := by
  unfold Cert.Gin.RefTerm.agg Cert.Gin.RefTerm.gathered
  refine Cert.Gin.Fin.agg_scatterAdd_real _ _ ?_ _ _ (Cert.Gin.Fin.agg_gather_real _ x hx _)
  intro i
  refine (congrArg IsR ((ValueIdx.broadcastInDim_scalar_apply _ _ i).trans Ideal.ofBits_zero_f32)).mpr isR_zero

end Cert.Gin.Bridge

end
-- ==== Proof.lean ====
/-
  A two-layer graph network with batch normalisation, as a tiled kernel program and as plain array code, compute
  the same function over the extended reals when the float inputs are finite.

  Each layer adds to every node's features the sum of its in-neighbours' features, applies two affine maps with a
  rectifier between them, and normalises every column over the 50000 nodes.  The kernel program does the affine maps
  block by block (ten blocks of 5000 rows), keeps two running column sums — of z and of z² — across the blocks, and
  takes the variance as (∑ z²) / N - mean²; the array code takes the mean of the squared deviations from the mean.
  Both runs are read as the specification's network (Proof/Spec.lean) with the respective variance: the kernel program's
  through its four regions and the host operations between them, the array code's through its operations one by one.
  On real data the two variances are one number, because N is the number of rows; the neighbour sum, the affine maps,
  the rectifier, the mean, the variance plus a positive ε and its reciprocal square root keep real data real, so the
  second layer's input is real like the first's, and the two networks agree.  Finiteness of the inputs is exactly what
  the precondition states.  The idealization rewrote no operation, so nothing is owed for it.
-/
import proofs.«179664_j13365938225808_1_alg».proof.Defs
import proofs.«179664_j13365938225808_1_alg».proof.Proof.Gen.Kernel
import proofs.«179664_j13365938225808_1_alg».proof.Proof.Gen.Kernel.Frame
import proofs.«179664_j13365938225808_1_alg».proof.Proof.Gen.KernelIdeal
import proofs.«179664_j13365938225808_1_alg».proof.Proof.Gen.KernelIdeal.Frame
import proofs.«179664_j13365938225808_1_alg».proof.Proof.Gen.ReferenceIdeal
import proofs.«179664_j13365938225808_1_alg».proof.Proof.Gen.Pre_finite_inputs
import proofs.«179664_j13365938225808_1_alg».proof.Proof.KerRun
import proofs.«179664_j13365938225808_1_alg».proof.Proof.KerValue
import proofs.«179664_j13365938225808_1_alg».proof.Proof.RefRun
import proofs.«179664_j13365938225808_1_alg».proof.Proof.RefRead
import proofs.«179664_j13365938225808_1_alg».proof.Proof.Math
import proofs.«179664_j13365938225808_1_alg».proof.Proof.FinPre
import proofs.«179664_j13365938225808_1_alg».proof.Proof.BridgeAgg

noncomputable section

namespace Cert.Proof

open Idealize.ShloMosaic Idealize.ShloMosaic.TcCoe Idealize.SL.Sem

/-- The kernel program as printed runs and leaves its arguments alone. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The array code runs and leaves its arguments alone: its run, with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.Gin.RefRun.run m ρ)

/-- Both runs end at the network with the variance as the mean of squared deviations, of the shared arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Gin.netWith Cert.Gin.varR (fun x => Cert.Gin.RefTerm.agg x (m ((c.tc : Thread Cert.KernelIdeal.nD Cert.KernelIdeal.τ).loc Cert.KernelIdeal.main_arg1)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩) (Cert.Gin.KerRun.run_value (F := Ideal) m ρ)
    obtain ⟨h0, h2, h3, h4, h5, h6, h7⟩ := Cert.Gin.Fin.real_of_pre m hpre c
    rw [Cert.Gin.KerValue.result_value m ρ c]
    have hA : Cert.Gin.KerValue.AK (m ((c.tc : Thread Cert.KernelIdeal.nD Cert.KernelIdeal.τ).loc Cert.KernelIdeal.main_arg1)) = fun x => Cert.Gin.RefTerm.agg x (m ((c.tc : Thread Cert.KernelIdeal.nD Cert.KernelIdeal.τ).loc Cert.KernelIdeal.main_arg1)) :=
      funext fun x => Cert.Gin.Bridge.agg_same x _
    rw [hA]
    exact Cert.Gin.Math.net_eq _ (fun x hx => Cert.Gin.Bridge.agg_real x _ hx) _ _ _ _ _ _ _ h0 h2 h3 h4 h5 h6 h7
  · refine (θ_run Cert.ReferenceIdeal.defs _ _).mono (fun r h c => ⟨(h c).1.trans ?_, (h c).2⟩) (Cert.Gin.RefRun.run m' ρ')
    rw [Cert.Gin.RefTerm.net_eq_spec, (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
